-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v235)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v235) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S8192 : Shape := ⟨1, ![8192]⟩
abbrev S262144 : Shape := ⟨1, ![262144]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x64 .f32) (main_arg1 : FVec F S1600000 .f32) (main_arg2 : FVec F S1600000 .f32) (main_arg3 : FVec F S1600000 .f32) (main_arg4 : IVec S1600000 32) (main_arg5 : IVec S1600000 32) (main_arg6 : IVec S8192 32) (main_arg7 : IVec S262144 32) (main_arg8 : IVec S262144 32) (main_arg9 : IVec S262144 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x64 : Shape := ⟨2, ![100000, 64]⟩
abbrev S1600000 : Shape := ⟨1, ![1600000]⟩
abbrev S8192 : Shape := ⟨1, ![8192]⟩
abbrev S262144 : Shape := ⟨1, ![262144]⟩
abbrev S1600000x1 : Shape := ⟨2, ![1600000, 1]⟩
abbrev S_ : Shape := ⟨0, ![]⟩
abbrev S1600000x64 : Shape := ⟨2, ![1600000, 64]⟩
abbrev S8192x1 : Shape := ⟨2, ![8192, 1]⟩
abbrev S8192x64 : Shape := ⟨2, ![8192, 64]⟩
abbrev S1024x64 : Shape := ⟨2, ![1024, 64]⟩
abbrev S1024x1 : Shape := ⟨2, ![1024, 1]⟩
abbrev S1024x1024 : Shape := ⟨2, ![1024, 1024]⟩
abbrev S1024 : Shape := ⟨1, ![1024]⟩
abbrev S262144x1 : Shape := ⟨2, ![262144, 1]⟩
abbrev S262144x64 : Shape := ⟨2, ![262144, 64]⟩

abbrev nBuf : Space → Nat
  | .hbm => 324
  | .vmem => 7
  | .smem => 0
  | _ => 0

abbrev hbmTy0_0 (i : Nat) : BufTy := match i % 128 with
  | 0 => ⟨S100000x64, .f32⟩
  | 1 => ⟨S1600000, .f32⟩
  | 2 => ⟨S1600000, .f32⟩
  | 3 => ⟨S1600000, .f32⟩
  | 4 => ⟨S1600000, .i32⟩
  | 5 => ⟨S1600000, .i32⟩
  | 6 => ⟨S8192, .i32⟩
  | 7 => ⟨S262144, .i32⟩
  | 8 => ⟨S262144, .i32⟩
  | 9 => ⟨S262144, .i32⟩
  | 10 => ⟨S1600000x1, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S1600000x64, .f32⟩
  | 21 => ⟨S1600000x64, .f32⟩
  | 22 => ⟨S_, .f32⟩
  | 23 => ⟨S100000x64, .f32⟩
  | 24 => ⟨S1600000x1, .i32⟩
  | 25 => ⟨S100000x64, .f32⟩
  | 26 => ⟨S100000x64, .f32⟩
  | 27 => ⟨S1600000x1, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x64, .f32⟩
  | 37 => ⟨S1600000x64, .f32⟩
  | 38 => ⟨S1600000x64, .f32⟩
  | 39 => ⟨S_, .f32⟩
  | 40 => ⟨S100000x64, .f32⟩
  | 41 => ⟨S1600000x1, .i32⟩
  | 42 => ⟨S100000x64, .f32⟩
  | 43 => ⟨S100000x64, .f32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x64, .f32⟩
  | 73 => ⟨S1600000x1, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x64, .f32⟩
  | 83 => ⟨S1600000x64, .f32⟩
  | 84 => ⟨S1600000x64, .f32⟩
  | 85 => ⟨S_, .f32⟩
  | 86 => ⟨S100000x64, .f32⟩
  | 87 => ⟨S1600000x1, .i32⟩
  | 88 => ⟨S100000x64, .f32⟩
  | 89 => ⟨S100000x64, .f32⟩
  | 90 => ⟨S1600000x1, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S1600000x64, .f32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S100000x64, .f32⟩
  | 107 => ⟨S1600000x1, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S1600000x64, .f32⟩
  | 118 => ⟨S1600000x64, .f32⟩
  | 119 => ⟨S_, .f32⟩
  | 120 => ⟨S100000x64, .f32⟩
  | 121 => ⟨S1600000x1, .i32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .i32⟩
  | _ => ⟨S100000x64, .f32⟩

abbrev hbmTy0_1 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S8192x1, .i32⟩
  | 7 => ⟨S8192x64, .f32⟩
  | 8 => ⟨S8192x64, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S8192x64, .f32⟩
  | 16 => ⟨S8192x64, .f32⟩
  | 17 => ⟨S8192x64, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x64, .f32⟩
  | 25 => ⟨S8192x64, .f32⟩
  | 26 => ⟨S8192x1, .f32⟩
  | 27 => ⟨S8192, .f32⟩
  | 28 => ⟨S8192x64, .f32⟩
  | 29 => ⟨S_, .f32⟩
  | 30 => ⟨S8192, .f32⟩
  | 31 => ⟨S_, .f32⟩
  | 32 => ⟨S8192, .f32⟩
  | 33 => ⟨S8192, .f32⟩
  | 34 => ⟨S8192, .f32⟩
  | 35 => ⟨S8192, .f32⟩
  | 36 => ⟨S8192, .f32⟩
  | 37 => ⟨S_, .f32⟩
  | 38 => ⟨S_, .f32⟩
  | 39 => ⟨S_, .f32⟩
  | 40 => ⟨S1600000x1, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x64, .f32⟩
  | 50 => ⟨S1600000x64, .f32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S100000x64, .f32⟩
  | 57 => ⟨S1600000x1, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S1600000x64, .f32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S100000x64, .f32⟩
  | 74 => ⟨S1600000x1, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x64, .f32⟩
  | 84 => ⟨S1600000x64, .f32⟩
  | 85 => ⟨S1600000x64, .f32⟩
  | 86 => ⟨S_, .f32⟩
  | 87 => ⟨S100000x64, .f32⟩
  | 88 => ⟨S1600000x1, .i32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S_, .i32⟩
  | 95 => ⟨S262144, .i32⟩
  | 96 => ⟨S262144, .i1⟩
  | 97 => ⟨S_, .i32⟩
  | 98 => ⟨S262144, .i32⟩
  | 99 => ⟨S262144, .i32⟩
  | 100 => ⟨S262144, .i32⟩
  | 101 => ⟨S262144x1, .i32⟩
  | 102 => ⟨S262144x64, .f32⟩
  | 103 => ⟨S_, .i32⟩
  | 104 => ⟨S262144, .i32⟩
  | 105 => ⟨S262144, .i1⟩
  | 106 => ⟨S_, .i32⟩
  | 107 => ⟨S262144, .i32⟩
  | 108 => ⟨S262144, .i32⟩
  | 109 => ⟨S262144, .i32⟩
  | 110 => ⟨S262144x1, .i32⟩
  | 111 => ⟨S262144x64, .f32⟩
  | 112 => ⟨S_, .i32⟩
  | 113 => ⟨S262144, .i32⟩
  | 114 => ⟨S262144, .i1⟩
  | 115 => ⟨S_, .i32⟩
  | 116 => ⟨S262144, .i32⟩
  | 117 => ⟨S262144, .i32⟩
  | 118 => ⟨S262144, .i32⟩
  | 119 => ⟨S262144x1, .i32⟩
  | 120 => ⟨S262144x64, .f32⟩
  | 121 => ⟨S_, .i32⟩
  | 122 => ⟨S262144, .i32⟩
  | 123 => ⟨S262144, .i1⟩
  | 124 => ⟨S_, .i32⟩
  | 125 => ⟨S262144, .i32⟩
  | 126 => ⟨S262144, .i32⟩
  | 127 => ⟨S262144, .i32⟩
  | _ => ⟨S100000x64, .f32⟩

abbrev hbmTy0_2 (i : Nat) : BufTy := match i % 128 with
  | 0 => ⟨S262144x1, .i32⟩
  | 1 => ⟨S262144x64, .f32⟩
  | 2 => ⟨S_, .i32⟩
  | 3 => ⟨S262144, .i32⟩
  | 4 => ⟨S262144, .i1⟩
  | 5 => ⟨S_, .i32⟩
  | 6 => ⟨S262144, .i32⟩
  | 7 => ⟨S262144, .i32⟩
  | 8 => ⟨S262144, .i32⟩
  | 9 => ⟨S262144x1, .i32⟩
  | 10 => ⟨S262144x64, .f32⟩
  | 11 => ⟨S_, .i32⟩
  | 12 => ⟨S262144, .i32⟩
  | 13 => ⟨S262144, .i1⟩
  | 14 => ⟨S_, .i32⟩
  | 15 => ⟨S262144, .i32⟩
  | 16 => ⟨S262144, .i32⟩
  | 17 => ⟨S262144, .i32⟩
  | 18 => ⟨S262144x1, .i32⟩
  | 19 => ⟨S262144x64, .f32⟩
  | 20 => ⟨S262144x64, .f32⟩
  | 21 => ⟨S_, .f32⟩
  | 22 => ⟨S_, .f32⟩
  | 23 => ⟨S262144x64, .f32⟩
  | 24 => ⟨S_, .f32⟩
  | 25 => ⟨S_, .f32⟩
  | 26 => ⟨S_, .f32⟩
  | 27 => ⟨S262144x64, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S262144x64, .f32⟩
  | 36 => ⟨S_, .f32⟩
  | 37 => ⟨S262144, .f32⟩
  | 38 => ⟨S262144x64, .f32⟩
  | 39 => ⟨S_, .f32⟩
  | 40 => ⟨S262144, .f32⟩
  | 41 => ⟨S262144, .f32⟩
  | 42 => ⟨S_, .f32⟩
  | 43 => ⟨S262144, .f32⟩
  | 44 => ⟨S262144, .f32⟩
  | 45 => ⟨S262144, .f32⟩
  | 46 => ⟨S262144, .f32⟩
  | 47 => ⟨S262144, .i1⟩
  | 48 => ⟨S262144, .f32⟩
  | 49 => ⟨S262144, .f32⟩
  | 50 => ⟨S262144, .f32⟩
  | 51 => ⟨S262144, .f32⟩
  | 52 => ⟨S262144, .f32⟩
  | 53 => ⟨S262144, .f32⟩
  | 54 => ⟨S262144, .f32⟩
  | 55 => ⟨S262144, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_16 : Ref sig .tc := ⟨.hbm, 108, rfl⟩
abbrev main_v80 : Ref sig .tc := ⟨.hbm, 109, rfl⟩
abbrev main_v81 : Ref sig .tc := ⟨.hbm, 110, rfl⟩
abbrev main_c_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_v94 : Ref sig .tc := ⟨.hbm, 126, rfl⟩
abbrev main_c_20 : Ref sig .tc := ⟨.hbm, 127, rfl⟩
abbrev main_v95 : Ref sig .tc := ⟨.hbm, 128, rfl⟩
abbrev main_v96 : Ref sig .tc := ⟨.hbm, 129, rfl⟩
abbrev main_c_21 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_22 : Ref sig .tc := ⟨.hbm, 137, rfl⟩
abbrev main_v103 : Ref sig .tc := ⟨.hbm, 138, rfl⟩
abbrev main_v104 : Ref sig .tc := ⟨.hbm, 139, rfl⟩
abbrev main_cst_23 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_24 : Ref sig .tc := ⟨.hbm, 146, rfl⟩
abbrev main_v110 : Ref sig .tc := ⟨.hbm, 147, rfl⟩
abbrev main_v111 : Ref sig .tc := ⟨.hbm, 148, rfl⟩
abbrev main_cst_25 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_26 : Ref sig .tc := ⟨.hbm, 157, rfl⟩
abbrev main_v119 : Ref sig .tc := ⟨.hbm, 158, rfl⟩
abbrev main_cst_27 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_28 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_c_29 : Ref sig .tc := ⟨.hbm, 169, rfl⟩
abbrev main_v128 : Ref sig .tc := ⟨.hbm, 170, rfl⟩
abbrev main_v129 : Ref sig .tc := ⟨.hbm, 171, rfl⟩
abbrev main_c_30 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_31 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_c_32 : Ref sig .tc := ⟨.hbm, 186, rfl⟩
abbrev main_v142 : Ref sig .tc := ⟨.hbm, 187, rfl⟩
abbrev main_v143 : Ref sig .tc := ⟨.hbm, 188, rfl⟩
abbrev main_c_33 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_34 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_c_35 : Ref sig .tc := ⟨.hbm, 203, rfl⟩
abbrev main_v156 : Ref sig .tc := ⟨.hbm, 204, rfl⟩
abbrev main_v157 : Ref sig .tc := ⟨.hbm, 205, rfl⟩
abbrev main_c_36 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_cst_37 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_cst_38 : Ref sig .tc := ⟨.hbm, 219, rfl⟩
abbrev main_v169 : Ref sig .tc := ⟨.hbm, 220, rfl⟩
abbrev main_v170 : Ref sig .tc := ⟨.hbm, 221, rfl⟩
abbrev main_c_39 : Ref sig .tc := ⟨.hbm, 222, rfl⟩
abbrev main_v171 : Ref sig .tc := ⟨.hbm, 223, rfl⟩
abbrev main_v172 : Ref sig .tc := ⟨.hbm, 224, rfl⟩
abbrev main_c_40 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_c_41 : Ref sig .tc := ⟨.hbm, 231, rfl⟩
abbrev main_v178 : Ref sig .tc := ⟨.hbm, 232, rfl⟩
abbrev main_v179 : Ref sig .tc := ⟨.hbm, 233, rfl⟩
abbrev main_c_42 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_c_43 : Ref sig .tc := ⟨.hbm, 240, rfl⟩
abbrev main_v185 : Ref sig .tc := ⟨.hbm, 241, rfl⟩
abbrev main_v186 : Ref sig .tc := ⟨.hbm, 242, rfl⟩
abbrev main_c_44 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_c_45 : Ref sig .tc := ⟨.hbm, 249, rfl⟩
abbrev main_v192 : Ref sig .tc := ⟨.hbm, 250, rfl⟩
abbrev main_v193 : Ref sig .tc := ⟨.hbm, 251, rfl⟩
abbrev main_c_46 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_c_47 : Ref sig .tc := ⟨.hbm, 258, rfl⟩
abbrev main_v199 : Ref sig .tc := ⟨.hbm, 259, rfl⟩
abbrev main_v200 : Ref sig .tc := ⟨.hbm, 260, rfl⟩
abbrev main_c_48 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_c_49 : Ref sig .tc := ⟨.hbm, 267, rfl⟩
abbrev main_v206 : Ref sig .tc := ⟨.hbm, 268, rfl⟩
abbrev main_v207 : Ref sig .tc := ⟨.hbm, 269, rfl⟩
abbrev main_c_50 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_cst_51 : Ref sig .tc := ⟨.hbm, 277, rfl⟩
abbrev main_v214 : Ref sig .tc := ⟨.hbm, 278, rfl⟩
abbrev main_v215 : Ref sig .tc := ⟨.hbm, 279, rfl⟩
abbrev main_cst_52 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_cst_53 : Ref sig .tc := ⟨.hbm, 284, rfl⟩
abbrev main_v219 : Ref sig .tc := ⟨.hbm, 285, rfl⟩
abbrev main_v220 : Ref sig .tc := ⟨.hbm, 286, rfl⟩
abbrev main_cst_54 : Ref sig .tc := ⟨.hbm, 287, rfl⟩
abbrev main_v221 : Ref sig .tc := ⟨.hbm, 288, rfl⟩
abbrev main_cst_55 : Ref sig .tc := ⟨.hbm, 289, rfl⟩
abbrev main_v222 : Ref sig .tc := ⟨.hbm, 290, rfl⟩
abbrev main_v223 : Ref sig .tc := ⟨.hbm, 291, rfl⟩
abbrev main_cst_56 : Ref sig .tc := ⟨.hbm, 292, rfl⟩
abbrev main_v224 : Ref sig .tc := ⟨.hbm, 293, rfl⟩
abbrev main_v225 : Ref sig .tc := ⟨.hbm, 294, rfl⟩
abbrev main_cst_57 : Ref sig .tc := ⟨.hbm, 295, rfl⟩
abbrev main_v226 : Ref sig .tc := ⟨.hbm, 296, rfl⟩
abbrev main_v227 : Ref sig .tc := ⟨.hbm, 297, rfl⟩
abbrev main_call0_cst : Ref sig .tc := ⟨.hbm, 298, rfl⟩
abbrev main_call0_v0 : Ref sig .tc := ⟨.hbm, 299, rfl⟩
abbrev main_call0_v1 : Ref sig .tc := ⟨.hbm, 300, rfl⟩
abbrev main_call0_v2 : Ref sig .tc := ⟨.hbm, 301, rfl⟩
abbrev main_call0_v3 : Ref sig .tc := ⟨.hbm, 302, rfl⟩
abbrev main_call0_v4 : Ref sig .tc := ⟨.hbm, 303, rfl⟩
abbrev main_call0_v5 : Ref sig .tc := ⟨.hbm, 304, rfl⟩
abbrev main_call0_v6 : Ref sig .tc := ⟨.hbm, 305, rfl⟩
abbrev main_call0_v7 : Ref sig .tc := ⟨.hbm, 306, rfl⟩
abbrev main_call0_v8 : Ref sig .tc := ⟨.hbm, 307, rfl⟩
abbrev main_call0_v9 : Ref sig .tc := ⟨.hbm, 308, rfl⟩
abbrev main_call0_v10 : Ref sig .tc := ⟨.hbm, 309, rfl⟩
abbrev main_call0_v11 : Ref sig .tc := ⟨.hbm, 310, rfl⟩
abbrev main_v228 : Ref sig .tc := ⟨.hbm, 311, rfl⟩
abbrev main_cst_58 : Ref sig .tc := ⟨.hbm, 312, rfl⟩
abbrev main_v229 : Ref sig .tc := ⟨.hbm, 313, rfl⟩
abbrev main_cst_59 : Ref sig .tc := ⟨.hbm, 314, rfl⟩
abbrev main_v230 : Ref sig .tc := ⟨.hbm, 315, rfl⟩
abbrev main_cst_60 : Ref sig .tc := ⟨.hbm, 316, rfl⟩
abbrev main_v231 : Ref sig .tc := ⟨.hbm, 317, rfl⟩
abbrev main_cst_61 : Ref sig .tc := ⟨.hbm, 318, rfl⟩
abbrev main_v232 : Ref sig .tc := ⟨.hbm, 319, rfl⟩
abbrev main_v233 : Ref sig .tc := ⟨.hbm, 320, rfl⟩
abbrev main_cst_62 : Ref sig .tc := ⟨.hbm, 321, rfl⟩
abbrev main_v234 : Ref sig .tc := ⟨.hbm, 322, rfl⟩
abbrev main_v235 : Ref sig .tc := ⟨.hbm, 323, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  h_S_ : 0 < S_.numel
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  reduces_S1024x1024_S1024 : S1024x1024.Reduces [1] S1024
  shapeCasts_S1024_S1024x1 : S1024.ShapeCasts S1024x1
  shapeCasts_S8192x1_S8192 : S8192x1.ShapeCasts S8192
  reducesTo_S8192_S_d0 : S8192.ReducesTo [0] S_
  bcast_S_S262144 : S_.BroadcastsInDim S262144 (![] : Fin 0 → Fin S262144.rank)
  bcast_S262144_S262144x1_0 : S262144.BroadcastsInDim S262144x1 (![0] : Fin 1 → Fin S262144x1.rank)
  reducesTo_S262144x64_S_d0_1 : S262144x64.ReducesTo [0, 1] S_
  reducesTo_S262144x64_S262144_d1 : S262144x64.ReducesTo [1] S262144
  reducesTo_S262144_S_d0 : S262144.ReducesTo [0] S_
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S8192x1_S8192x64_1_0_n_n_0_1_164_wf : GatherDims.WF S100000x64 S8192x1 S8192x64 [1] [0] [] [0] [] 1 ![1, 64]
  dot_S1024x64_S1024x64_S1024x1024_1_1_0_0_n_n_wf : DotDims.WF S1024x64 S1024x64 S1024x1024 [1] [1] [0] [0] [] []
  gather_S100000x64_S262144x1_S262144x64_1_0_n_n_0_1_164_wf : GatherDims.WF S100000x64 S262144x1 S262144x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def gather_S100000x64_S262144x1_S262144x64_1_0_n_n_0_1_164 : GatherDims S100000x64 S262144x1 S262144x64 where
  offsetDims := [1]
  collapsedSliceDims := [0]
  operandBatchingDims := []
  startIndicesBatchingDims := []
  startIndexMap := [0]
  indexVectorDim := 1
  sliceSizes := ![1, 64]
  wf := gather_S100000x64_S262144x1_S262144x64_1_0_n_n_0_1_164_wf

abbrev win0_0 : Pipeline.Window sig grid0 :=
  Pipeline.Window.ofSpec (Memref.whole main_v108) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v115) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v116) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S1600000 : Shape := ⟨1, ![1600000]⟩
abbrev S8192 : Shape := ⟨1, ![8192]⟩
abbrev S262144 : Shape := ⟨1, ![262144]⟩
abbrev S1600000x1 : Shape := ⟨2, ![1600000, 1]⟩
abbrev S_ : Shape := ⟨0, ![]⟩
abbrev S1600000x64 : Shape := ⟨2, ![1600000, 64]⟩
abbrev S8192x1 : Shape := ⟨2, ![8192, 1]⟩
abbrev S8192x64 : Shape := ⟨2, ![8192, 64]⟩
abbrev S64x8192 : Shape := ⟨2, ![64, 8192]⟩
abbrev S8192x8192 : Shape := ⟨2, ![8192, 8192]⟩
abbrev S262144x1 : Shape := ⟨2, ![262144, 1]⟩
abbrev S262144x64 : Shape := ⟨2, ![262144, 64]⟩

abbrev nBuf : Space → Nat
  | .hbm => 330
  | .vmem => 0
  | .smem => 0
  | _ => 0

abbrev hbmTy0_0 (i : Nat) : BufTy := match i % 128 with
  | 0 => ⟨S100000x64, .f32⟩
  | 1 => ⟨S1600000, .f32⟩
  | 2 => ⟨S1600000, .f32⟩
  | 3 => ⟨S1600000, .f32⟩
  | 4 => ⟨S1600000, .i32⟩
  | 5 => ⟨S1600000, .i32⟩
  | 6 => ⟨S8192, .i32⟩
  | 7 => ⟨S262144, .i32⟩
  | 8 => ⟨S262144, .i32⟩
  | 9 => ⟨S262144, .i32⟩
  | 10 => ⟨S1600000x1, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S1600000x64, .f32⟩
  | 21 => ⟨S1600000x64, .f32⟩
  | 22 => ⟨S_, .f32⟩
  | 23 => ⟨S100000x64, .f32⟩
  | 24 => ⟨S1600000x1, .i32⟩
  | 25 => ⟨S100000x64, .f32⟩
  | 26 => ⟨S100000x64, .f32⟩
  | 27 => ⟨S1600000x1, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x64, .f32⟩
  | 37 => ⟨S1600000x64, .f32⟩
  | 38 => ⟨S1600000x64, .f32⟩
  | 39 => ⟨S_, .f32⟩
  | 40 => ⟨S100000x64, .f32⟩
  | 41 => ⟨S1600000x1, .i32⟩
  | 42 => ⟨S100000x64, .f32⟩
  | 43 => ⟨S100000x64, .f32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x64, .f32⟩
  | 73 => ⟨S1600000x1, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x64, .f32⟩
  | 83 => ⟨S1600000x64, .f32⟩
  | 84 => ⟨S1600000x64, .f32⟩
  | 85 => ⟨S_, .f32⟩
  | 86 => ⟨S100000x64, .f32⟩
  | 87 => ⟨S1600000x1, .i32⟩
  | 88 => ⟨S100000x64, .f32⟩
  | 89 => ⟨S100000x64, .f32⟩
  | 90 => ⟨S1600000x1, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S1600000x64, .f32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S100000x64, .f32⟩
  | 107 => ⟨S1600000x1, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S1600000x64, .f32⟩
  | 118 => ⟨S1600000x64, .f32⟩
  | 119 => ⟨S_, .f32⟩
  | 120 => ⟨S100000x64, .f32⟩
  | 121 => ⟨S1600000x1, .i32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .i32⟩
  | _ => ⟨S100000x64, .f32⟩

abbrev hbmTy0_1 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S8192x1, .i32⟩
  | 7 => ⟨S8192x64, .f32⟩
  | 8 => ⟨S8192x64, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S8192x64, .f32⟩
  | 16 => ⟨S8192x64, .f32⟩
  | 17 => ⟨S8192x64, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x64, .f32⟩
  | 25 => ⟨S8192x64, .f32⟩
  | 26 => ⟨S8192x64, .f32⟩
  | 27 => ⟨S_, .f32⟩
  | 28 => ⟨S8192, .f32⟩
  | 29 => ⟨S64x8192, .f32⟩
  | 30 => ⟨S8192x8192, .f32⟩
  | 31 => ⟨S_, .f32⟩
  | 32 => ⟨S8192, .f32⟩
  | 33 => ⟨S8192, .f32⟩
  | 34 => ⟨S8192, .f32⟩
  | 35 => ⟨S_, .f32⟩
  | 36 => ⟨S8192x8192, .f32⟩
  | 37 => ⟨S8192x8192, .f32⟩
  | 38 => ⟨S8192x8192, .f32⟩
  | 39 => ⟨S_, .f32⟩
  | 40 => ⟨S8192, .f32⟩
  | 41 => ⟨S8192, .f32⟩
  | 42 => ⟨S8192, .f32⟩
  | 43 => ⟨S_, .f32⟩
  | 44 => ⟨S_, .f32⟩
  | 45 => ⟨S_, .f32⟩
  | 46 => ⟨S1600000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x64, .f32⟩
  | 57 => ⟨S1600000x64, .f32⟩
  | 58 => ⟨S_, .f32⟩
  | 59 => ⟨S100000x64, .f32⟩
  | 60 => ⟨S1600000x1, .i32⟩
  | 61 => ⟨S100000x64, .f32⟩
  | 62 => ⟨S100000x64, .f32⟩
  | 63 => ⟨S1600000x1, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x64, .f32⟩
  | 73 => ⟨S1600000x64, .f32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S100000x64, .f32⟩
  | 80 => ⟨S1600000x1, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .f32⟩
  | 90 => ⟨S1600000x64, .f32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S_, .i32⟩
  | 101 => ⟨S262144, .i32⟩
  | 102 => ⟨S262144, .i1⟩
  | 103 => ⟨S_, .i32⟩
  | 104 => ⟨S262144, .i32⟩
  | 105 => ⟨S262144, .i32⟩
  | 106 => ⟨S262144, .i32⟩
  | 107 => ⟨S262144x1, .i32⟩
  | 108 => ⟨S262144x64, .f32⟩
  | 109 => ⟨S_, .i32⟩
  | 110 => ⟨S262144, .i32⟩
  | 111 => ⟨S262144, .i1⟩
  | 112 => ⟨S_, .i32⟩
  | 113 => ⟨S262144, .i32⟩
  | 114 => ⟨S262144, .i32⟩
  | 115 => ⟨S262144, .i32⟩
  | 116 => ⟨S262144x1, .i32⟩
  | 117 => ⟨S262144x64, .f32⟩
  | 118 => ⟨S_, .i32⟩
  | 119 => ⟨S262144, .i32⟩
  | 120 => ⟨S262144, .i1⟩
  | 121 => ⟨S_, .i32⟩
  | 122 => ⟨S262144, .i32⟩
  | 123 => ⟨S262144, .i32⟩
  | 124 => ⟨S262144, .i32⟩
  | 125 => ⟨S262144x1, .i32⟩
  | 126 => ⟨S262144x64, .f32⟩
  | 127 => ⟨S_, .i32⟩
  | _ => ⟨S100000x64, .f32⟩

abbrev hbmTy0_2 (i : Nat) : BufTy := match i % 128 with
  | 0 => ⟨S262144, .i32⟩
  | 1 => ⟨S262144, .i1⟩
  | 2 => ⟨S_, .i32⟩
  | 3 => ⟨S262144, .i32⟩
  | 4 => ⟨S262144, .i32⟩
  | 5 => ⟨S262144, .i32⟩
  | 6 => ⟨S262144x1, .i32⟩
  | 7 => ⟨S262144x64, .f32⟩
  | 8 => ⟨S_, .i32⟩
  | 9 => ⟨S262144, .i32⟩
  | 10 => ⟨S262144, .i1⟩
  | 11 => ⟨S_, .i32⟩
  | 12 => ⟨S262144, .i32⟩
  | 13 => ⟨S262144, .i32⟩
  | 14 => ⟨S262144, .i32⟩
  | 15 => ⟨S262144x1, .i32⟩
  | 16 => ⟨S262144x64, .f32⟩
  | 17 => ⟨S_, .i32⟩
  | 18 => ⟨S262144, .i32⟩
  | 19 => ⟨S262144, .i1⟩
  | 20 => ⟨S_, .i32⟩
  | 21 => ⟨S262144, .i32⟩
  | 22 => ⟨S262144, .i32⟩
  | 23 => ⟨S262144, .i32⟩
  | 24 => ⟨S262144x1, .i32⟩
  | 25 => ⟨S262144x64, .f32⟩
  | 26 => ⟨S262144x64, .f32⟩
  | 27 => ⟨S_, .f32⟩
  | 28 => ⟨S_, .f32⟩
  | 29 => ⟨S262144x64, .f32⟩
  | 30 => ⟨S_, .f32⟩
  | 31 => ⟨S_, .f32⟩
  | 32 => ⟨S_, .f32⟩
  | 33 => ⟨S262144x64, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S262144x64, .f32⟩
  | 42 => ⟨S_, .f32⟩
  | 43 => ⟨S262144, .f32⟩
  | 44 => ⟨S262144x64, .f32⟩
  | 45 => ⟨S_, .f32⟩
  | 46 => ⟨S262144, .f32⟩
  | 47 => ⟨S262144, .f32⟩
  | 48 => ⟨S_, .f32⟩
  | 49 => ⟨S262144, .f32⟩
  | 50 => ⟨S262144, .f32⟩
  | 51 => ⟨S262144, .f32⟩
  | 52 => ⟨S262144, .f32⟩
  | 53 => ⟨S262144, .i1⟩
  | 54 => ⟨S262144, .f32⟩
  | 55 => ⟨S262144, .f32⟩
  | 56 => ⟨S262144, .f32⟩
  | 57 => ⟨S262144, .f32⟩
  | 58 => ⟨S262144, .f32⟩
  | 59 => ⟨S262144, .f32⟩
  | 60 => ⟨S262144, .f32⟩
  | 61 => ⟨S262144, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_16 : Ref sig .tc := ⟨.hbm, 108, rfl⟩
abbrev main_v80 : Ref sig .tc := ⟨.hbm, 109, rfl⟩
abbrev main_v81 : Ref sig .tc := ⟨.hbm, 110, rfl⟩
abbrev main_c_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_v94 : Ref sig .tc := ⟨.hbm, 126, rfl⟩
abbrev main_c_20 : Ref sig .tc := ⟨.hbm, 127, rfl⟩
abbrev main_v95 : Ref sig .tc := ⟨.hbm, 128, rfl⟩
abbrev main_v96 : Ref sig .tc := ⟨.hbm, 129, rfl⟩
abbrev main_c_21 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_22 : Ref sig .tc := ⟨.hbm, 137, rfl⟩
abbrev main_v103 : Ref sig .tc := ⟨.hbm, 138, rfl⟩
abbrev main_v104 : Ref sig .tc := ⟨.hbm, 139, rfl⟩
abbrev main_cst_23 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_24 : Ref sig .tc := ⟨.hbm, 146, rfl⟩
abbrev main_v110 : Ref sig .tc := ⟨.hbm, 147, rfl⟩
abbrev main_v111 : Ref sig .tc := ⟨.hbm, 148, rfl⟩
abbrev main_cst_25 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_26 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_27 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_28 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_29 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_30 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_c_31 : Ref sig .tc := ⟨.hbm, 175, rfl⟩
abbrev main_v132 : Ref sig .tc := ⟨.hbm, 176, rfl⟩
abbrev main_v133 : Ref sig .tc := ⟨.hbm, 177, rfl⟩
abbrev main_c_32 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_33 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_c_34 : Ref sig .tc := ⟨.hbm, 192, rfl⟩
abbrev main_v146 : Ref sig .tc := ⟨.hbm, 193, rfl⟩
abbrev main_v147 : Ref sig .tc := ⟨.hbm, 194, rfl⟩
abbrev main_c_35 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_36 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_c_37 : Ref sig .tc := ⟨.hbm, 209, rfl⟩
abbrev main_v160 : Ref sig .tc := ⟨.hbm, 210, rfl⟩
abbrev main_v161 : Ref sig .tc := ⟨.hbm, 211, rfl⟩
abbrev main_c_38 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_39 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_cst_40 : Ref sig .tc := ⟨.hbm, 225, rfl⟩
abbrev main_v173 : Ref sig .tc := ⟨.hbm, 226, rfl⟩
abbrev main_v174 : Ref sig .tc := ⟨.hbm, 227, rfl⟩
abbrev main_c_41 : Ref sig .tc := ⟨.hbm, 228, rfl⟩
abbrev main_v175 : Ref sig .tc := ⟨.hbm, 229, rfl⟩
abbrev main_v176 : Ref sig .tc := ⟨.hbm, 230, rfl⟩
abbrev main_c_42 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_c_43 : Ref sig .tc := ⟨.hbm, 237, rfl⟩
abbrev main_v182 : Ref sig .tc := ⟨.hbm, 238, rfl⟩
abbrev main_v183 : Ref sig .tc := ⟨.hbm, 239, rfl⟩
abbrev main_c_44 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_c_45 : Ref sig .tc := ⟨.hbm, 246, rfl⟩
abbrev main_v189 : Ref sig .tc := ⟨.hbm, 247, rfl⟩
abbrev main_v190 : Ref sig .tc := ⟨.hbm, 248, rfl⟩
abbrev main_c_46 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_c_47 : Ref sig .tc := ⟨.hbm, 255, rfl⟩
abbrev main_v196 : Ref sig .tc := ⟨.hbm, 256, rfl⟩
abbrev main_v197 : Ref sig .tc := ⟨.hbm, 257, rfl⟩
abbrev main_c_48 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_c_49 : Ref sig .tc := ⟨.hbm, 264, rfl⟩
abbrev main_v203 : Ref sig .tc := ⟨.hbm, 265, rfl⟩
abbrev main_v204 : Ref sig .tc := ⟨.hbm, 266, rfl⟩
abbrev main_c_50 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_c_51 : Ref sig .tc := ⟨.hbm, 273, rfl⟩
abbrev main_v210 : Ref sig .tc := ⟨.hbm, 274, rfl⟩
abbrev main_v211 : Ref sig .tc := ⟨.hbm, 275, rfl⟩
abbrev main_c_52 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_cst_53 : Ref sig .tc := ⟨.hbm, 283, rfl⟩
abbrev main_v218 : Ref sig .tc := ⟨.hbm, 284, rfl⟩
abbrev main_v219 : Ref sig .tc := ⟨.hbm, 285, rfl⟩
abbrev main_cst_54 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_cst_55 : Ref sig .tc := ⟨.hbm, 290, rfl⟩
abbrev main_v223 : Ref sig .tc := ⟨.hbm, 291, rfl⟩
abbrev main_v224 : Ref sig .tc := ⟨.hbm, 292, rfl⟩
abbrev main_cst_56 : Ref sig .tc := ⟨.hbm, 293, rfl⟩
abbrev main_v225 : Ref sig .tc := ⟨.hbm, 294, rfl⟩
abbrev main_cst_57 : Ref sig .tc := ⟨.hbm, 295, rfl⟩
abbrev main_v226 : Ref sig .tc := ⟨.hbm, 296, rfl⟩
abbrev main_v227 : Ref sig .tc := ⟨.hbm, 297, rfl⟩
abbrev main_cst_58 : Ref sig .tc := ⟨.hbm, 298, rfl⟩
abbrev main_v228 : Ref sig .tc := ⟨.hbm, 299, rfl⟩
abbrev main_v229 : Ref sig .tc := ⟨.hbm, 300, rfl⟩
abbrev main_cst_59 : Ref sig .tc := ⟨.hbm, 301, rfl⟩
abbrev main_v230 : Ref sig .tc := ⟨.hbm, 302, rfl⟩
abbrev main_v231 : Ref sig .tc := ⟨.hbm, 303, rfl⟩
abbrev main_call0_cst : Ref sig .tc := ⟨.hbm, 304, rfl⟩
abbrev main_call0_v0 : Ref sig .tc := ⟨.hbm, 305, rfl⟩
abbrev main_call0_v1 : Ref sig .tc := ⟨.hbm, 306, rfl⟩
abbrev main_call0_v2 : Ref sig .tc := ⟨.hbm, 307, rfl⟩
abbrev main_call0_v3 : Ref sig .tc := ⟨.hbm, 308, rfl⟩
abbrev main_call0_v4 : Ref sig .tc := ⟨.hbm, 309, rfl⟩
abbrev main_call0_v5 : Ref sig .tc := ⟨.hbm, 310, rfl⟩
abbrev main_call0_v6 : Ref sig .tc := ⟨.hbm, 311, rfl⟩
abbrev main_call0_v7 : Ref sig .tc := ⟨.hbm, 312, rfl⟩
abbrev main_call0_v8 : Ref sig .tc := ⟨.hbm, 313, rfl⟩
abbrev main_call0_v9 : Ref sig .tc := ⟨.hbm, 314, rfl⟩
abbrev main_call0_v10 : Ref sig .tc := ⟨.hbm, 315, rfl⟩
abbrev main_call0_v11 : Ref sig .tc := ⟨.hbm, 316, rfl⟩
abbrev main_v232 : Ref sig .tc := ⟨.hbm, 317, rfl⟩
abbrev main_cst_60 : Ref sig .tc := ⟨.hbm, 318, rfl⟩
abbrev main_v233 : Ref sig .tc := ⟨.hbm, 319, rfl⟩
abbrev main_cst_61 : Ref sig .tc := ⟨.hbm, 320, rfl⟩
abbrev main_v234 : Ref sig .tc := ⟨.hbm, 321, rfl⟩
abbrev main_cst_62 : Ref sig .tc := ⟨.hbm, 322, rfl⟩
abbrev main_v235 : Ref sig .tc := ⟨.hbm, 323, rfl⟩
abbrev main_cst_63 : Ref sig .tc := ⟨.hbm, 324, rfl⟩
abbrev main_v236 : Ref sig .tc := ⟨.hbm, 325, rfl⟩
abbrev main_v237 : Ref sig .tc := ⟨.hbm, 326, rfl⟩
abbrev main_cst_64 : Ref sig .tc := ⟨.hbm, 327, rfl⟩
abbrev main_v238 : Ref sig .tc := ⟨.hbm, 328, rfl⟩
abbrev main_v239 : Ref sig .tc := ⟨.hbm, 329, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  h_S_ : 0 < S_.numel
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  bcast_S_S262144 : S_.BroadcastsInDim S262144 (![] : Fin 0 → Fin S262144.rank)
  bcast_S262144_S262144x1_0 : S262144.BroadcastsInDim S262144x1 (![0] : Fin 1 → Fin S262144x1.rank)
  reducesTo_S262144x64_S_d0_1 : S262144x64.ReducesTo [0, 1] S_
  reducesTo_S262144x64_S262144_d1 : S262144x64.ReducesTo [1] S262144
  reducesTo_S262144_S_d0 : S262144.ReducesTo [0] S_
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S8192x1_S8192x64_1_0_n_n_0_1_164_wf : GatherDims.WF S100000x64 S8192x1 S8192x64 [1] [0] [] [0] [] 1 ![1, 64]
  dot_S8192x64_S64x8192_S8192x8192_1_0_0_1_n_n_wf : DotDims.WF S8192x64 S64x8192 S8192x8192 [1] [0] [0] [1] [] []
  gather_S100000x64_S262144x1_S262144x64_1_0_n_n_0_1_164_wf : GatherDims.WF S100000x64 S262144x1 S262144x64 [1] [0] [] [0] [] 1 ![1, 64]

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def gather_S100000x64_S262144x1_S262144x64_1_0_n_n_0_1_164 : GatherDims S100000x64 S262144x1 S262144x64 where
  offsetDims := [1]
  collapsedSliceDims := [0]
  operandBatchingDims := []
  startIndicesBatchingDims := []
  startIndexMap := [0]
  indexVectorDim := 1
  sliceSizes := ![1, 64]
  wf := gather_S100000x64_S262144x1_S262144x64_1_0_n_n_0_1_164_wf

class Facts : Prop extends Facts₀ where

variable [Facts]
-- ==== Proof.LibLineFacts.lean ====
/-
  Host lines that write one buffer each.

  A host operation built by the StableHlo builders writes exactly its own result buffer.  For a stretch of such
  operations, facts of the form "no operation of the stretch writes any buffer of a given list" therefore reduce,
  operation by operation, to comparing references: the result's reference against each reference of the list.
  From such a fact a buffer of the list keeps its contents over the stretch.
-/
import Idealize.ShloMosaic.Lib.StableHlo.Run

namespace Idealize.ShloMosaic.StableHlo

variable {τ : Topo} {sig : RefSig} {Val : EltTy → Type}

/-- An operation whose one written buffer is `y` writes no buffer of a list of references all different from `y`. -/
theorem writes_avoid {op : HloOp τ sig Val} {y : Ref sig .tc} (hw : op.writes = {Proc.devRef .tc y})
    (bs : List (Ref sig .tc)) (h : ∀ b ∈ bs, b ≠ y) :
    ∀ b ∈ bs, Proc.devRef (τ := τ) .tc b ∉ op.writes := by
  intro b hb
  rw [hw, Finset.mem_singleton]
  exact devRef_ne_of_ne (h b hb)

/-- The operations of a stretch none of which writes a buffer of the list `bs`. -/
def Avoids (bs : List (Ref sig .tc)) (ops : List (HloOp τ sig Val)) : Prop :=
  ops.Forall fun op => ∀ b ∈ bs, Proc.devRef (τ := τ) .tc b ∉ op.writes

/-- A buffer of the list keeps its contents over a stretch that avoids the list. -/
theorem after_of_avoids {bs : List (Ref sig .tc)} {ops : List (HloOp τ sig Val)} (h : Avoids bs ops)
    (V : Valuation τ sig Val) {b : Ref sig .tc} (hb : b ∈ bs) :
    after ops V (Proc.devRef .tc b) = V (Proc.devRef .tc b) :=
  after_of_forall_not_mem ops V fun op hop => (List.forall_iff_forall_mem.mp h) op hop b hb

/-- Over several stretches one after the other. -/
theorem after_flatten_of_avoids {bs : List (Ref sig .tc)} :
    ∀ {opss : List (List (HloOp τ sig Val))}, (∀ ops ∈ opss, Avoids bs ops) →
      ∀ (V : Valuation τ sig Val) {b : Ref sig .tc}, b ∈ bs →
        after opss.flatten V (Proc.devRef .tc b) = V (Proc.devRef .tc b) := by
  intro opss h V b hb
  refine after_of_forall_not_mem _ V fun op hop => ?_
  obtain ⟨ops, hops, hop'⟩ := List.mem_flatten.mp hop
  exact (List.forall_iff_forall_mem.mp (h ops hops)) op hop' b hb

end Idealize.ShloMosaic.StableHlo
-- ==== Proof.KB.Lines.lean ====
/-
  The host lines of @main around the kernel region.

  @main is 144 host operations, the kernel region, then three stretches of 143, 14 and 12 host operations.  Each
  operation writes its own result buffer only, so: none allocates, none writes an argument of @main, and no
  operation after the region writes an array the region's windows move (the two normalised batches it reads and
  the column of row sums it writes).  These are comparisons of buffer references, one operation at a time.
-/
import proofs.«127262_j32341103739238_1_alg».proof.Proof.Gen.Kernel.Launch
import proofs.«127262_j32341103739238_1_alg».proof.Proof.LibLineFacts

set_option maxRecDepth 16384
set_option maxHeartbeats 4000000

noncomputable section

namespace Cert.Kernel.Around

open Idealize.ShloMosaic Idealize.ShloMosaic.TcCoe Idealize.ShloMosaic.StableHlo
open Cert.Kernel Cert.Kernel.Gen

variable {F : FTy → Type} [FloatOps F]

/-- The ten arguments of @main. -/
abbrev argRefs : List (Ref sig .tc) :=
  [main_arg0, main_arg1, main_arg2, main_arg3, main_arg4, main_arg5, main_arg6, main_arg7, main_arg8, main_arg9]

/-- The three arrays the region's windows move. -/
abbrev winRefs : List (Ref sig .tc) := [main_v108, main_v115, main_v116]

/-! ## No operation allocates -/

theorem fresh0 : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem fresh1 : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem fresh1_1 : (hostOps1_1 : List (HloOp τ sig (Elt F))).Forall fun op => op.fresh = ∅ :=
  ⟨rfl, rfl, rfl, rfl, rfl, rfl, rfl, rfl, rfl, rfl, rfl, rfl, rfl, rfl⟩
theorem fresh1_2 : (hostOps1_2 : List (HloOp τ sig (Elt F))).Forall fun op => op.fresh = ∅ :=
  ⟨rfl, rfl, rfl, rfl, rfl, rfl, rfl, rfl, rfl, rfl, rfl, rfl⟩

/-! ## No operation writes an argument -/

theorem args0 : Avoids argRefs (hostOps0 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩
theorem args1 : Avoids argRefs (hostOps1 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩
theorem args1_1 : Avoids argRefs (hostOps1_1 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩
theorem args1_2 : Avoids argRefs (hostOps1_2 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩

/-! ## No operation after the region writes an array of a window -/

theorem wins1 : Avoids winRefs (hostOps1 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩
theorem wins1_1 : Avoids winRefs (hostOps1_1 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩
theorem wins1_2 : Avoids winRefs (hostOps1_2 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩

end Cert.Kernel.Around

end
-- ==== Proof.KB.Region.lean ====
/-
  The kernel region in its surroundings.

  The region finds every buffer as the 144 host operations before it leave them (`V`).  Its grid is 8 by 8: the first
  coordinate picks a block of 1024 query rows, the second a block of 1024 key rows, and the points are visited
  row-major, so that point `t` has query block `t / 8` and key block `t % 8`.  The body resets its scratch column at
  key block 0, adds the row sums of `exp (2 · q kᵀ)` at every key block, and stores the column to the output block
  at key block 7 only; elsewhere the output window is idle and not written back.
-/
import proofs.«127262_j32341103739238_1_alg».proof.Proof.KB.Lines
import proofs.«127262_j32341103739238_1_alg».proof.Proof.Gen.Kernel.Skeleton
import proofs.«127262_j32341103739238_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host operations after the region. -/
abbrev tailOps : List (List (HloOp τ sig (Elt F))) := [hostOps1, hostOps1_1, hostOps1_2]

/-- @main is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub fresh0 main_chain

/-- The lines after the region touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp fresh1) op hop
  · exact (List.forall_iff_forall_mem.mp fresh1_1) op hop
  · exact (List.forall_iff_forall_mem.mp fresh1_2) op hop

/-- Each window's array is one of the three listed. -/
theorem arrRef_mem (w : Fin 3) : Pipeline.arrRef spec0 w ∈ winRefs := by
  fin_cases w <;> simp [winRefs, Pipeline.arrRef]

/-- And they write no array of a window. -/
theorem tail_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl
  · exact (List.forall_iff_forall_mem.mp wins1) op hop _ (arrRef_mem w)
  · exact (List.forall_iff_forall_mem.mp wins1_1) op hop _ (arrRef_mem w)
  · exact (List.forall_iff_forall_mem.mp wins1_2) op hop _ (arrRef_mem w)

/-- The lines before the region leave every argument as launched. -/
theorem V_arg (c : Dev nD) {b : Ref sig .tc} (hb : b ∈ argRefs) : V m c b = m ((c : Thread nD τ).loc b) :=
  after_flatten_of_avoids (bs := argRefs) (opss := [hostOps0])
    (fun ops hops => by
      simp only [List.mem_cons, List.mem_nil_iff, or_false] at hops
      rcases hops with rfl
      exact args0) _ hb

/-- Over all the lines after the region an argument keeps whatever it held. -/
theorem tail_arg (W : Valuation τ sig (Elt F)) {b : Ref sig .tc} (hb : b ∈ argRefs) :
    StableHlo.after (tailOps (F := F)).flatten W (Proc.devRef .tc b) = W (Proc.devRef .tc b) :=
  after_flatten_of_avoids (bs := argRefs) (opss := tailOps)
    (fun ops hops => by
      simp only [List.mem_cons, List.mem_nil_iff, or_false] at hops
      rcases hops with rfl | rfl | rfl
      · exact args1
      · exact args1_1
      · exact args1_2) _ hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point, fetched there or not. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's staging buffer holds its block at every point. -/
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "This is the first key block": the reset of the scratch column. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last key block": the store of the column to the output block. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The input windows are never idle. -/
theorem live_q : ∀ t : Fin cfg0.N, cfg0.idle 0 (grid0.coords t) = false := by decide +kernel
theorem live_k : ∀ t : Fin cfg0.N, cfg0.idle 1 (grid0.coords t) = false := by decide +kernel
/-- The output window is idle, and not written back, away from the last key block; live at it. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
theorem live_out : ∀ t : Fin cfg0.N, isLast (grid0.coords t) → cfg0.idle 2 (grid0.coords t) = false := by decide +kernel

/-! ## The staging memrefs at a point, and the scratch -/

abbrev msq (t : Fin cfg0.N) : Memref sig .tc .vmem S1024x64 .f32 := win0_0.stage (cfg0.slots t 0)
abbrev hsq (t : Fin cfg0.N) : (msq t).IsWhole := hstage0_0 ((cfg0.slots t 0).cast nbuf0_0)
abbrev msk (t : Fin cfg0.N) : Memref sig .tc .vmem S1024x64 .f32 := win0_1.stage (cfg0.slots t 1)
abbrev hsk (t : Fin cfg0.N) : (msk t).IsWhole := hstage0_1 ((cfg0.slots t 1).cast nbuf0_1)
abbrev mso (t : Fin cfg0.N) : Memref sig .tc .vmem S1024x1 .f32 := win0_2.stage (cfg0.slots t 2)
abbrev hso (t : Fin cfg0.N) : (mso t).IsWhole := hstage0_2 ((cfg0.slots t 2).cast nbuf0_2)
/-- The scratch column the kernel carries from one key block to the next. -/
abbrev scr : Memref sig .tc .vmem S1024x1 .f32 := Memref.whole cc0_scratch0

/-- The region's invariant with the scratch as a memref owned at some contents. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

end Cert.Kernel.Around

end
-- ==== Proof.KB.Runs.lean ====
/-
  The kernel body run symbolically, one run per control case.

  At a point the body is called on four whole memrefs: the query block, the key block, the output block's staging
  buffer and the scratch column.  Three cases occur on the 8 by 8 grid:
    first  — key block 0: the scratch is overwritten with zeros, then with zeros plus this block's row sums;
    middle — key blocks 1 … 6: the scratch is overwritten with what it held plus this block's row sums;
    last   — key block 7: as in the middle, and then the scratch is copied to the output block.
  Away from the last key block the output buffer is handed back untouched.  Each run records the pieces the
  stores leave in the scratch (and, in the last case, in the output buffer).
-/
import proofs.«127262_j32341103739238_1_alg».proof.Proof.KB.Region

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- First key block: the scratch, whatever it held, ends with the pieces `LS`; the output buffer is untouched. -/
noncomputable def runFirst (c : Dev nD) (i : grid0.Coords) (q : Memref sig .tc .vmem S1024x64 .f32) (hq : q.IsWhole) (k : Memref sig .tc .vmem S1024x64 .f32) (hk : k.IsWhole) (o : Memref sig .tc .vmem S1024x1 .f32) (ho : o.IsWhole) (s : Memref sig .tc .vmem S1024x1 .f32) (hs : s.IsWhole) (hc0 : isFirst i) (hc1 : ¬isLast i)
    (xq : Vec F S1024x64 .f32) (xk : Vec F S1024x64 .f32) :
    { LS : List (View.Piece (Elt F) S1024x1 .f32) //
      ∀ (xo : Vec F S1024x1 .f32) (E : Set ℕ) (K : PUnit → sProp 𝕄),
        iprop(owns (c : Thread nD τ) q fullShare xq ∗ owns (c : Thread nD τ) k fullShare xk ∗ owns (c : Thread nD τ) o fullShare xo ∗ (∃ d, owns (c : Thread nD τ) s fullShare d)
            ∗ (iprop(owns (c : Thread nD τ) q fullShare xq ∗ owns (c : Thread nD τ) k fullShare xk ∗ owns (c : Thread nD τ) o fullShare xo ∗ (∃ f, s.view.loc (c : Thread nD τ) ↦[s.view.set]{fullShare} s.view.writes (Elt F) f LS)) -∗ K ⟨⟩))
          ⊢ wp frame (wpE (defs₀ (F := F)) Variants.none c none) E (cc0__infonce_kernel i q hq k hk o ho s hs) K } := by
  refine ⟨?_, fun xo E K => ?run⟩
  case run =>
    simp only [cc0__infonce_kernel_eq_skeleton]; unfold cc0__infonce_kernel_skel
    unfold owns
    iintro ⟨⟨%fq, %hfq, Hq⟩, ⟨%fk, %hfk, Hk'⟩, ⟨%fo, %hfo, Ho⟩, ⟨%ds, %fs, -, HS⟩, Hk⟩
    obtain rfl := hq.eq_unread hfq; obtain rfl := hk.eq_unread hfk; obtain rfl := ho.eq_unread hfo
    sl_exec (disch := first | exact hc0 | exact hc1)
    sl_step
    iapply Hk
    isplitl [Hq]
    · iexists _; isplitr; · ipureintro; exact hq.read_unread _
      iexact Hq
    isplitl [Hk']
    · iexists _; isplitr; · ipureintro; exact hk.read_unread _
      iexact Hk'
    isplitl [Ho]
    · iexists _; isplitr; · ipureintro; exact ho.read_unread _
      iexact Ho
    iexists _; iexact HS

set_option maxHeartbeats 4000000 in
/-- A middle key block: the scratch, found at `xs`, ends with the pieces `LS`; the output buffer is untouched. -/
noncomputable def runMiddle (c : Dev nD) (i : grid0.Coords) (q : Memref sig .tc .vmem S1024x64 .f32) (hq : q.IsWhole) (k : Memref sig .tc .vmem S1024x64 .f32) (hk : k.IsWhole) (o : Memref sig .tc .vmem S1024x1 .f32) (ho : o.IsWhole) (s : Memref sig .tc .vmem S1024x1 .f32) (hs : s.IsWhole) (hc0 : ¬isFirst i) (hc1 : ¬isLast i)
    (xq : Vec F S1024x64 .f32) (xk : Vec F S1024x64 .f32) (xs : Vec F S1024x1 .f32) :
    { LS : List (View.Piece (Elt F) S1024x1 .f32) //
      ∀ (xo : Vec F S1024x1 .f32) (E : Set ℕ) (K : PUnit → sProp 𝕄),
        iprop(owns (c : Thread nD τ) q fullShare xq ∗ owns (c : Thread nD τ) k fullShare xk ∗ owns (c : Thread nD τ) o fullShare xo ∗ owns (c : Thread nD τ) s fullShare xs
            ∗ (iprop(owns (c : Thread nD τ) q fullShare xq ∗ owns (c : Thread nD τ) k fullShare xk ∗ owns (c : Thread nD τ) o fullShare xo ∗ (∃ f, s.view.loc (c : Thread nD τ) ↦[s.view.set]{fullShare} s.view.writes (Elt F) f LS)) -∗ K ⟨⟩))
          ⊢ wp frame (wpE (defs₀ (F := F)) Variants.none c none) E (cc0__infonce_kernel i q hq k hk o ho s hs) K } := by
  refine ⟨?_, fun xo E K => ?run⟩
  case run =>
    simp only [cc0__infonce_kernel_eq_skeleton]; unfold cc0__infonce_kernel_skel
    unfold owns
    iintro ⟨⟨%fq, %hfq, Hq⟩, ⟨%fk, %hfk, Hk'⟩, ⟨%fo, %hfo, Ho⟩, ⟨%fs, %hfs, HS⟩, Hk⟩
    obtain rfl := hq.eq_unread hfq; obtain rfl := hk.eq_unread hfk; obtain rfl := ho.eq_unread hfo; obtain rfl := hs.eq_unread hfs
    sl_exec (disch := first | exact hc0 | exact hc1)
    sl_step
    iapply Hk
    isplitl [Hq]
    · iexists _; isplitr; · ipureintro; exact hq.read_unread _
      iexact Hq
    isplitl [Hk']
    · iexists _; isplitr; · ipureintro; exact hk.read_unread _
      iexact Hk'
    isplitl [Ho]
    · iexists _; isplitr; · ipureintro; exact ho.read_unread _
      iexact Ho
    iexists _; iexact HS

set_option maxHeartbeats 4000000 in
/-- The last key block: the scratch, found at `xs`, ends with the pieces `LS`, the output buffer with the pieces `LO`. -/
noncomputable def runLast (c : Dev nD) (i : grid0.Coords) (q : Memref sig .tc .vmem S1024x64 .f32) (hq : q.IsWhole) (k : Memref sig .tc .vmem S1024x64 .f32) (hk : k.IsWhole) (o : Memref sig .tc .vmem S1024x1 .f32) (ho : o.IsWhole) (s : Memref sig .tc .vmem S1024x1 .f32) (hs : s.IsWhole) (hc0 : ¬isFirst i) (hc1 : isLast i)
    (xq : Vec F S1024x64 .f32) (xk : Vec F S1024x64 .f32) (xs : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) q fullShare xq ∗ owns (c : Thread nD τ) k fullShare xk ∗ (∃ d, owns (c : Thread nD τ) o fullShare d) ∗ owns (c : Thread nD τ) s fullShare xs
            ∗ (iprop(owns (c : Thread nD τ) q fullShare xq ∗ owns (c : Thread nD τ) k fullShare xk ∗ (∃ f, o.view.loc (c : Thread nD τ) ↦[o.view.set]{fullShare} o.view.writes (Elt F) f LO) ∗ (∃ f, s.view.loc (c : Thread nD τ) ↦[s.view.set]{fullShare} s.view.writes (Elt F) f LS)) -∗ K ⟨⟩))
          ⊢ wp frame (wpE (defs₀ (F := F)) Variants.none c none) E (cc0__infonce_kernel i q hq k hk o ho s hs) K } := by
  refine ⟨?_, ?_, fun E K => ?run⟩
  case run =>
    simp only [cc0__infonce_kernel_eq_skeleton]; unfold cc0__infonce_kernel_skel
    unfold owns
    iintro ⟨⟨%fq, %hfq, Hq⟩, ⟨%fk, %hfk, Hk'⟩, ⟨%d_o, %fo, -, Ho⟩, ⟨%fs, %hfs, HS⟩, Hk⟩
    obtain rfl := hq.eq_unread hfq; obtain rfl := hk.eq_unread hfk; obtain rfl := hs.eq_unread hfs
    sl_exec (disch := first | exact hc0 | exact hc1)
    sl_step
    iapply Hk
    isplitl [Hq]
    · iexists _; isplitr; · ipureintro; exact hq.read_unread _
      iexact Hq
    isplitl [Hk']
    · iexists _; isplitr; · ipureintro; exact hk.read_unread _
      iexact Hk'
    isplitl [Ho]; · iexists _; iexact Ho
    iexists _; iexact HS

end Cert.Kernel.Around

end
-- ==== Proof.KB.Frame.lean ====
/-
  The frame of the kernel program: it runs to the end, faults nowhere and leaves its arguments unchanged.

  The scratch column after point `n` is defined by recursion on `n`: at a first key block what the first-case run
  leaves, otherwise what the middle / last run leaves over the contents after point `n - 1`.  The output block's
  staging buffer is named only at last key blocks, where the body stores it and the pipeline writes it back.
  With the input windows' buffers at their blocks this is the pipeline's proof data; the body's triple at each point
  is the matching run; and the launch theorem for "host lines, region with a carried scratch, host lines" gives the
  run of @main, whose post reads every buffer at the end.
-/
import proofs.«127262_j32341103739238_1_alg».proof.Proof.KB.Runs

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window and the scratch, as views through which contents are stated. -/
abbrev VO : View sig .tc .vmem S1024x1 .f32 := (Memref.whole cc0_stg2_0 : Memref sig .tc .vmem S1024x1 .f32).view
abbrev VS : View sig .tc .vmem S1024x1 .f32 := scr.view

/-! ## What each case leaves, read back from its pieces -/

section Cases
variable (c : Dev nD) (i : grid0.Coords) (q : Memref sig .tc .vmem S1024x64 .f32) (hq : q.IsWhole) (k : Memref sig .tc .vmem S1024x64 .f32) (hk : k.IsWhole) (o : Memref sig .tc .vmem S1024x1 .f32) (ho : o.IsWhole) (s : Memref sig .tc .vmem S1024x1 .f32) (hs : s.IsWhole)
  (xq xk : Vec F S1024x64 .f32) (xs : Vec F S1024x1 .f32)

theorem cover_sFirst (hc0 : isFirst i) (hc1 : ¬isLast i) (y : S1024x1.Idx) :
    ∃ pc ∈ (runFirst c i q hq k hk o ho s hs hc0 hc1 xq xk).1, y ∈ pc.1.set :=
  View.cover_of_tiledL (runFirst c i q hq k hk o ho s hs hc0 hc1 xq xk).1 S1024x1.size (by sl_kernel_rfl) y
def sFirst (hc0 : isFirst i) (hc1 : ¬isLast i) : Vec F S1024x1 .f32 :=
  VS.read (Elt F) (VS.writes (Elt F) VS.junk (runFirst c i q hq k hk o ho s hs hc0 hc1 xq xk).1)

theorem cover_sMiddle (hc0 : ¬isFirst i) (hc1 : ¬isLast i) (y : S1024x1.Idx) :
    ∃ pc ∈ (runMiddle c i q hq k hk o ho s hs hc0 hc1 xq xk xs).1, y ∈ pc.1.set :=
  View.cover_of_tiledL (runMiddle c i q hq k hk o ho s hs hc0 hc1 xq xk xs).1 S1024x1.size (by sl_kernel_rfl) y
def sMiddle (hc0 : ¬isFirst i) (hc1 : ¬isLast i) : Vec F S1024x1 .f32 :=
  VS.read (Elt F) (VS.writes (Elt F) VS.junk (runMiddle c i q hq k hk o ho s hs hc0 hc1 xq xk xs).1)

theorem cover_sLast (hc0 : ¬isFirst i) (hc1 : isLast i) (y : S1024x1.Idx) :
    ∃ pc ∈ (runLast c i q hq k hk o ho s hs hc0 hc1 xq xk xs).2.1, y ∈ pc.1.set :=
  View.cover_of_tiledL (runLast c i q hq k hk o ho s hs hc0 hc1 xq xk xs).2.1 S1024x1.size (by sl_kernel_rfl) y
def sLast (hc0 : ¬isFirst i) (hc1 : isLast i) : Vec F S1024x1 .f32 :=
  VS.read (Elt F) (VS.writes (Elt F) VS.junk (runLast c i q hq k hk o ho s hs hc0 hc1 xq xk xs).2.1)

theorem cover_oLast (hc0 : ¬isFirst i) (hc1 : isLast i) (y : S1024x1.Idx) :
    ∃ pc ∈ (runLast c i q hq k hk o ho s hs hc0 hc1 xq xk xs).1, y ∈ pc.1.set :=
  View.cover_of_tiledL (runLast c i q hq k hk o ho s hs hc0 hc1 xq xk xs).1 S1024x1.size (by sl_kernel_rfl) y
def oLast (hc0 : ¬isFirst i) (hc1 : isLast i) : Vec F S1024x1 .f32 :=
  VO.read (Elt F) (VO.writes (Elt F) VO.junk (runLast c i q hq k hk o ho s hs hc0 hc1 xq xk xs).1)

end Cases

/-! ## Point by point -/

theorem lt64 {n : ℕ} (hn : n < cfg0.N) : n < 64 := lt_of_lt_of_eq hn (show cfg0.N = 64 from N_0)

/-- The scratch column after the body at point `n`. -/
def sAt (c : Dev nD) : (n : ℕ) → n < cfg0.N → Vec F S1024x1 .f32
  | 0, hn => sFirst c (grid0.coords ⟨0, hn⟩) (msq ⟨0, hn⟩) (hsq ⟨0, hn⟩) (msk ⟨0, hn⟩) (hsk ⟨0, hn⟩) (mso ⟨0, hn⟩) (hso ⟨0, hn⟩) scr (Memref.isWhole_whole _) (iblk m c 0 ⟨0, hn⟩) (iblk m c 1 ⟨0, hn⟩)
      ((isFirst_iff ⟨0, hn⟩).mpr (Nat.zero_mod _)) (fun h => (fun h => by (try dsimp only at h); omega) ((isLast_iff ⟨0, hn⟩).mp h))
  | n + 1, hn =>
    if h0 : (n + 1) % 8 = 0 then
      sFirst c (grid0.coords ⟨n + 1, hn⟩) (msq ⟨n + 1, hn⟩) (hsq ⟨n + 1, hn⟩) (msk ⟨n + 1, hn⟩) (hsk ⟨n + 1, hn⟩) (mso ⟨n + 1, hn⟩) (hso ⟨n + 1, hn⟩) scr (Memref.isWhole_whole _) (iblk m c 0 ⟨n + 1, hn⟩) (iblk m c 1 ⟨n + 1, hn⟩)
        ((isFirst_iff ⟨n + 1, hn⟩).mpr h0) (fun h => (fun h => by (try dsimp only at h); omega) ((isLast_iff ⟨n + 1, hn⟩).mp h))
    else if h1 : (n + 1) % 8 = 7 then
      sLast c (grid0.coords ⟨n + 1, hn⟩) (msq ⟨n + 1, hn⟩) (hsq ⟨n + 1, hn⟩) (msk ⟨n + 1, hn⟩) (hsk ⟨n + 1, hn⟩) (mso ⟨n + 1, hn⟩) (hso ⟨n + 1, hn⟩) scr (Memref.isWhole_whole _) (iblk m c 0 ⟨n + 1, hn⟩) (iblk m c 1 ⟨n + 1, hn⟩) (sAt c n (Nat.lt_of_succ_lt hn))
        (fun h => h0 ((isFirst_iff ⟨n + 1, hn⟩).mp h)) ((isLast_iff ⟨n + 1, hn⟩).mpr h1)
    else
      sMiddle c (grid0.coords ⟨n + 1, hn⟩) (msq ⟨n + 1, hn⟩) (hsq ⟨n + 1, hn⟩) (msk ⟨n + 1, hn⟩) (hsk ⟨n + 1, hn⟩) (mso ⟨n + 1, hn⟩) (hso ⟨n + 1, hn⟩) scr (Memref.isWhole_whole _) (iblk m c 0 ⟨n + 1, hn⟩) (iblk m c 1 ⟨n + 1, hn⟩) (sAt c n (Nat.lt_of_succ_lt hn))
        (fun h => h0 ((isFirst_iff ⟨n + 1, hn⟩).mp h)) (fun h => h1 ((isLast_iff ⟨n + 1, hn⟩).mp h))

theorem sAt_first (c : Dev nD) (t : Fin cfg0.N) (h0 : t.val % 8 = 0) :
    sAt m c t.val t.isLt = sFirst c (grid0.coords t) (msq t) (hsq t) (msk t) (hsk t) (mso t) (hso t) scr (Memref.isWhole_whole _) (iblk m c 0 t) (iblk m c 1 t)
      ((isFirst_iff t).mpr h0) (fun h => (fun h => by omega) ((isLast_iff t).mp h)) := by
  obtain ⟨n, hn⟩ := t
  cases n with
  | zero => exact rfl
  | succ n => exact (dif_pos h0).trans rfl

theorem sAt_middle (c : Dev nD) (t : Fin cfg0.N) (h0 : ¬t.val % 8 = 0) (h1 : ¬t.val % 8 = 7) :
    sAt m c t.val t.isLt = sMiddle c (grid0.coords t) (msq t) (hsq t) (msk t) (hsk t) (mso t) (hso t) scr (Memref.isWhole_whole _) (iblk m c 0 t) (iblk m c 1 t)
      (sAt m c (t.val - 1) (Nat.lt_of_le_of_lt (Nat.sub_le _ _) t.isLt))
      (fun h => h0 ((isFirst_iff t).mp h)) (fun h => h1 ((isLast_iff t).mp h)) := by
  obtain ⟨n, hn⟩ := t
  cases n with
  | zero => exact (by exfalso; (try dsimp only at h0); exact absurd (Nat.zero_mod _) h0)
  | succ n => exact (dif_neg h0).trans ((dif_neg h1).trans rfl)

theorem sAt_last (c : Dev nD) (t : Fin cfg0.N) (h0 : ¬t.val % 8 = 0) (h1 : t.val % 8 = 7) :
    sAt m c t.val t.isLt = sLast c (grid0.coords t) (msq t) (hsq t) (msk t) (hsk t) (mso t) (hso t) scr (Memref.isWhole_whole _) (iblk m c 0 t) (iblk m c 1 t)
      (sAt m c (t.val - 1) (Nat.lt_of_le_of_lt (Nat.sub_le _ _) t.isLt))
      (fun h => h0 ((isFirst_iff t).mp h)) ((isLast_iff t).mpr h1) := by
  obtain ⟨n, hn⟩ := t
  cases n with
  | zero => exact (by exfalso; (try dsimp only at h0); exact absurd (Nat.zero_mod _) h0)
  | succ n => exact (dif_neg h0).trans ((dif_pos h1).trans rfl)

/-- The output block's staging buffer after the body at point `t`: what the last-case run stores at a last key
    block; elsewhere the window is idle and the value is a placeholder nothing consults. -/
def oAt (c : Dev nD) (t : Fin cfg0.N) : Vec F S1024x1 .f32 :=
  if h1 : t.val % 8 = 7 then
    oLast c (grid0.coords t) (msq t) (hsq t) (msk t) (hsk t) (mso t) (hso t) scr (Memref.isWhole_whole _) (iblk m c 0 t) (iblk m c 1 t)
      (sAt m c (t.val - 1) (Nat.lt_of_le_of_lt (Nat.sub_le _ _) t.isLt))
      (fun h => (fun h => by omega) ((isFirst_iff t).mp h)) ((isLast_iff t).mpr h1)
  else sAt m c t.val t.isLt

theorem oAt_last (c : Dev nD) (t : Fin cfg0.N) (h0 : ¬t.val % 8 = 0) (h1 : t.val % 8 = 7) :
    oAt m c t = oLast c (grid0.coords t) (msq t) (hsq t) (msk t) (hsk t) (mso t) (hso t) scr (Memref.isWhole_whole _) (iblk m c 0 t) (iblk m c 1 t)
      (sAt m c (t.val - 1) (Nat.lt_of_le_of_lt (Nat.sub_le _ _) t.isLt))
      (fun h => h0 ((isFirst_iff t).mp h)) ((isLast_iff t).mpr h1) := by
  unfold oAt; exact (dif_pos h1).trans rfl

/-- The region's invariant before position `n`: before the first point the scratch at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scr fullShare (sAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scr fullShare (sAt m c n hn)) ∗ (∃ r, prngReg c r)) := rfl
theorem PhiS_pos (c : Dev nD) (n : ℕ) (h : n ≤ cfg0.N) (hz : n ≠ 0) :
    PhiS m c n h = iprop(iprop(owns (c : Thread nD τ) scr fullShare (sAt m c (n - 1) (by omega))) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => oAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_o (c : Dev nD) (t : Fin cfg0.N) : (dats m 0 c).after 2 t = oAt m c t := by dsimp only [dats]
theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msq t) fullShare ((dats m 0 c).before 0 t d))
    ∗ (∃ d, owns (c : Thread nD τ) (msk t) fullShare ((dats m 0 c).before 1 t d))
    ∗ (∃ d, owns (c : Thread nD τ) (mso t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k]
  rw [show (dats m 0 c).owesAt () t.succ = (dats m 0 c).owesAt () t.castSucc from rfl]
  rw [show (dats m 0 c).Φ t.succ = PhiS m c (t.val + 1) t.isLt from rfl, PhiS_succ]
  have hN : t.val < 64 := lt64 t.isLt
  rw [show (dats m 0 c).leavesExact 0 t = owns (c : Thread nD τ) (msq t) fullShare ((dats m 0 c).after 0 t) from by
    unfold Dat.leavesExact; rw [live_q t], after_q]
  rw [show (dats m 0 c).leavesExact 1 t = owns (c : Thread nD τ) (msk t) fullShare ((dats m 0 c).after 1 t) from by
    unfold Dat.leavesExact; rw [live_k t], after_k]
  by_cases h0 : t.val % 8 = 0
  · have h1 : ¬t.val % 8 = 7 := by omega
    rw [Dat.leavesExact_idle (dats m 0 c) 2 t (idle_out t (fun h => h1 ((isLast_iff t).mp h))) (noFlush_out t (fun h => h1 ((isLast_iff t).mp h)))]
    rw [sAt_first m c t h0]
    unfold sFirst; (try dsimp only)
    by_cases hz : t.val = 0
    · rw [PhiS_castSucc m c t, PhiS_zero m c _ _ hz, PhiA_eq]
      iintro ⟨⟨HS, Hg⟩, Ho, ⟨%dq, Hq⟩, ⟨%dk, Hk⟩, ⟨%d_o, Hout⟩⟩
      iapply ((runFirst c (grid0.coords t) _ _ _ _ _ _ _ _ ((isFirst_iff t).mpr h0) (fun h => h1 ((isLast_iff t).mp h)) (iblk m c 0 t) (iblk m c 1 t)).2 _ Set.univ _)
      isplitl [Hq]; · iexact Hq
      isplitl [Hk]; · iexact Hk
      isplitl [Hout]; · iexact Hout
      isplitl [HS]; · iexact HS
      iintro ⟨Hq, Hk, Hout, ⟨%es, HS⟩⟩
      isplitl [HS Hg]
      · isplitl [HS]
        · unfold owns; iexists _; isplitr
          swap; · iexact HS
          ipureintro; exact View.read_writes_of_cover _ _ _ _ _ (cover_sFirst c _ _ _ _ _ _ _ _ _ _ _ _ _)
        iexact Hg
      isplitl [Ho]; · iexact Ho
      isplitl [Hq]; · iexact Hq
      isplitl [Hk]; · iexact Hk
      iexists _; iexact Hout
    · rw [PhiS_castSucc m c t, PhiS_pos m c _ _ hz]
      iintro ⟨⟨HS, Hg⟩, Ho, ⟨%dq, Hq⟩, ⟨%dk, Hk⟩, ⟨%d_o, Hout⟩⟩
      iapply ((runFirst c (grid0.coords t) _ _ _ _ _ _ _ _ ((isFirst_iff t).mpr h0) (fun h => h1 ((isLast_iff t).mp h)) (iblk m c 0 t) (iblk m c 1 t)).2 _ Set.univ _)
      isplitl [Hq]; · iexact Hq
      isplitl [Hk]; · iexact Hk
      isplitl [Hout]; · iexact Hout
      isplitl [HS]; · iexists _; iexact HS
      iintro ⟨Hq, Hk, Hout, ⟨%es, HS⟩⟩
      isplitl [HS Hg]
      · isplitl [HS]
        · unfold owns; iexists _; isplitr
          swap; · iexact HS
          ipureintro; exact View.read_writes_of_cover _ _ _ _ _ (cover_sFirst c _ _ _ _ _ _ _ _ _ _ _ _ _)
        iexact Hg
      isplitl [Ho]; · iexact Ho
      isplitl [Hq]; · iexact Hq
      isplitl [Hk]; · iexact Hk
      iexists _; iexact Hout
  · have hz : t.val ≠ 0 := by omega
    by_cases h1 : t.val % 8 = 7
    · rw [show (dats m 0 c).leavesExact 2 t = owns (c : Thread nD τ) (mso t) fullShare ((dats m 0 c).after 2 t) from by
        unfold Dat.leavesExact; rw [live_out t ((isLast_iff t).mpr h1)], after_o]
      rw [sAt_last m c t h0 h1, oAt_last m c t h0 h1]
      unfold sLast oLast; (try dsimp only)
      rw [PhiS_castSucc m c t, PhiS_pos m c _ _ hz]
      iintro ⟨⟨HS, Hg⟩, Ho, ⟨%dq, Hq⟩, ⟨%dk, Hk⟩, ⟨%d_o, Hout⟩⟩
      iapply ((runLast c (grid0.coords t) _ _ _ _ _ _ _ _ (fun h => h0 ((isFirst_iff t).mp h)) ((isLast_iff t).mpr h1) (iblk m c 0 t) (iblk m c 1 t) _).2.2 Set.univ _)
      isplitl [Hq]; · iexact Hq
      isplitl [Hk]; · iexact Hk
      isplitl [Hout]; · iexists _; iexact Hout
      isplitl [HS]; · iexact HS
      iintro ⟨Hq, Hk, ⟨%eo, Hout⟩, ⟨%es, HS⟩⟩
      isplitl [HS Hg]
      · isplitl [HS]
        · unfold owns; iexists _; isplitr
          swap; · iexact HS
          ipureintro; exact View.read_writes_of_cover _ _ _ _ _ (cover_sLast c _ _ _ _ _ _ _ _ _ _ _ _ _ _)
        iexact Hg
      isplitl [Ho]; · iexact Ho
      isplitl [Hq]; · iexact Hq
      isplitl [Hk]; · iexact Hk
      unfold owns; iexists _; isplitr
      swap; · iexact Hout
      ipureintro; exact View.read_writes_of_cover _ _ _ _ _ (cover_oLast c _ _ _ _ _ _ _ _ _ _ _ _ _ _)
    · rw [Dat.leavesExact_idle (dats m 0 c) 2 t (idle_out t (fun h => h1 ((isLast_iff t).mp h))) (noFlush_out t (fun h => h1 ((isLast_iff t).mp h)))]
      rw [sAt_middle m c t h0 h1]
      unfold sMiddle; (try dsimp only)
      rw [PhiS_castSucc m c t, PhiS_pos m c _ _ hz]
      iintro ⟨⟨HS, Hg⟩, Ho, ⟨%dq, Hq⟩, ⟨%dk, Hk⟩, ⟨%d_o, Hout⟩⟩
      iapply ((runMiddle c (grid0.coords t) _ _ _ _ _ _ _ _ (fun h => h0 ((isFirst_iff t).mp h)) (fun h => h1 ((isLast_iff t).mp h)) (iblk m c 0 t) (iblk m c 1 t) _).2 _ Set.univ _)
      isplitl [Hq]; · iexact Hq
      isplitl [Hk]; · iexact Hk
      isplitl [Hout]; · iexact Hout
      isplitl [HS]; · iexact HS
      iintro ⟨Hq, Hk, Hout, ⟨%es, HS⟩⟩
      isplitl [HS Hg]
      · isplitl [HS]
        · unfold owns; iexists _; isplitr
          swap; · iexact HS
          ipureintro; exact View.read_writes_of_cover _ _ _ _ _ (cover_sMiddle c _ _ _ _ _ _ _ _ _ _ _ _ _ _)
        iexact Hg
      isplitl [Ho]; · iexact Ho
      isplitl [Hq]; · iexact Hq
      isplitl [Hk]; · iexact Hk
      iexists _; iexact Hout

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

/-! ## The run -/

set_option backward.isDefEq.respectTransparency.types false in
/-- Every weakly fair execution of @main terminates; at the end each window's array is what the pipeline's
    write-backs make of the proof data, and every other unscoped buffer is as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- What an argument holds at the end of the run: its launch contents. -/
theorem arg_kept {r : PUnit × MemSt nD τ sig (Elt F)}
    (h : Pipeline.FramePost cfgs (dats m) 0 (Pipeline.afterTail₀ cfgs (dats m) 0 (V0 m) tailOps) r) (c : Dev nD)
    (b : Ref sig .tc) (hb : b ∈ argRefs) (hrest : b ∈ Pipeline.restRefs sig spec0) (hne : ∀ w, Pipeline.arrRef spec0 w ≠ b) :
    r.2.mem ((c.tc : Thread nD τ).loc b) = m ((c.tc : Thread nD τ).loc b) := by
  refine ((h c).2 b hrest).trans ?_
  unfold Pipeline.afterTail₀
  rw [tail_arg _ hb, Pipeline.withArrays_of_ne _ c (V0 m c) _ b hne]
  exact V_arg m c hb

end Cert.Kernel.Around

end
-- ==== Proof.KB.FrameClaim.lean ====
/-
  The frame claim of the kernel program, read off the run of @main: each of the ten arguments is an unscoped
  buffer that no window moves and no host line writes, so it ends at its launch contents.
-/
import proofs.«127262_j32341103739238_1_alg».proof.Proof.KB.Frame

set_option maxRecDepth 16384

noncomputable section

namespace Cert.Kernel.Around

open Idealize.ShloMosaic Idealize.ShloMosaic.TcCoe Idealize.SL.Sem
open Cert.Kernel Cert.Kernel.Gen

variable {F : FTy → Type} [FloatOps F]
variable (m : (ℓ : Loc nD τ sig) → Buf (Elt F) ℓ) (ρ : Dev nD → PrngReg)

/-- Every weakly fair execution of @main terminates without a fault and leaves the ten arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => ⟨
    arg_kept m h c main_arg0 (by simp [argRefs]) (Pipeline.mem_restRefs_of main_arg0 (by decide) (by decide)) (by decide),
    arg_kept m h c main_arg1 (by simp [argRefs]) (Pipeline.mem_restRefs_of main_arg1 (by decide) (by decide)) (by decide),
    arg_kept m h c main_arg2 (by simp [argRefs]) (Pipeline.mem_restRefs_of main_arg2 (by decide) (by decide)) (by decide),
    arg_kept m h c main_arg3 (by simp [argRefs]) (Pipeline.mem_restRefs_of main_arg3 (by decide) (by decide)) (by decide),
    arg_kept m h c main_arg4 (by simp [argRefs]) (Pipeline.mem_restRefs_of main_arg4 (by decide) (by decide)) (by decide),
    arg_kept m h c main_arg5 (by simp [argRefs]) (Pipeline.mem_restRefs_of main_arg5 (by decide) (by decide)) (by decide),
    arg_kept m h c main_arg6 (by simp [argRefs]) (Pipeline.mem_restRefs_of main_arg6 (by decide) (by decide)) (by decide),
    arg_kept m h c main_arg7 (by simp [argRefs]) (Pipeline.mem_restRefs_of main_arg7 (by decide) (by decide)) (by decide),
    arg_kept m h c main_arg8 (by simp [argRefs]) (Pipeline.mem_restRefs_of main_arg8 (by decide) (by decide)) (by decide),
    arg_kept m h c main_arg9 (by simp [argRefs]) (Pipeline.mem_restRefs_of main_arg9 (by decide) (by decide)) (by decide)⟩)
    (run_main m ρ)

end Cert.Kernel.Around

end
-- ==== Proof.KI.Lines.lean ====
/-
  The host lines of @main around the kernel region.

  @main is 144 host operations, the kernel region, then three stretches of 143, 14 and 12 host operations.  Each
  operation writes its own result buffer only, so: none allocates, none writes an argument of @main, and no
  operation after the region writes an array the region's windows move (the two normalised batches it reads and
  the column of row sums it writes).  These are comparisons of buffer references, one operation at a time.
-/
import proofs.«127262_j32341103739238_1_alg».proof.Proof.Gen.KernelIdeal.Launch
import proofs.«127262_j32341103739238_1_alg».proof.Proof.LibLineFacts

set_option maxRecDepth 16384
set_option maxHeartbeats 4000000

noncomputable section

namespace Cert.KernelIdeal.Around

open Idealize.ShloMosaic Idealize.ShloMosaic.TcCoe Idealize.ShloMosaic.StableHlo
open Cert.KernelIdeal Cert.KernelIdeal.Gen

variable {F : FTy → Type} [FloatOps F]

/-- The ten arguments of @main. -/
abbrev argRefs : List (Ref sig .tc) :=
  [main_arg0, main_arg1, main_arg2, main_arg3, main_arg4, main_arg5, main_arg6, main_arg7, main_arg8, main_arg9]

/-- The three arrays the region's windows move. -/
abbrev winRefs : List (Ref sig .tc) := [main_v108, main_v115, main_v116]

/-! ## No operation allocates -/

theorem fresh0 : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem fresh1 : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem fresh1_1 : (hostOps1_1 : List (HloOp τ sig (Elt F))).Forall fun op => op.fresh = ∅ :=
  ⟨rfl, rfl, rfl, rfl, rfl, rfl, rfl, rfl, rfl, rfl, rfl, rfl, rfl, rfl⟩
theorem fresh1_2 : (hostOps1_2 : List (HloOp τ sig (Elt F))).Forall fun op => op.fresh = ∅ :=
  ⟨rfl, rfl, rfl, rfl, rfl, rfl, rfl, rfl, rfl, rfl, rfl, rfl⟩

/-! ## No operation writes an argument -/

theorem args0 : Avoids argRefs (hostOps0 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩
theorem args1 : Avoids argRefs (hostOps1 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩
theorem args1_1 : Avoids argRefs (hostOps1_1 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩
theorem args1_2 : Avoids argRefs (hostOps1_2 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩

/-! ## No operation after the region writes an array of a window -/

theorem wins1 : Avoids winRefs (hostOps1 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩
theorem wins1_1 : Avoids winRefs (hostOps1_1 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩
theorem wins1_2 : Avoids winRefs (hostOps1_2 : List (HloOp τ sig (Elt F))) :=
  ⟨writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide), writes_avoid rfl _ (by decide)⟩

end Cert.KernelIdeal.Around

end
-- ==== Proof.KI.Region.lean ====
/-
  The kernel region in its surroundings.

  The region finds every buffer as the 144 host operations before it leave them (`V`).  Its grid is 8 by 8: the first
  coordinate picks a block of 1024 query rows, the second a block of 1024 key rows, and the points are visited
  row-major, so that point `t` has query block `t / 8` and key block `t % 8`.  The body resets its scratch column at
  key block 0, adds the row sums of `exp (2 · q kᵀ)` at every key block, and stores the column to the output block
  at key block 7 only; elsewhere the output window is idle and not written back.
-/
import proofs.«127262_j32341103739238_1_alg».proof.Proof.KI.Lines
import proofs.«127262_j32341103739238_1_alg».proof.Proof.Gen.KernelIdeal.Skeleton
import proofs.«127262_j32341103739238_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host operations after the region. -/
abbrev tailOps : List (List (HloOp τ sig (Elt F))) := [hostOps1, hostOps1_1, hostOps1_2]

/-- @main is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub fresh0 main_chain

/-- The lines after the region touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp fresh1) op hop
  · exact (List.forall_iff_forall_mem.mp fresh1_1) op hop
  · exact (List.forall_iff_forall_mem.mp fresh1_2) op hop

/-- Each window's array is one of the three listed. -/
theorem arrRef_mem (w : Fin 3) : Pipeline.arrRef spec0 w ∈ winRefs := by
  fin_cases w <;> simp [winRefs, Pipeline.arrRef]

/-- And they write no array of a window. -/
theorem tail_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl
  · exact (List.forall_iff_forall_mem.mp wins1) op hop _ (arrRef_mem w)
  · exact (List.forall_iff_forall_mem.mp wins1_1) op hop _ (arrRef_mem w)
  · exact (List.forall_iff_forall_mem.mp wins1_2) op hop _ (arrRef_mem w)

/-- The lines before the region leave every argument as launched. -/
theorem V_arg (c : Dev nD) {b : Ref sig .tc} (hb : b ∈ argRefs) : V m c b = m ((c : Thread nD τ).loc b) :=
  after_flatten_of_avoids (bs := argRefs) (opss := [hostOps0])
    (fun ops hops => by
      simp only [List.mem_cons, List.mem_nil_iff, or_false] at hops
      rcases hops with rfl
      exact args0) _ hb

/-- Over all the lines after the region an argument keeps whatever it held. -/
theorem tail_arg (W : Valuation τ sig (Elt F)) {b : Ref sig .tc} (hb : b ∈ argRefs) :
    StableHlo.after (tailOps (F := F)).flatten W (Proc.devRef .tc b) = W (Proc.devRef .tc b) :=
  after_flatten_of_avoids (bs := argRefs) (opss := tailOps)
    (fun ops hops => by
      simp only [List.mem_cons, List.mem_nil_iff, or_false] at hops
      rcases hops with rfl | rfl | rfl
      · exact args1
      · exact args1_1
      · exact args1_2) _ hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point, fetched there or not. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's staging buffer holds its block at every point. -/
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "This is the first key block": the reset of the scratch column. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last key block": the store of the column to the output block. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The input windows are never idle. -/
theorem live_q : ∀ t : Fin cfg0.N, cfg0.idle 0 (grid0.coords t) = false := by decide +kernel
theorem live_k : ∀ t : Fin cfg0.N, cfg0.idle 1 (grid0.coords t) = false := by decide +kernel
/-- The output window is idle, and not written back, away from the last key block; live at it. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
theorem live_out : ∀ t : Fin cfg0.N, isLast (grid0.coords t) → cfg0.idle 2 (grid0.coords t) = false := by decide +kernel

/-! ## The staging memrefs at a point, and the scratch -/

abbrev msq (t : Fin cfg0.N) : Memref sig .tc .vmem S1024x64 .f32 := win0_0.stage (cfg0.slots t 0)
abbrev hsq (t : Fin cfg0.N) : (msq t).IsWhole := hstage0_0 ((cfg0.slots t 0).cast nbuf0_0)
abbrev msk (t : Fin cfg0.N) : Memref sig .tc .vmem S1024x64 .f32 := win0_1.stage (cfg0.slots t 1)
abbrev hsk (t : Fin cfg0.N) : (msk t).IsWhole := hstage0_1 ((cfg0.slots t 1).cast nbuf0_1)
abbrev mso (t : Fin cfg0.N) : Memref sig .tc .vmem S1024x1 .f32 := win0_2.stage (cfg0.slots t 2)
abbrev hso (t : Fin cfg0.N) : (mso t).IsWhole := hstage0_2 ((cfg0.slots t 2).cast nbuf0_2)
/-- The scratch column the kernel carries from one key block to the next. -/
abbrev scr : Memref sig .tc .vmem S1024x1 .f32 := Memref.whole cc0_scratch0

/-- The region's invariant with the scratch as a memref owned at some contents. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

end Cert.KernelIdeal.Around

end
-- ==== Proof.KI.Runs.lean ====
/-
  The kernel body run symbolically, one run per control case.

  At a point the body is called on four whole memrefs: the query block, the key block, the output block's staging
  buffer and the scratch column.  Three cases occur on the 8 by 8 grid:
    first  — key block 0: the scratch is overwritten with zeros, then with zeros plus this block's row sums;
    middle — key blocks 1 … 6: the scratch is overwritten with what it held plus this block's row sums;
    last   — key block 7: as in the middle, and then the scratch is copied to the output block.
  Away from the last key block the output buffer is handed back untouched.  Each run records the pieces the
  stores leave in the scratch (and, in the last case, in the output buffer).
-/
import proofs.«127262_j32341103739238_1_alg».proof.Proof.KI.Region

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- First key block: the scratch, whatever it held, ends with the pieces `LS`; the output buffer is untouched. -/
noncomputable def runFirst (c : Dev nD) (i : grid0.Coords) (q : Memref sig .tc .vmem S1024x64 .f32) (hq : q.IsWhole) (k : Memref sig .tc .vmem S1024x64 .f32) (hk : k.IsWhole) (o : Memref sig .tc .vmem S1024x1 .f32) (ho : o.IsWhole) (s : Memref sig .tc .vmem S1024x1 .f32) (hs : s.IsWhole) (hc0 : isFirst i) (hc1 : ¬isLast i)
    (xq : Vec F S1024x64 .f32) (xk : Vec F S1024x64 .f32) :
    { LS : List (View.Piece (Elt F) S1024x1 .f32) //
      ∀ (xo : Vec F S1024x1 .f32) (E : Set ℕ) (K : PUnit → sProp 𝕄),
        iprop(owns (c : Thread nD τ) q fullShare xq ∗ owns (c : Thread nD τ) k fullShare xk ∗ owns (c : Thread nD τ) o fullShare xo ∗ (∃ d, owns (c : Thread nD τ) s fullShare d)
            ∗ (iprop(owns (c : Thread nD τ) q fullShare xq ∗ owns (c : Thread nD τ) k fullShare xk ∗ owns (c : Thread nD τ) o fullShare xo ∗ (∃ f, s.view.loc (c : Thread nD τ) ↦[s.view.set]{fullShare} s.view.writes (Elt F) f LS)) -∗ K ⟨⟩))
          ⊢ wp frame (wpE (defs₀ (F := F)) Variants.none c none) E (cc0__infonce_kernel i q hq k hk o ho s hs) K } := by
  refine ⟨?_, fun xo E K => ?run⟩
  case run =>
    simp only [cc0__infonce_kernel_eq_skeleton]; unfold cc0__infonce_kernel_skel
    unfold owns
    iintro ⟨⟨%fq, %hfq, Hq⟩, ⟨%fk, %hfk, Hk'⟩, ⟨%fo, %hfo, Ho⟩, ⟨%ds, %fs, -, HS⟩, Hk⟩
    obtain rfl := hq.eq_unread hfq; obtain rfl := hk.eq_unread hfk; obtain rfl := ho.eq_unread hfo
    sl_exec (disch := first | exact hc0 | exact hc1)
    sl_step
    iapply Hk
    isplitl [Hq]
    · iexists _; isplitr; · ipureintro; exact hq.read_unread _
      iexact Hq
    isplitl [Hk']
    · iexists _; isplitr; · ipureintro; exact hk.read_unread _
      iexact Hk'
    isplitl [Ho]
    · iexists _; isplitr; · ipureintro; exact ho.read_unread _
      iexact Ho
    iexists _; iexact HS

set_option maxHeartbeats 4000000 in
/-- A middle key block: the scratch, found at `xs`, ends with the pieces `LS`; the output buffer is untouched. -/
noncomputable def runMiddle (c : Dev nD) (i : grid0.Coords) (q : Memref sig .tc .vmem S1024x64 .f32) (hq : q.IsWhole) (k : Memref sig .tc .vmem S1024x64 .f32) (hk : k.IsWhole) (o : Memref sig .tc .vmem S1024x1 .f32) (ho : o.IsWhole) (s : Memref sig .tc .vmem S1024x1 .f32) (hs : s.IsWhole) (hc0 : ¬isFirst i) (hc1 : ¬isLast i)
    (xq : Vec F S1024x64 .f32) (xk : Vec F S1024x64 .f32) (xs : Vec F S1024x1 .f32) :
    { LS : List (View.Piece (Elt F) S1024x1 .f32) //
      ∀ (xo : Vec F S1024x1 .f32) (E : Set ℕ) (K : PUnit → sProp 𝕄),
        iprop(owns (c : Thread nD τ) q fullShare xq ∗ owns (c : Thread nD τ) k fullShare xk ∗ owns (c : Thread nD τ) o fullShare xo ∗ owns (c : Thread nD τ) s fullShare xs
            ∗ (iprop(owns (c : Thread nD τ) q fullShare xq ∗ owns (c : Thread nD τ) k fullShare xk ∗ owns (c : Thread nD τ) o fullShare xo ∗ (∃ f, s.view.loc (c : Thread nD τ) ↦[s.view.set]{fullShare} s.view.writes (Elt F) f LS)) -∗ K ⟨⟩))
          ⊢ wp frame (wpE (defs₀ (F := F)) Variants.none c none) E (cc0__infonce_kernel i q hq k hk o ho s hs) K } := by
  refine ⟨?_, fun xo E K => ?run⟩
  case run =>
    simp only [cc0__infonce_kernel_eq_skeleton]; unfold cc0__infonce_kernel_skel
    unfold owns
    iintro ⟨⟨%fq, %hfq, Hq⟩, ⟨%fk, %hfk, Hk'⟩, ⟨%fo, %hfo, Ho⟩, ⟨%fs, %hfs, HS⟩, Hk⟩
    obtain rfl := hq.eq_unread hfq; obtain rfl := hk.eq_unread hfk; obtain rfl := ho.eq_unread hfo; obtain rfl := hs.eq_unread hfs
    sl_exec (disch := first | exact hc0 | exact hc1)
    sl_step
    iapply Hk
    isplitl [Hq]
    · iexists _; isplitr; · ipureintro; exact hq.read_unread _
      iexact Hq
    isplitl [Hk']
    · iexists _; isplitr; · ipureintro; exact hk.read_unread _
      iexact Hk'
    isplitl [Ho]
    · iexists _; isplitr; · ipureintro; exact ho.read_unread _
      iexact Ho
    iexists _; iexact HS

set_option maxHeartbeats 4000000 in
/-- The last key block: the scratch, found at `xs`, ends with the pieces `LS`, the output buffer with the pieces `LO`. -/
noncomputable def runLast (c : Dev nD) (i : grid0.Coords) (q : Memref sig .tc .vmem S1024x64 .f32) (hq : q.IsWhole) (k : Memref sig .tc .vmem S1024x64 .f32) (hk : k.IsWhole) (o : Memref sig .tc .vmem S1024x1 .f32) (ho : o.IsWhole) (s : Memref sig .tc .vmem S1024x1 .f32) (hs : s.IsWhole) (hc0 : ¬isFirst i) (hc1 : isLast i)
    (xq : Vec F S1024x64 .f32) (xk : Vec F S1024x64 .f32) (xs : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) q fullShare xq ∗ owns (c : Thread nD τ) k fullShare xk ∗ (∃ d, owns (c : Thread nD τ) o fullShare d) ∗ owns (c : Thread nD τ) s fullShare xs
            ∗ (iprop(owns (c : Thread nD τ) q fullShare xq ∗ owns (c : Thread nD τ) k fullShare xk ∗ (∃ f, o.view.loc (c : Thread nD τ) ↦[o.view.set]{fullShare} o.view.writes (Elt F) f LO) ∗ (∃ f, s.view.loc (c : Thread nD τ) ↦[s.view.set]{fullShare} s.view.writes (Elt F) f LS)) -∗ K ⟨⟩))
          ⊢ wp frame (wpE (defs₀ (F := F)) Variants.none c none) E (cc0__infonce_kernel i q hq k hk o ho s hs) K } := by
  refine ⟨?_, ?_, fun E K => ?run⟩
  case run =>
    simp only [cc0__infonce_kernel_eq_skeleton]; unfold cc0__infonce_kernel_skel
    unfold owns
    iintro ⟨⟨%fq, %hfq, Hq⟩, ⟨%fk, %hfk, Hk'⟩, ⟨%d_o, %fo, -, Ho⟩, ⟨%fs, %hfs, HS⟩, Hk⟩
    obtain rfl := hq.eq_unread hfq; obtain rfl := hk.eq_unread hfk; obtain rfl := hs.eq_unread hfs
    sl_exec (disch := first | exact hc0 | exact hc1)
    sl_step
    iapply Hk
    isplitl [Hq]
    · iexists _; isplitr; · ipureintro; exact hq.read_unread _
      iexact Hq
    isplitl [Hk']
    · iexists _; isplitr; · ipureintro; exact hk.read_unread _
      iexact Hk'
    isplitl [Ho]; · iexists _; iexact Ho
    iexists _; iexact HS

end Cert.KernelIdeal.Around

end
-- ==== Proof.KI.Frame.lean ====
/-
  The frame of the kernel program: it runs to the end, faults nowhere and leaves its arguments unchanged.

  The scratch column after point `n` is defined by recursion on `n`: at a first key block what the first-case run
  leaves, otherwise what the middle / last run leaves over the contents after point `n - 1`.  The output block's
  staging buffer is named only at last key blocks, where the body stores it and the pipeline writes it back.
  With the input windows' buffers at their blocks this is the pipeline's proof data; the body's triple at each point
  is the matching run; and the launch theorem for "host lines, region with a carried scratch, host lines" gives the
  run of @main, whose post reads every buffer at the end.
-/
import proofs.«127262_j32341103739238_1_alg».proof.Proof.KI.Runs

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window and the scratch, as views through which contents are stated. -/
abbrev VO : View sig .tc .vmem S1024x1 .f32 := (Memref.whole cc0_stg2_0 : Memref sig .tc .vmem S1024x1 .f32).view
abbrev VS : View sig .tc .vmem S1024x1 .f32 := scr.view

/-! ## What each case leaves, read back from its pieces -/

section Cases
variable (c : Dev nD) (i : grid0.Coords) (q : Memref sig .tc .vmem S1024x64 .f32) (hq : q.IsWhole) (k : Memref sig .tc .vmem S1024x64 .f32) (hk : k.IsWhole) (o : Memref sig .tc .vmem S1024x1 .f32) (ho : o.IsWhole) (s : Memref sig .tc .vmem S1024x1 .f32) (hs : s.IsWhole)
  (xq xk : Vec F S1024x64 .f32) (xs : Vec F S1024x1 .f32)

theorem cover_sFirst (hc0 : isFirst i) (hc1 : ¬isLast i) (y : S1024x1.Idx) :
    ∃ pc ∈ (runFirst c i q hq k hk o ho s hs hc0 hc1 xq xk).1, y ∈ pc.1.set :=
  View.cover_of_tiledL (runFirst c i q hq k hk o ho s hs hc0 hc1 xq xk).1 S1024x1.size (by sl_kernel_rfl) y
def sFirst (hc0 : isFirst i) (hc1 : ¬isLast i) : Vec F S1024x1 .f32 :=
  VS.read (Elt F) (VS.writes (Elt F) VS.junk (runFirst c i q hq k hk o ho s hs hc0 hc1 xq xk).1)

theorem cover_sMiddle (hc0 : ¬isFirst i) (hc1 : ¬isLast i) (y : S1024x1.Idx) :
    ∃ pc ∈ (runMiddle c i q hq k hk o ho s hs hc0 hc1 xq xk xs).1, y ∈ pc.1.set :=
  View.cover_of_tiledL (runMiddle c i q hq k hk o ho s hs hc0 hc1 xq xk xs).1 S1024x1.size (by sl_kernel_rfl) y
def sMiddle (hc0 : ¬isFirst i) (hc1 : ¬isLast i) : Vec F S1024x1 .f32 :=
  VS.read (Elt F) (VS.writes (Elt F) VS.junk (runMiddle c i q hq k hk o ho s hs hc0 hc1 xq xk xs).1)

theorem cover_sLast (hc0 : ¬isFirst i) (hc1 : isLast i) (y : S1024x1.Idx) :
    ∃ pc ∈ (runLast c i q hq k hk o ho s hs hc0 hc1 xq xk xs).2.1, y ∈ pc.1.set :=
  View.cover_of_tiledL (runLast c i q hq k hk o ho s hs hc0 hc1 xq xk xs).2.1 S1024x1.size (by sl_kernel_rfl) y
def sLast (hc0 : ¬isFirst i) (hc1 : isLast i) : Vec F S1024x1 .f32 :=
  VS.read (Elt F) (VS.writes (Elt F) VS.junk (runLast c i q hq k hk o ho s hs hc0 hc1 xq xk xs).2.1)

theorem cover_oLast (hc0 : ¬isFirst i) (hc1 : isLast i) (y : S1024x1.Idx) :
    ∃ pc ∈ (runLast c i q hq k hk o ho s hs hc0 hc1 xq xk xs).1, y ∈ pc.1.set :=
  View.cover_of_tiledL (runLast c i q hq k hk o ho s hs hc0 hc1 xq xk xs).1 S1024x1.size (by sl_kernel_rfl) y
def oLast (hc0 : ¬isFirst i) (hc1 : isLast i) : Vec F S1024x1 .f32 :=
  VO.read (Elt F) (VO.writes (Elt F) VO.junk (runLast c i q hq k hk o ho s hs hc0 hc1 xq xk xs).1)

end Cases

/-! ## Point by point -/

theorem lt64 {n : ℕ} (hn : n < cfg0.N) : n < 64 := lt_of_lt_of_eq hn (show cfg0.N = 64 from N_0)

/-- The scratch column after the body at point `n`. -/
def sAt (c : Dev nD) : (n : ℕ) → n < cfg0.N → Vec F S1024x1 .f32
  | 0, hn => sFirst c (grid0.coords ⟨0, hn⟩) (msq ⟨0, hn⟩) (hsq ⟨0, hn⟩) (msk ⟨0, hn⟩) (hsk ⟨0, hn⟩) (mso ⟨0, hn⟩) (hso ⟨0, hn⟩) scr (Memref.isWhole_whole _) (iblk m c 0 ⟨0, hn⟩) (iblk m c 1 ⟨0, hn⟩)
      ((isFirst_iff ⟨0, hn⟩).mpr (Nat.zero_mod _)) (fun h => (fun h => by (try dsimp only at h); omega) ((isLast_iff ⟨0, hn⟩).mp h))
  | n + 1, hn =>
    if h0 : (n + 1) % 8 = 0 then
      sFirst c (grid0.coords ⟨n + 1, hn⟩) (msq ⟨n + 1, hn⟩) (hsq ⟨n + 1, hn⟩) (msk ⟨n + 1, hn⟩) (hsk ⟨n + 1, hn⟩) (mso ⟨n + 1, hn⟩) (hso ⟨n + 1, hn⟩) scr (Memref.isWhole_whole _) (iblk m c 0 ⟨n + 1, hn⟩) (iblk m c 1 ⟨n + 1, hn⟩)
        ((isFirst_iff ⟨n + 1, hn⟩).mpr h0) (fun h => (fun h => by (try dsimp only at h); omega) ((isLast_iff ⟨n + 1, hn⟩).mp h))
    else if h1 : (n + 1) % 8 = 7 then
      sLast c (grid0.coords ⟨n + 1, hn⟩) (msq ⟨n + 1, hn⟩) (hsq ⟨n + 1, hn⟩) (msk ⟨n + 1, hn⟩) (hsk ⟨n + 1, hn⟩) (mso ⟨n + 1, hn⟩) (hso ⟨n + 1, hn⟩) scr (Memref.isWhole_whole _) (iblk m c 0 ⟨n + 1, hn⟩) (iblk m c 1 ⟨n + 1, hn⟩) (sAt c n (Nat.lt_of_succ_lt hn))
        (fun h => h0 ((isFirst_iff ⟨n + 1, hn⟩).mp h)) ((isLast_iff ⟨n + 1, hn⟩).mpr h1)
    else
      sMiddle c (grid0.coords ⟨n + 1, hn⟩) (msq ⟨n + 1, hn⟩) (hsq ⟨n + 1, hn⟩) (msk ⟨n + 1, hn⟩) (hsk ⟨n + 1, hn⟩) (mso ⟨n + 1, hn⟩) (hso ⟨n + 1, hn⟩) scr (Memref.isWhole_whole _) (iblk m c 0 ⟨n + 1, hn⟩) (iblk m c 1 ⟨n + 1, hn⟩) (sAt c n (Nat.lt_of_succ_lt hn))
        (fun h => h0 ((isFirst_iff ⟨n + 1, hn⟩).mp h)) (fun h => h1 ((isLast_iff ⟨n + 1, hn⟩).mp h))

theorem sAt_first (c : Dev nD) (t : Fin cfg0.N) (h0 : t.val % 8 = 0) :
    sAt m c t.val t.isLt = sFirst c (grid0.coords t) (msq t) (hsq t) (msk t) (hsk t) (mso t) (hso t) scr (Memref.isWhole_whole _) (iblk m c 0 t) (iblk m c 1 t)
      ((isFirst_iff t).mpr h0) (fun h => (fun h => by omega) ((isLast_iff t).mp h)) := by
  obtain ⟨n, hn⟩ := t
  cases n with
  | zero => exact rfl
  | succ n => exact (dif_pos h0).trans rfl

theorem sAt_middle (c : Dev nD) (t : Fin cfg0.N) (h0 : ¬t.val % 8 = 0) (h1 : ¬t.val % 8 = 7) :
    sAt m c t.val t.isLt = sMiddle c (grid0.coords t) (msq t) (hsq t) (msk t) (hsk t) (mso t) (hso t) scr (Memref.isWhole_whole _) (iblk m c 0 t) (iblk m c 1 t)
      (sAt m c (t.val - 1) (Nat.lt_of_le_of_lt (Nat.sub_le _ _) t.isLt))
      (fun h => h0 ((isFirst_iff t).mp h)) (fun h => h1 ((isLast_iff t).mp h)) := by
  obtain ⟨n, hn⟩ := t
  cases n with
  | zero => exact (by exfalso; (try dsimp only at h0); exact absurd (Nat.zero_mod _) h0)
  | succ n => exact (dif_neg h0).trans ((dif_neg h1).trans rfl)

theorem sAt_last (c : Dev nD) (t : Fin cfg0.N) (h0 : ¬t.val % 8 = 0) (h1 : t.val % 8 = 7) :
    sAt m c t.val t.isLt = sLast c (grid0.coords t) (msq t) (hsq t) (msk t) (hsk t) (mso t) (hso t) scr (Memref.isWhole_whole _) (iblk m c 0 t) (iblk m c 1 t)
      (sAt m c (t.val - 1) (Nat.lt_of_le_of_lt (Nat.sub_le _ _) t.isLt))
      (fun h => h0 ((isFirst_iff t).mp h)) ((isLast_iff t).mpr h1) := by
  obtain ⟨n, hn⟩ := t
  cases n with
  | zero => exact (by exfalso; (try dsimp only at h0); exact absurd (Nat.zero_mod _) h0)
  | succ n => exact (dif_neg h0).trans ((dif_pos h1).trans rfl)

/-- The output block's staging buffer after the body at point `t`: what the last-case run stores at a last key
    block; elsewhere the window is idle and the value is a placeholder nothing consults. -/
def oAt (c : Dev nD) (t : Fin cfg0.N) : Vec F S1024x1 .f32 :=
  if h1 : t.val % 8 = 7 then
    oLast c (grid0.coords t) (msq t) (hsq t) (msk t) (hsk t) (mso t) (hso t) scr (Memref.isWhole_whole _) (iblk m c 0 t) (iblk m c 1 t)
      (sAt m c (t.val - 1) (Nat.lt_of_le_of_lt (Nat.sub_le _ _) t.isLt))
      (fun h => (fun h => by omega) ((isFirst_iff t).mp h)) ((isLast_iff t).mpr h1)
  else sAt m c t.val t.isLt

theorem oAt_last (c : Dev nD) (t : Fin cfg0.N) (h0 : ¬t.val % 8 = 0) (h1 : t.val % 8 = 7) :
    oAt m c t = oLast c (grid0.coords t) (msq t) (hsq t) (msk t) (hsk t) (mso t) (hso t) scr (Memref.isWhole_whole _) (iblk m c 0 t) (iblk m c 1 t)
      (sAt m c (t.val - 1) (Nat.lt_of_le_of_lt (Nat.sub_le _ _) t.isLt))
      (fun h => h0 ((isFirst_iff t).mp h)) ((isLast_iff t).mpr h1) := by
  unfold oAt; exact (dif_pos h1).trans rfl

/-- The region's invariant before position `n`: before the first point the scratch at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scr fullShare (sAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scr fullShare (sAt m c n hn)) ∗ (∃ r, prngReg c r)) := rfl
theorem PhiS_pos (c : Dev nD) (n : ℕ) (h : n ≤ cfg0.N) (hz : n ≠ 0) :
    PhiS m c n h = iprop(iprop(owns (c : Thread nD τ) scr fullShare (sAt m c (n - 1) (by omega))) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => oAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_o (c : Dev nD) (t : Fin cfg0.N) : (dats m 0 c).after 2 t = oAt m c t := by dsimp only [dats]
theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msq t) fullShare ((dats m 0 c).before 0 t d))
    ∗ (∃ d, owns (c : Thread nD τ) (msk t) fullShare ((dats m 0 c).before 1 t d))
    ∗ (∃ d, owns (c : Thread nD τ) (mso t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k]
  rw [show (dats m 0 c).owesAt () t.succ = (dats m 0 c).owesAt () t.castSucc from rfl]
  rw [show (dats m 0 c).Φ t.succ = PhiS m c (t.val + 1) t.isLt from rfl, PhiS_succ]
  have hN : t.val < 64 := lt64 t.isLt
  rw [show (dats m 0 c).leavesExact 0 t = owns (c : Thread nD τ) (msq t) fullShare ((dats m 0 c).after 0 t) from by
    unfold Dat.leavesExact; rw [live_q t], after_q]
  rw [show (dats m 0 c).leavesExact 1 t = owns (c : Thread nD τ) (msk t) fullShare ((dats m 0 c).after 1 t) from by
    unfold Dat.leavesExact; rw [live_k t], after_k]
  by_cases h0 : t.val % 8 = 0
  · have h1 : ¬t.val % 8 = 7 := by omega
    rw [Dat.leavesExact_idle (dats m 0 c) 2 t (idle_out t (fun h => h1 ((isLast_iff t).mp h))) (noFlush_out t (fun h => h1 ((isLast_iff t).mp h)))]
    rw [sAt_first m c t h0]
    unfold sFirst; (try dsimp only)
    by_cases hz : t.val = 0
    · rw [PhiS_castSucc m c t, PhiS_zero m c _ _ hz, PhiA_eq]
      iintro ⟨⟨HS, Hg⟩, Ho, ⟨%dq, Hq⟩, ⟨%dk, Hk⟩, ⟨%d_o, Hout⟩⟩
      iapply ((runFirst c (grid0.coords t) _ _ _ _ _ _ _ _ ((isFirst_iff t).mpr h0) (fun h => h1 ((isLast_iff t).mp h)) (iblk m c 0 t) (iblk m c 1 t)).2 _ Set.univ _)
      isplitl [Hq]; · iexact Hq
      isplitl [Hk]; · iexact Hk
      isplitl [Hout]; · iexact Hout
      isplitl [HS]; · iexact HS
      iintro ⟨Hq, Hk, Hout, ⟨%es, HS⟩⟩
      isplitl [HS Hg]
      · isplitl [HS]
        · unfold owns; iexists _; isplitr
          swap; · iexact HS
          ipureintro; exact View.read_writes_of_cover _ _ _ _ _ (cover_sFirst c _ _ _ _ _ _ _ _ _ _ _ _ _)
        iexact Hg
      isplitl [Ho]; · iexact Ho
      isplitl [Hq]; · iexact Hq
      isplitl [Hk]; · iexact Hk
      iexists _; iexact Hout
    · rw [PhiS_castSucc m c t, PhiS_pos m c _ _ hz]
      iintro ⟨⟨HS, Hg⟩, Ho, ⟨%dq, Hq⟩, ⟨%dk, Hk⟩, ⟨%d_o, Hout⟩⟩
      iapply ((runFirst c (grid0.coords t) _ _ _ _ _ _ _ _ ((isFirst_iff t).mpr h0) (fun h => h1 ((isLast_iff t).mp h)) (iblk m c 0 t) (iblk m c 1 t)).2 _ Set.univ _)
      isplitl [Hq]; · iexact Hq
      isplitl [Hk]; · iexact Hk
      isplitl [Hout]; · iexact Hout
      isplitl [HS]; · iexists _; iexact HS
      iintro ⟨Hq, Hk, Hout, ⟨%es, HS⟩⟩
      isplitl [HS Hg]
      · isplitl [HS]
        · unfold owns; iexists _; isplitr
          swap; · iexact HS
          ipureintro; exact View.read_writes_of_cover _ _ _ _ _ (cover_sFirst c _ _ _ _ _ _ _ _ _ _ _ _ _)
        iexact Hg
      isplitl [Ho]; · iexact Ho
      isplitl [Hq]; · iexact Hq
      isplitl [Hk]; · iexact Hk
      iexists _; iexact Hout
  · have hz : t.val ≠ 0 := by omega
    by_cases h1 : t.val % 8 = 7
    · rw [show (dats m 0 c).leavesExact 2 t = owns (c : Thread nD τ) (mso t) fullShare ((dats m 0 c).after 2 t) from by
        unfold Dat.leavesExact; rw [live_out t ((isLast_iff t).mpr h1)], after_o]
      rw [sAt_last m c t h0 h1, oAt_last m c t h0 h1]
      unfold sLast oLast; (try dsimp only)
      rw [PhiS_castSucc m c t, PhiS_pos m c _ _ hz]
      iintro ⟨⟨HS, Hg⟩, Ho, ⟨%dq, Hq⟩, ⟨%dk, Hk⟩, ⟨%d_o, Hout⟩⟩
      iapply ((runLast c (grid0.coords t) _ _ _ _ _ _ _ _ (fun h => h0 ((isFirst_iff t).mp h)) ((isLast_iff t).mpr h1) (iblk m c 0 t) (iblk m c 1 t) _).2.2 Set.univ _)
      isplitl [Hq]; · iexact Hq
      isplitl [Hk]; · iexact Hk
      isplitl [Hout]; · iexists _; iexact Hout
      isplitl [HS]; · iexact HS
      iintro ⟨Hq, Hk, ⟨%eo, Hout⟩, ⟨%es, HS⟩⟩
      isplitl [HS Hg]
      · isplitl [HS]
        · unfold owns; iexists _; isplitr
          swap; · iexact HS
          ipureintro; exact View.read_writes_of_cover _ _ _ _ _ (cover_sLast c _ _ _ _ _ _ _ _ _ _ _ _ _ _)
        iexact Hg
      isplitl [Ho]; · iexact Ho
      isplitl [Hq]; · iexact Hq
      isplitl [Hk]; · iexact Hk
      unfold owns; iexists _; isplitr
      swap; · iexact Hout
      ipureintro; exact View.read_writes_of_cover _ _ _ _ _ (cover_oLast c _ _ _ _ _ _ _ _ _ _ _ _ _ _)
    · rw [Dat.leavesExact_idle (dats m 0 c) 2 t (idle_out t (fun h => h1 ((isLast_iff t).mp h))) (noFlush_out t (fun h => h1 ((isLast_iff t).mp h)))]
      rw [sAt_middle m c t h0 h1]
      unfold sMiddle; (try dsimp only)
      rw [PhiS_castSucc m c t, PhiS_pos m c _ _ hz]
      iintro ⟨⟨HS, Hg⟩, Ho, ⟨%dq, Hq⟩, ⟨%dk, Hk⟩, ⟨%d_o, Hout⟩⟩
      iapply ((runMiddle c (grid0.coords t) _ _ _ _ _ _ _ _ (fun h => h0 ((isFirst_iff t).mp h)) (fun h => h1 ((isLast_iff t).mp h)) (iblk m c 0 t) (iblk m c 1 t) _).2 _ Set.univ _)
      isplitl [Hq]; · iexact Hq
      isplitl [Hk]; · iexact Hk
      isplitl [Hout]; · iexact Hout
      isplitl [HS]; · iexact HS
      iintro ⟨Hq, Hk, Hout, ⟨%es, HS⟩⟩
      isplitl [HS Hg]
      · isplitl [HS]
        · unfold owns; iexists _; isplitr
          swap; · iexact HS
          ipureintro; exact View.read_writes_of_cover _ _ _ _ _ (cover_sMiddle c _ _ _ _ _ _ _ _ _ _ _ _ _ _)
        iexact Hg
      isplitl [Ho]; · iexact Ho
      isplitl [Hq]; · iexact Hq
      isplitl [Hk]; · iexact Hk
      iexists _; iexact Hout

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

/-! ## The run -/

set_option backward.isDefEq.respectTransparency.types false in
/-- Every weakly fair execution of @main terminates; at the end each window's array is what the pipeline's
    write-backs make of the proof data, and every other unscoped buffer is as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- What an argument holds at the end of the run: its launch contents. -/
theorem arg_kept {r : PUnit × MemSt nD τ sig (Elt F)}
    (h : Pipeline.FramePost cfgs (dats m) 0 (Pipeline.afterTail₀ cfgs (dats m) 0 (V0 m) tailOps) r) (c : Dev nD)
    (b : Ref sig .tc) (hb : b ∈ argRefs) (hrest : b ∈ Pipeline.restRefs sig spec0) (hne : ∀ w, Pipeline.arrRef spec0 w ≠ b) :
    r.2.mem ((c.tc : Thread nD τ).loc b) = m ((c.tc : Thread nD τ).loc b) := by
  refine ((h c).2 b hrest).trans ?_
  unfold Pipeline.afterTail₀
  rw [tail_arg _ hb, Pipeline.withArrays_of_ne _ c (V0 m c) _ b hne]
  exact V_arg m c hb

end Cert.KernelIdeal.Around

end
-- ==== Proof.KI.FrameClaim.lean ====
/-
  The frame claim of the kernel program, read off the run of @main: each of the ten arguments is an unscoped
  buffer that no window moves and no host line writes, so it ends at its launch contents.
-/
import proofs.«127262_j32341103739238_1_alg».proof.Proof.KI.Frame

set_option maxRecDepth 16384

noncomputable section

namespace Cert.KernelIdeal.Around

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- Every weakly fair execution of @main terminates without a fault and leaves the ten arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => ⟨
    arg_kept m h c main_arg0 (by simp [argRefs]) (Pipeline.mem_restRefs_of main_arg0 (by decide) (by decide)) (by decide),
    arg_kept m h c main_arg1 (by simp [argRefs]) (Pipeline.mem_restRefs_of main_arg1 (by decide) (by decide)) (by decide),
    arg_kept m h c main_arg2 (by simp [argRefs]) (Pipeline.mem_restRefs_of main_arg2 (by decide) (by decide)) (by decide),
    arg_kept m h c main_arg3 (by simp [argRefs]) (Pipeline.mem_restRefs_of main_arg3 (by decide) (by decide)) (by decide),
    arg_kept m h c main_arg4 (by simp [argRefs]) (Pipeline.mem_restRefs_of main_arg4 (by decide) (by decide)) (by decide),
    arg_kept m h c main_arg5 (by simp [argRefs]) (Pipeline.mem_restRefs_of main_arg5 (by decide) (by decide)) (by decide),
    arg_kept m h c main_arg6 (by simp [argRefs]) (Pipeline.mem_restRefs_of main_arg6 (by decide) (by decide)) (by decide),
    arg_kept m h c main_arg7 (by simp [argRefs]) (Pipeline.mem_restRefs_of main_arg7 (by decide) (by decide)) (by decide),
    arg_kept m h c main_arg8 (by simp [argRefs]) (Pipeline.mem_restRefs_of main_arg8 (by decide) (by decide)) (by decide),
    arg_kept m h c main_arg9 (by simp [argRefs]) (Pipeline.mem_restRefs_of main_arg9 (by decide) (by decide)) (by decide)⟩)
    (run_main m ρ)

end Cert.KernelIdeal.Around

end
-- ==== Proof.RefRun.lean ====
/-
  The reference program read back as a function of its arguments.

  The reference's @main is 320 host operations in a row (the outlined softplus function's operations stand in
  its call's place).  Run as a sequence, every weakly fair execution ends with the result buffer at the operations'
  composed term of the arguments' launch contents, and with the arguments unchanged.  The list below is the
  program's own text, one entry per operation, in program order.
-/
import proofs.«127262_j32341103739238_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 400000000 in
/-- @main's 320 operations, in order (a called function's operations stand in its call's place, spelt `TRef.…`). -/
abbrev ops : List (HloOp τ sig (Elt F)) :=
  [ unary main_arg1 main_v0 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg5 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg5 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg5 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_arg0 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v0 main_v8 (broadcastInDim S1600000x64 ![0, 1] bcast_S1600000x1_S1600000x64_0_1 : (⟨S1600000x1, .f32⟩ : BufTy).Contents (Elt F) → (⟨S1600000x64, .f32⟩ : BufTy).Contents (Elt F)),
    binary main_v8 main_v7 main_v9 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v10 (broadcastInDim S100000x64 ![] bcast_S_S100000x64 : (⟨S_, .f32⟩ : BufTy).Contents (Elt F) → (⟨S100000x64, .f32⟩ : BufTy).Contents (Elt F)),
    unary main_arg4 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v12 main_v13 (addf : (⟨S100000x64, .f32⟩ : BufTy).Contents (Elt F) → (⟨S100000x64, .f32⟩ : BufTy).Contents (Elt F) → (⟨S100000x64, .f32⟩ : BufTy).Contents (Elt F)),
    unary main_arg1 main_v14 (broadcastInDim S1600000x1 ![0] bcast_S1600000_S1600000x1_0 : (⟨S1600000, .f32⟩ : BufTy).Contents (Elt F) → (⟨S1600000x1, .f32⟩ : BufTy).Contents (Elt F)),
    nullary main_c_1 (constantI S_ 32 0#32),
    unary main_c_1 main_v15 (broadcastInDim S1600000 ![] bcast_S_S1600000 : (⟨S_, .i32⟩ : BufTy).Contents (Elt F) → (⟨S1600000, .i32⟩ : BufTy).Contents (Elt F)),
    binary main_arg5 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v17 (broadcastInDim S1600000 ![] bcast_S_S1600000 : (⟨S_, .i32⟩ : BufTy).Contents (Elt F) → (⟨S1600000, .i32⟩ : BufTy).Contents (Elt F)),
    binary main_arg5 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_arg5 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v12 main_v20 main_v21 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v14 main_v22 (broadcastInDim S1600000x64 ![0, 1] bcast_S1600000x1_S1600000x64_0_1 : (⟨S1600000x1, .f32⟩ : BufTy).Contents (Elt F) → (⟨S1600000x64, .f32⟩ : BufTy).Contents (Elt F)),
    binary main_v22 main_v21 main_v23 (mulf : (⟨S1600000x64, .f32⟩ : BufTy).Contents (Elt F) → (⟨S1600000x64, .f32⟩ : BufTy).Contents (Elt F) → (⟨S1600000x64, .f32⟩ : BufTy).Contents (Elt F)),
    nullary main_cst_3 (constant S_ .f32 0x00000000#32),
    unary main_cst_3 main_v24 (broadcastInDim S100000x64 ![] bcast_S_S100000x64 : (⟨S_, .f32⟩ : BufTy).Contents (Elt F) → (⟨S100000x64, .f32⟩ : BufTy).Contents (Elt F)),
    unary main_arg4 main_v25 (broadcastInDim S1600000x1 ![0] bcast_S1600000_S1600000x1_0 : (⟨S1600000, .i32⟩ : BufTy).Contents (Elt F) → (⟨S1600000x1, .i32⟩ : BufTy).Contents (Elt F)),
    ternary main_v24 main_v25 main_v23 main_v26 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v13 main_v26 main_v27 (addf : (⟨S100000x64, .f32⟩ : BufTy).Contents (Elt F) → (⟨S100000x64, .f32⟩ : BufTy).Contents (Elt F) → (⟨S100000x64, .f32⟩ : BufTy).Contents (Elt F)),
    unary main_arg1 main_v28 (broadcastInDim S1600000x1 ![0] bcast_S1600000_S1600000x1_0 : (⟨S1600000, .f32⟩ : BufTy).Contents (Elt F) → (⟨S1600000x1, .f32⟩ : BufTy).Contents (Elt F)),
    nullary main_c_4 (constantI S_ 32 0#32),
    unary main_c_4 main_v29 (broadcastInDim S1600000 ![] bcast_S_S1600000 : (⟨S_, .i32⟩ : BufTy).Contents (Elt F) → (⟨S1600000, .i32⟩ : BufTy).Contents (Elt F)),
    binary main_arg5 main_v29 main_v30 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v31 (broadcastInDim S1600000 ![] bcast_S_S1600000 : (⟨S_, .i32⟩ : BufTy).Contents (Elt F) → (⟨S1600000, .i32⟩ : BufTy).Contents (Elt F)),
    binary main_arg5 main_v31 main_v32 (addi : (⟨S1600000, .i32⟩ : BufTy).Contents (Elt F) → (⟨S1600000, .i32⟩ : BufTy).Contents (Elt F) → (⟨S1600000, .i32⟩ : BufTy).Contents (Elt F)),
    ternary main_v30 main_v32 main_arg5 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v33 main_v34 (broadcastInDim S1600000x1 ![0] bcast_S1600000_S1600000x1_0 : (⟨S1600000, .i32⟩ : BufTy).Contents (Elt F) → (⟨S1600000x1, .i32⟩ : BufTy).Contents (Elt F)),
    binary main_v26 main_v34 main_v35 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v28 main_v36 (broadcastInDim S1600000x64 ![0, 1] bcast_S1600000x1_S1600000x64_0_1 : (⟨S1600000x1, .f32⟩ : BufTy).Contents (Elt F) → (⟨S1600000x64, .f32⟩ : BufTy).Contents (Elt F)),
    binary main_v36 main_v35 main_v37 (mulf : (⟨S1600000x64, .f32⟩ : BufTy).Contents (Elt F) → (⟨S1600000x64, .f32⟩ : BufTy).Contents (Elt F) → (⟨S1600000x64, .f32⟩ : BufTy).Contents (Elt F)),
    nullary main_cst_6 (constant S_ .f32 0x00000000#32),
    unary main_cst_6 main_v38 (broadcastInDim S100000x64 ![] bcast_S_S100000x64 : (⟨S_, .f32⟩ : BufTy).Contents (Elt F) → (⟨S100000x64, .f32⟩ : BufTy).Contents (Elt F)),
    unary main_arg4 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v27 main_v40 main_v41 (addf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x40800000#32),
    unary main_cst_7 main_v42 (broadcastInDim S100000x64 ![] bcast_S_S100000x64 : (⟨S_, .f32⟩ : BufTy).Contents (Elt F) → (⟨S100000x64, .f32⟩ : BufTy).Contents (Elt F)),
    binary main_v41 main_v42 main_v43 (Host.divf : (⟨S100000x64, .f32⟩ : BufTy).Contents (Elt F) → (⟨S100000x64, .f32⟩ : BufTy).Contents (Elt F) → (⟨S100000x64, .f32⟩ : BufTy).Contents (Elt F)),
    nullary main_c_8 (constantI S_ 32 0#32),
    unary main_c_8 main_v44 (broadcastInDim S8192 ![] bcast_S_S8192 : (⟨S_, .i32⟩ : BufTy).Contents (Elt F) → (⟨S8192, .i32⟩ : BufTy).Contents (Elt F)),
    binary main_arg6 main_v44 main_v45 (cmpi .slt : (⟨S8192, .i32⟩ : BufTy).Contents (Elt F) → (⟨S8192, .i32⟩ : BufTy).Contents (Elt F) → (⟨S8192, .i1⟩ : BufTy).Contents (Elt F)),
    nullary main_c_9 (constantI S_ 32 100000#32),
    unary main_c_9 main_v46 (broadcastInDim S8192 ![] bcast_S_S8192 : (⟨S_, .i32⟩ : BufTy).Contents (Elt F) → (⟨S8192, .i32⟩ : BufTy).Contents (Elt F)),
    binary main_arg6 main_v46 main_v47 (addi : (⟨S8192, .i32⟩ : BufTy).Contents (Elt F) → (⟨S8192, .i32⟩ : BufTy).Contents (Elt F) → (⟨S8192, .i32⟩ : BufTy).Contents (Elt F)),
    ternary main_v45 main_v47 main_arg6 main_v48 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v48 main_v49 (broadcastInDim S8192x1 ![0] bcast_S8192_S8192x1_0 : (⟨S8192, .i32⟩ : BufTy).Contents (Elt F) → (⟨S8192x1, .i32⟩ : BufTy).Contents (Elt F)),
    binary main_v43 main_v49 main_v50 ((fun x i => Host.gather gather_S100000x64_S8192x1_S8192x64_1_0_n_n_0_1_164 x i) : (⟨S100000x64, .f32⟩ : BufTy).Contents (Elt F) → (⟨S8192x1, .i32⟩ : BufTy).Contents (Elt F) → (⟨S8192x64, .f32⟩ : BufTy).Contents (Elt F)),
    unary main_arg2 main_v51 (broadcastInDim S1600000x1 ![0] bcast_S1600000_S1600000x1_0 : (⟨S1600000, .f32⟩ : BufTy).Contents (Elt F) → (⟨S1600000x1, .f32⟩ : BufTy).Contents (Elt F)),
    nullary main_c_10 (constantI S_ 32 0#32),
    unary main_c_10 main_v52 (broadcastInDim S1600000 ![] bcast_S_S1600000 : (⟨S_, .i32⟩ : BufTy).Contents (Elt F) → (⟨S1600000, .i32⟩ : BufTy).Contents (Elt F)),
    binary main_arg5 main_v52 main_v53 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v54 (broadcastInDim S1600000 ![] bcast_S_S1600000 : (⟨S_, .i32⟩ : BufTy).Contents (Elt F) → (⟨S1600000, .i32⟩ : BufTy).Contents (Elt F)),
    binary main_arg5 main_v54 main_v55 (addi : (⟨S1600000, .i32⟩ : BufTy).Contents (Elt F) → (⟨S1600000, .i32⟩ : BufTy).Contents (Elt F) → (⟨S1600000, .i32⟩ : BufTy).Contents (Elt F)),
    ternary main_v53 main_v55 main_arg5 main_v56 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v56 main_v57 (broadcastInDim S1600000x1 ![0] bcast_S1600000_S1600000x1_0 : (⟨S1600000, .i32⟩ : BufTy).Contents (Elt F) → (⟨S1600000x1, .i32⟩ : BufTy).Contents (Elt F)),
    binary main_arg0 main_v57 main_v58 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v51 main_v59 (broadcastInDim S1600000x64 ![0, 1] bcast_S1600000x1_S1600000x64_0_1 : (⟨S1600000x1, .f32⟩ : BufTy).Contents (Elt F) → (⟨S1600000x64, .f32⟩ : BufTy).Contents (Elt F)),
    binary main_v59 main_v58 main_v60 (mulf : (⟨S1600000x64, .f32⟩ : BufTy).Contents (Elt F) → (⟨S1600000x64, .f32⟩ : BufTy).Contents (Elt F) → (⟨S1600000x64, .f32⟩ : BufTy).Contents (Elt F)),
    nullary main_cst_12 (constant S_ .f32 0x00000000#32),
    unary main_cst_12 main_v61 (broadcastInDim S100000x64 ![] bcast_S_S100000x64 : (⟨S_, .f32⟩ : BufTy).Contents (Elt F) → (⟨S100000x64, .f32⟩ : BufTy).Contents (Elt F)),
    unary main_arg4 main_v62 (broadcastInDim S1600000x1 ![0] bcast_S1600000_S1600000x1_0 : (⟨S1600000, .i32⟩ : BufTy).Contents (Elt F) → (⟨S1600000x1, .i32⟩ : BufTy).Contents (Elt F)),
    ternary main_v61 main_v62 main_v60 main_v63 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v63 main_v64 (addf : (⟨S100000x64, .f32⟩ : BufTy).Contents (Elt F) → (⟨S100000x64, .f32⟩ : BufTy).Contents (Elt F) → (⟨S100000x64, .f32⟩ : BufTy).Contents (Elt F)),
    unary main_arg2 main_v65 (broadcastInDim S1600000x1 ![0] bcast_S1600000_S1600000x1_0 : (⟨S1600000, .f32⟩ : BufTy).Contents (Elt F) → (⟨S1600000x1, .f32⟩ : BufTy).Contents (Elt F)),
    nullary main_c_13 (constantI S_ 32 0#32),
    unary main_c_13 main_v66 (broadcastInDim S1600000 ![] bcast_S_S1600000 : (⟨S_, .i32⟩ : BufTy).Contents (Elt F) → (⟨S1600000, .i32⟩ : BufTy).Contents (Elt F)),
    binary main_arg5 main_v66 main_v67 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v68 (broadcastInDim S1600000 ![] bcast_S_S1600000 : (⟨S_, .i32⟩ : BufTy).Contents (Elt F) → (⟨S1600000, .i32⟩ : BufTy).Contents (Elt F)),
    binary main_arg5 main_v68 main_v69 (addi : (⟨S1600000, .i32⟩ : BufTy).Contents (Elt F) → (⟨S1600000, .i32⟩ : BufTy).Contents (Elt F) → (⟨S1600000, .i32⟩ : BufTy).Contents (Elt F)),
    ternary main_v67 main_v69 main_arg5 main_v70 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v70 main_v71 (broadcastInDim S1600000x1 ![0] bcast_S1600000_S1600000x1_0 : (⟨S1600000, .i32⟩ : BufTy).Contents (Elt F) → (⟨S1600000x1, .i32⟩ : BufTy).Contents (Elt F)),
    binary main_v63 main_v71 main_v72 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v65 main_v73 (broadcastInDim S1600000x64 ![0, 1] bcast_S1600000x1_S1600000x64_0_1 : (⟨S1600000x1, .f32⟩ : BufTy).Contents (Elt F) → (⟨S1600000x64, .f32⟩ : BufTy).Contents (Elt F)),
    binary main_v73 main_v72 main_v74 (mulf : (⟨S1600000x64, .f32⟩ : BufTy).Contents (Elt F) → (⟨S1600000x64, .f32⟩ : BufTy).Contents (Elt F) → (⟨S1600000x64, .f32⟩ : BufTy).Contents (Elt F)),
    nullary main_cst_15 (constant S_ .f32 0x00000000#32),
    unary main_cst_15 main_v75 (broadcastInDim S100000x64 ![] bcast_S_S100000x64 : (⟨S_, .f32⟩ : BufTy).Contents (Elt F) → (⟨S100000x64, .f32⟩ : BufTy).Contents (Elt F)),
    unary main_arg4 main_v76 (broadcastInDim S1600000x1 ![0] bcast_S1600000_S1600000x1_0 : (⟨S1600000, .i32⟩ : BufTy).Contents (Elt F) → (⟨S1600000x1, .i32⟩ : BufTy).Contents (Elt F)),
    ternary main_v75 main_v76 main_v74 main_v77 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v64 main_v77 main_v78 (addf : (⟨S100000x64, .f32⟩ : BufTy).Contents (Elt F) → (⟨S100000x64, .f32⟩ : BufTy).Contents (Elt F) → (⟨S100000x64, .f32⟩ : BufTy).Contents (Elt F)),
    unary main_arg2 main_v79 (broadcastInDim S1600000x1 ![0] bcast_S1600000_S1600000x1_0 : (⟨S1600000, .f32⟩ : BufTy).Contents (Elt F) → (⟨S1600000x1, .f32⟩ : BufTy).Contents (Elt F)),
    nullary main_c_16 (constantI S_ 32 0#32),
    unary main_c_16 main_v80 (broadcastInDim S1600000 ![] bcast_S_S1600000 : (⟨S_, .i32⟩ : BufTy).Contents (Elt F) → (⟨S1600000, .i32⟩ : BufTy).Contents (Elt F)),
    binary main_arg5 main_v80 main_v81 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v82 (broadcastInDim S1600000 ![] bcast_S_S1600000 : (⟨S_, .i32⟩ : BufTy).Contents (Elt F) → (⟨S1600000, .i32⟩ : BufTy).Contents (Elt F)),
    binary main_arg5 main_v82 main_v83 (addi : (⟨S1600000, .i32⟩ : BufTy).Contents (Elt F) → (⟨S1600000, .i32⟩ : BufTy).Contents (Elt F) → (⟨S1600000, .i32⟩ : BufTy).Contents (Elt F)),
    ternary main_v81 main_v83 main_arg5 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v84 main_v85 (broadcastInDim S1600000x1 ![0] bcast_S1600000_S1600000x1_0 : (⟨S1600000, .i32⟩ : BufTy).Contents (Elt F) → (⟨S1600000x1, .i32⟩ : BufTy).Contents (Elt F)),
    binary main_v77 main_v85 main_v86 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v79 main_v87 (broadcastInDim S1600000x64 ![0, 1] bcast_S1600000x1_S1600000x64_0_1 : (⟨S1600000x1, .f32⟩ : BufTy).Contents (Elt F) → (⟨S1600000x64, .f32⟩ : BufTy).Contents (Elt F)),
    binary main_v87 main_v86 main_v88 (mulf : (⟨S1600000x64, .f32⟩ : BufTy).Contents (Elt F) → (⟨S1600000x64, .f32⟩ : BufTy).Contents (Elt F) → (⟨S1600000x64, .f32⟩ : BufTy).Contents (Elt F)),
    nullary main_cst_18 (constant S_ .f32 0x00000000#32),
    unary main_cst_18 main_v89 (broadcastInDim S100000x64 ![] bcast_S_S100000x64 : (⟨S_, .f32⟩ : BufTy).Contents (Elt F) → (⟨S100000x64, .f32⟩ : BufTy).Contents (Elt F)),
    unary main_arg4 main_v90 (broadcastInDim S1600000x1 ![0] bcast_S1600000_S1600000x1_0 : (⟨S1600000, .i32⟩ : BufTy).Contents (Elt F) → (⟨S1600000x1, .i32⟩ : BufTy).Contents (Elt F)),
    ternary main_v89 main_v90 main_v88 main_v91 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v78 main_v91 main_v92 (addf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x40800000#32),
    unary main_cst_19 main_v93 (broadcastInDim S100000x64 ![] bcast_S_S100000x64 : (⟨S_, .f32⟩ : BufTy).Contents (Elt F) → (⟨S100000x64, .f32⟩ : BufTy).Contents (Elt F)),
    binary main_v92 main_v93 main_v94 (Host.divf : (⟨S100000x64, .f32⟩ : BufTy).Contents (Elt F) → (⟨S100000x64, .f32⟩ : BufTy).Contents (Elt F) → (⟨S100000x64, .f32⟩ : BufTy).Contents (Elt F)),
    nullary main_c_20 (constantI S_ 32 0#32),
    unary main_c_20 main_v95 (broadcastInDim S8192 ![] bcast_S_S8192 : (⟨S_, .i32⟩ : BufTy).Contents (Elt F) → (⟨S8192, .i32⟩ : BufTy).Contents (Elt F)),
    binary main_arg6 main_v95 main_v96 (cmpi .slt : (⟨S8192, .i32⟩ : BufTy).Contents (Elt F) → (⟨S8192, .i32⟩ : BufTy).Contents (Elt F) → (⟨S8192, .i1⟩ : BufTy).Contents (Elt F)),
    nullary main_c_21 (constantI S_ 32 100000#32),
    unary main_c_21 main_v97 (broadcastInDim S8192 ![] bcast_S_S8192 : (⟨S_, .i32⟩ : BufTy).Contents (Elt F) → (⟨S8192, .i32⟩ : BufTy).Contents (Elt F)),
    binary main_arg6 main_v97 main_v98 (addi : (⟨S8192, .i32⟩ : BufTy).Contents (Elt F) → (⟨S8192, .i32⟩ : BufTy).Contents (Elt F) → (⟨S8192, .i32⟩ : BufTy).Contents (Elt F)),
    ternary main_v96 main_v98 main_arg6 main_v99 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v99 main_v100 (broadcastInDim S8192x1 ![0] bcast_S8192_S8192x1_0 : (⟨S8192, .i32⟩ : BufTy).Contents (Elt F) → (⟨S8192x1, .i32⟩ : BufTy).Contents (Elt F)),
    binary main_v94 main_v100 main_v101 ((fun x i => Host.gather gather_S100000x64_S8192x1_S8192x64_1_0_n_n_0_1_164 x i) : (⟨S100000x64, .f32⟩ : BufTy).Contents (Elt F) → (⟨S8192x1, .i32⟩ : BufTy).Contents (Elt F) → (⟨S8192x64, .f32⟩ : BufTy).Contents (Elt F)),
    unary main_v50 main_v102 (Host.absf : (⟨S8192x64, .f32⟩ : BufTy).Contents (Elt F) → (⟨S8192x64, .f32⟩ : BufTy).Contents (Elt F)),
    nullary main_cst_22 (constant S_ .f32 0x00000000#32),
    binary main_v102 main_cst_22 main_v103 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v103 main_v104 (broadcastInDim S8192x1 ![0] bcast_S8192_S8192x1_0 : (⟨S8192, .f32⟩ : BufTy).Contents (Elt F) → (⟨S8192x1, .f32⟩ : BufTy).Contents (Elt F)),
    nullary main_cst_23 (constant S_ .f32 0x2B8CBCCC#32),
    unary main_cst_23 main_v105 (broadcastInDim S8192x1 ![] bcast_S_S8192x1 : (⟨S_, .f32⟩ : BufTy).Contents (Elt F) → (⟨S8192x1, .f32⟩ : BufTy).Contents (Elt F)),
    binary main_v104 main_v105 main_v106 (maximumf : (⟨S8192x1, .f32⟩ : BufTy).Contents (Elt F) → (⟨S8192x1, .f32⟩ : BufTy).Contents (Elt F) → (⟨S8192x1, .f32⟩ : BufTy).Contents (Elt F)),
    unary main_v106 main_v107 (broadcastInDim S8192x64 ![0, 1] bcast_S8192x1_S8192x64_0_1 : (⟨S8192x1, .f32⟩ : BufTy).Contents (Elt F) → (⟨S8192x64, .f32⟩ : BufTy).Contents (Elt F)),
    binary main_v50 main_v107 main_v108 (Host.divf : (⟨S8192x64, .f32⟩ : BufTy).Contents (Elt F) → (⟨S8192x64, .f32⟩ : BufTy).Contents (Elt F) → (⟨S8192x64, .f32⟩ : BufTy).Contents (Elt F)),
    unary main_v101 main_v109 (Host.absf : (⟨S8192x64, .f32⟩ : BufTy).Contents (Elt F) → (⟨S8192x64, .f32⟩ : BufTy).Contents (Elt F)),
    nullary main_cst_24 (constant S_ .f32 0x00000000#32),
    binary main_v109 main_cst_24 main_v110 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v110 main_v111 (broadcastInDim S8192x1 ![0] bcast_S8192_S8192x1_0 : (⟨S8192, .f32⟩ : BufTy).Contents (Elt F) → (⟨S8192x1, .f32⟩ : BufTy).Contents (Elt F)),
    nullary main_cst_25 (constant S_ .f32 0x2B8CBCCC#32),
    unary main_cst_25 main_v112 (broadcastInDim S8192x1 ![] bcast_S_S8192x1 : (⟨S_, .f32⟩ : BufTy).Contents (Elt F) → (⟨S8192x1, .f32⟩ : BufTy).Contents (Elt F)),
    binary main_v111 main_v112 main_v113 (maximumf : (⟨S8192x1, .f32⟩ : BufTy).Contents (Elt F) → (⟨S8192x1, .f32⟩ : BufTy).Contents (Elt F) → (⟨S8192x1, .f32⟩ : BufTy).Contents (Elt F)),
    unary main_v113 main_v114 (broadcastInDim S8192x64 ![0, 1] bcast_S8192x1_S8192x64_0_1 : (⟨S8192x1, .f32⟩ : BufTy).Contents (Elt F) → (⟨S8192x64, .f32⟩ : BufTy).Contents (Elt F)),
    binary main_v101 main_v114 main_v115 (Host.divf : (⟨S8192x64, .f32⟩ : BufTy).Contents (Elt F) → (⟨S8192x64, .f32⟩ : BufTy).Contents (Elt F) → (⟨S8192x64, .f32⟩ : BufTy).Contents (Elt F)),
    binary main_v108 main_v115 main_v116 (mulf : (⟨S8192x64, .f32⟩ : BufTy).Contents (Elt F) → (⟨S8192x64, .f32⟩ : BufTy).Contents (Elt F) → (⟨S8192x64, .f32⟩ : BufTy).Contents (Elt F)),
    nullary main_cst_26 (constant S_ .f32 0x00000000#32),
    binary main_v116 main_cst_26 main_v117 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v115 main_v118 ((transpose S64x8192 [1, 0] · transposes_S8192x64_S64x8192_1_0) : (⟨S8192x64, .f32⟩ : BufTy).Contents (Elt F) → (⟨S64x8192, .f32⟩ : BufTy).Contents (Elt F)),
    binary main_v108 main_v118 main_v119 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    nullary main_cst_27 (constant S_ .f32 0x3F000000#32),
    unary main_cst_27 main_v120 (broadcastInDim S8192 ![] bcast_S_S8192 : (⟨S_, .f32⟩ : BufTy).Contents (Elt F) → (⟨S8192, .f32⟩ : BufTy).Contents (Elt F)),
    binary main_v117 main_v120 main_v121 (Host.divf : (⟨S8192, .f32⟩ : BufTy).Contents (Elt F) → (⟨S8192, .f32⟩ : BufTy).Contents (Elt F) → (⟨S8192, .f32⟩ : BufTy).Contents (Elt F)),
    unary main_v121 main_v122 (Host.exp : (⟨S8192, .f32⟩ : BufTy).Contents (Elt F) → (⟨S8192, .f32⟩ : BufTy).Contents (Elt F)),
    nullary main_cst_28 (constant S_ .f32 0x3F000000#32),
    unary main_cst_28 main_v123 (broadcastInDim S8192x8192 ![] bcast_S_S8192x8192 : (⟨S_, .f32⟩ : BufTy).Contents (Elt F) → (⟨S8192x8192, .f32⟩ : BufTy).Contents (Elt F)),
    binary main_v119 main_v123 main_v124 (Host.divf : (⟨S8192x8192, .f32⟩ : BufTy).Contents (Elt F) → (⟨S8192x8192, .f32⟩ : BufTy).Contents (Elt F) → (⟨S8192x8192, .f32⟩ : BufTy).Contents (Elt F)),
    unary main_v124 main_v125 (Host.exp : (⟨S8192x8192, .f32⟩ : BufTy).Contents (Elt F) → (⟨S8192x8192, .f32⟩ : BufTy).Contents (Elt F)),
    nullary main_cst_29 (constant S_ .f32 0x00000000#32),
    binary main_v125 main_cst_29 main_v126 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v122 main_v126 main_v127 (Host.divf : (⟨S8192, .f32⟩ : BufTy).Contents (Elt F) → (⟨S8192, .f32⟩ : BufTy).Contents (Elt F) → (⟨S8192, .f32⟩ : BufTy).Contents (Elt F)),
    unary main_v127 main_v128 (Host.log : (⟨S8192, .f32⟩ : BufTy).Contents (Elt F) → (⟨S8192, .f32⟩ : BufTy).Contents (Elt F)),
    nullary main_cst_30 (constant S_ .f32 0x00000000#32),
    binary main_v128 main_cst_30 main_v129 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v129 main_v130 (Host.negf : (⟨S_, .f32⟩ : BufTy).Contents (Elt F) → (⟨S_, .f32⟩ : BufTy).Contents (Elt F)),
    unary main_arg3 main_v131 (broadcastInDim S1600000x1 ![0] bcast_S1600000_S1600000x1_0 : (⟨S1600000, .f32⟩ : BufTy).Contents (Elt F) → (⟨S1600000x1, .f32⟩ : BufTy).Contents (Elt F)),
    nullary main_c_31 (constantI S_ 32 0#32),
    unary main_c_31 main_v132 (broadcastInDim S1600000 ![] bcast_S_S1600000 : (⟨S_, .i32⟩ : BufTy).Contents (Elt F) → (⟨S1600000, .i32⟩ : BufTy).Contents (Elt F)),
    binary main_arg5 main_v132 main_v133 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 100000#32),
    unary main_c_32 main_v134 (broadcastInDim S1600000 ![] bcast_S_S1600000 : (⟨S_, .i32⟩ : BufTy).Contents (Elt F) → (⟨S1600000, .i32⟩ : BufTy).Contents (Elt F)),
    binary main_arg5 main_v134 main_v135 (addi : (⟨S1600000, .i32⟩ : BufTy).Contents (Elt F) → (⟨S1600000, .i32⟩ : BufTy).Contents (Elt F) → (⟨S1600000, .i32⟩ : BufTy).Contents (Elt F)),
    ternary main_v133 main_v135 main_arg5 main_v136 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v136 main_v137 (broadcastInDim S1600000x1 ![0] bcast_S1600000_S1600000x1_0 : (⟨S1600000, .i32⟩ : BufTy).Contents (Elt F) → (⟨S1600000x1, .i32⟩ : BufTy).Contents (Elt F)),
    binary main_arg0 main_v137 main_v138 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v131 main_v139 (broadcastInDim S1600000x64 ![0, 1] bcast_S1600000x1_S1600000x64_0_1 : (⟨S1600000x1, .f32⟩ : BufTy).Contents (Elt F) → (⟨S1600000x64, .f32⟩ : BufTy).Contents (Elt F)),
    binary main_v139 main_v138 main_v140 (mulf : (⟨S1600000x64, .f32⟩ : BufTy).Contents (Elt F) → (⟨S1600000x64, .f32⟩ : BufTy).Contents (Elt F) → (⟨S1600000x64, .f32⟩ : BufTy).Contents (Elt F)),
    nullary main_cst_33 (constant S_ .f32 0x00000000#32),
    unary main_cst_33 main_v141 (broadcastInDim S100000x64 ![] bcast_S_S100000x64 : (⟨S_, .f32⟩ : BufTy).Contents (Elt F) → (⟨S100000x64, .f32⟩ : BufTy).Contents (Elt F)),
    unary main_arg4 main_v142 (broadcastInDim S1600000x1 ![0] bcast_S1600000_S1600000x1_0 : (⟨S1600000, .i32⟩ : BufTy).Contents (Elt F) → (⟨S1600000x1, .i32⟩ : BufTy).Contents (Elt F)),
    ternary main_v141 main_v142 main_v140 main_v143 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v143 main_v144 (addf : (⟨S100000x64, .f32⟩ : BufTy).Contents (Elt F) → (⟨S100000x64, .f32⟩ : BufTy).Contents (Elt F) → (⟨S100000x64, .f32⟩ : BufTy).Contents (Elt F)),
    unary main_arg3 main_v145 (broadcastInDim S1600000x1 ![0] bcast_S1600000_S1600000x1_0 : (⟨S1600000, .f32⟩ : BufTy).Contents (Elt F) → (⟨S1600000x1, .f32⟩ : BufTy).Contents (Elt F)),
    nullary main_c_34 (constantI S_ 32 0#32),
    unary main_c_34 main_v146 (broadcastInDim S1600000 ![] bcast_S_S1600000 : (⟨S_, .i32⟩ : BufTy).Contents (Elt F) → (⟨S1600000, .i32⟩ : BufTy).Contents (Elt F)),
    binary main_arg5 main_v146 main_v147 (cmpi .slt : (⟨S1600000, .i32⟩ : BufTy).Contents (Elt F) → (⟨S1600000, .i32⟩ : BufTy).Contents (Elt F) → (⟨S1600000, .i1⟩ : BufTy).Contents (Elt F)),
    nullary main_c_35 (constantI S_ 32 100000#32),
    unary main_c_35 main_v148 (broadcastInDim S1600000 ![] bcast_S_S1600000 : (⟨S_, .i32⟩ : BufTy).Contents (Elt F) → (⟨S1600000, .i32⟩ : BufTy).Contents (Elt F)),
    binary main_arg5 main_v148 main_v149 (addi : (⟨S1600000, .i32⟩ : BufTy).Contents (Elt F) → (⟨S1600000, .i32⟩ : BufTy).Contents (Elt F) → (⟨S1600000, .i32⟩ : BufTy).Contents (Elt F)),
    ternary main_v147 main_v149 main_arg5 main_v150 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v150 main_v151 (broadcastInDim S1600000x1 ![0] bcast_S1600000_S1600000x1_0 : (⟨S1600000, .i32⟩ : BufTy).Contents (Elt F) → (⟨S1600000x1, .i32⟩ : BufTy).Contents (Elt F)),
    binary main_v143 main_v151 main_v152 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v145 main_v153 (broadcastInDim S1600000x64 ![0, 1] bcast_S1600000x1_S1600000x64_0_1 : (⟨S1600000x1, .f32⟩ : BufTy).Contents (Elt F) → (⟨S1600000x64, .f32⟩ : BufTy).Contents (Elt F)),
    binary main_v153 main_v152 main_v154 (mulf : (⟨S1600000x64, .f32⟩ : BufTy).Contents (Elt F) → (⟨S1600000x64, .f32⟩ : BufTy).Contents (Elt F) → (⟨S1600000x64, .f32⟩ : BufTy).Contents (Elt F)),
    nullary main_cst_36 (constant S_ .f32 0x00000000#32),
    unary main_cst_36 main_v155 (broadcastInDim S100000x64 ![] bcast_S_S100000x64 : (⟨S_, .f32⟩ : BufTy).Contents (Elt F) → (⟨S100000x64, .f32⟩ : BufTy).Contents (Elt F)),
    unary main_arg4 main_v156 (broadcastInDim S1600000x1 ![0] bcast_S1600000_S1600000x1_0 : (⟨S1600000, .i32⟩ : BufTy).Contents (Elt F) → (⟨S1600000x1, .i32⟩ : BufTy).Contents (Elt F)),
    ternary main_v155 main_v156 main_v154 main_v157 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v144 main_v157 main_v158 (addf : (⟨S100000x64, .f32⟩ : BufTy).Contents (Elt F) → (⟨S100000x64, .f32⟩ : BufTy).Contents (Elt F) → (⟨S100000x64, .f32⟩ : BufTy).Contents (Elt F)),
    unary main_arg3 main_v159 (broadcastInDim S1600000x1 ![0] bcast_S1600000_S1600000x1_0 : (⟨S1600000, .f32⟩ : BufTy).Contents (Elt F) → (⟨S1600000x1, .f32⟩ : BufTy).Contents (Elt F)),
    nullary main_c_37 (constantI S_ 32 0#32),
    unary main_c_37 main_v160 (broadcastInDim S1600000 ![] bcast_S_S1600000 : (⟨S_, .i32⟩ : BufTy).Contents (Elt F) → (⟨S1600000, .i32⟩ : BufTy).Contents (Elt F)),
    binary main_arg5 main_v160 main_v161 (cmpi .slt : (⟨S1600000, .i32⟩ : BufTy).Contents (Elt F) → (⟨S1600000, .i32⟩ : BufTy).Contents (Elt F) → (⟨S1600000, .i1⟩ : BufTy).Contents (Elt F)),
    nullary main_c_38 (constantI S_ 32 100000#32),
    unary main_c_38 main_v162 (broadcastInDim S1600000 ![] bcast_S_S1600000 : (⟨S_, .i32⟩ : BufTy).Contents (Elt F) → (⟨S1600000, .i32⟩ : BufTy).Contents (Elt F)),
    binary main_arg5 main_v162 main_v163 (addi : (⟨S1600000, .i32⟩ : BufTy).Contents (Elt F) → (⟨S1600000, .i32⟩ : BufTy).Contents (Elt F) → (⟨S1600000, .i32⟩ : BufTy).Contents (Elt F)),
    ternary main_v161 main_v163 main_arg5 main_v164 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v164 main_v165 (broadcastInDim S1600000x1 ![0] bcast_S1600000_S1600000x1_0 : (⟨S1600000, .i32⟩ : BufTy).Contents (Elt F) → (⟨S1600000x1, .i32⟩ : BufTy).Contents (Elt F)),
    binary main_v157 main_v165 main_v166 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v159 main_v167 (broadcastInDim S1600000x64 ![0, 1] bcast_S1600000x1_S1600000x64_0_1 : (⟨S1600000x1, .f32⟩ : BufTy).Contents (Elt F) → (⟨S1600000x64, .f32⟩ : BufTy).Contents (Elt F)),
    binary main_v167 main_v166 main_v168 (mulf : (⟨S1600000x64, .f32⟩ : BufTy).Contents (Elt F) → (⟨S1600000x64, .f32⟩ : BufTy).Contents (Elt F) → (⟨S1600000x64, .f32⟩ : BufTy).Contents (Elt F)),
    nullary main_cst_39 (constant S_ .f32 0x00000000#32),
    unary main_cst_39 main_v169 (broadcastInDim S100000x64 ![] bcast_S_S100000x64 : (⟨S_, .f32⟩ : BufTy).Contents (Elt F) → (⟨S100000x64, .f32⟩ : BufTy).Contents (Elt F)),
    unary main_arg4 main_v170 (broadcastInDim S1600000x1 ![0] bcast_S1600000_S1600000x1_0 : (⟨S1600000, .i32⟩ : BufTy).Contents (Elt F) → (⟨S1600000x1, .i32⟩ : BufTy).Contents (Elt F)),
    ternary main_v169 main_v170 main_v168 main_v171 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v158 main_v171 main_v172 (addf : (⟨S100000x64, .f32⟩ : BufTy).Contents (Elt F) → (⟨S100000x64, .f32⟩ : BufTy).Contents (Elt F) → (⟨S100000x64, .f32⟩ : BufTy).Contents (Elt F)),
    nullary main_cst_40 (constant S_ .f32 0x40800000#32),
    unary main_cst_40 main_v173 (broadcastInDim S100000x64 ![] bcast_S_S100000x64 : (⟨S_, .f32⟩ : BufTy).Contents (Elt F) → (⟨S100000x64, .f32⟩ : BufTy).Contents (Elt F)),
    binary main_v172 main_v173 main_v174 (Host.divf : (⟨S100000x64, .f32⟩ : BufTy).Contents (Elt F) → (⟨S100000x64, .f32⟩ : BufTy).Contents (Elt F) → (⟨S100000x64, .f32⟩ : BufTy).Contents (Elt F)),
    nullary main_c_41 (constantI S_ 32 0#32),
    unary main_c_41 main_v175 (broadcastInDim S262144 ![] bcast_S_S262144 : (⟨S_, .i32⟩ : BufTy).Contents (Elt F) → (⟨S262144, .i32⟩ : BufTy).Contents (Elt F)),
    binary main_arg7 main_v175 main_v176 (cmpi .slt : (⟨S262144, .i32⟩ : BufTy).Contents (Elt F) → (⟨S262144, .i32⟩ : BufTy).Contents (Elt F) → (⟨S262144, .i1⟩ : BufTy).Contents (Elt F)),
    nullary main_c_42 (constantI S_ 32 100000#32),
    unary main_c_42 main_v177 (broadcastInDim S262144 ![] bcast_S_S262144 : (⟨S_, .i32⟩ : BufTy).Contents (Elt F) → (⟨S262144, .i32⟩ : BufTy).Contents (Elt F)),
    binary main_arg7 main_v177 main_v178 (addi : (⟨S262144, .i32⟩ : BufTy).Contents (Elt F) → (⟨S262144, .i32⟩ : BufTy).Contents (Elt F) → (⟨S262144, .i32⟩ : BufTy).Contents (Elt F)),
    ternary main_v176 main_v178 main_arg7 main_v179 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v179 main_v180 (broadcastInDim S262144x1 ![0] bcast_S262144_S262144x1_0 : (⟨S262144, .i32⟩ : BufTy).Contents (Elt F) → (⟨S262144x1, .i32⟩ : BufTy).Contents (Elt F)),
    binary main_v174 main_v180 main_v181 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F)),
    nullary main_c_43 (constantI S_ 32 0#32),
    unary main_c_43 main_v182 (broadcastInDim S262144 ![] bcast_S_S262144 : (⟨S_, .i32⟩ : BufTy).Contents (Elt F) → (⟨S262144, .i32⟩ : BufTy).Contents (Elt F)),
    binary main_arg8 main_v182 main_v183 (cmpi .slt : (⟨S262144, .i32⟩ : BufTy).Contents (Elt F) → (⟨S262144, .i32⟩ : BufTy).Contents (Elt F) → (⟨S262144, .i1⟩ : BufTy).Contents (Elt F)),
    nullary main_c_44 (constantI S_ 32 100000#32),
    unary main_c_44 main_v184 (broadcastInDim S262144 ![] bcast_S_S262144 : (⟨S_, .i32⟩ : BufTy).Contents (Elt F) → (⟨S262144, .i32⟩ : BufTy).Contents (Elt F)),
    binary main_arg8 main_v184 main_v185 (addi : (⟨S262144, .i32⟩ : BufTy).Contents (Elt F) → (⟨S262144, .i32⟩ : BufTy).Contents (Elt F) → (⟨S262144, .i32⟩ : BufTy).Contents (Elt F)),
    ternary main_v183 main_v185 main_arg8 main_v186 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v186 main_v187 (broadcastInDim S262144x1 ![0] bcast_S262144_S262144x1_0 : (⟨S262144, .i32⟩ : BufTy).Contents (Elt F) → (⟨S262144x1, .i32⟩ : BufTy).Contents (Elt F)),
    binary main_v174 main_v187 main_v188 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F)),
    nullary main_c_45 (constantI S_ 32 0#32),
    unary main_c_45 main_v189 (broadcastInDim S262144 ![] bcast_S_S262144 : (⟨S_, .i32⟩ : BufTy).Contents (Elt F) → (⟨S262144, .i32⟩ : BufTy).Contents (Elt F)),
    binary main_arg9 main_v189 main_v190 (cmpi .slt : (⟨S262144, .i32⟩ : BufTy).Contents (Elt F) → (⟨S262144, .i32⟩ : BufTy).Contents (Elt F) → (⟨S262144, .i1⟩ : BufTy).Contents (Elt F)),
    nullary main_c_46 (constantI S_ 32 100000#32),
    unary main_c_46 main_v191 (broadcastInDim S262144 ![] bcast_S_S262144 : (⟨S_, .i32⟩ : BufTy).Contents (Elt F) → (⟨S262144, .i32⟩ : BufTy).Contents (Elt F)),
    binary main_arg9 main_v191 main_v192 (addi : (⟨S262144, .i32⟩ : BufTy).Contents (Elt F) → (⟨S262144, .i32⟩ : BufTy).Contents (Elt F) → (⟨S262144, .i32⟩ : BufTy).Contents (Elt F)),
    ternary main_v190 main_v192 main_arg9 main_v193 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v193 main_v194 (broadcastInDim S262144x1 ![0] bcast_S262144_S262144x1_0 : (⟨S262144, .i32⟩ : BufTy).Contents (Elt F) → (⟨S262144x1, .i32⟩ : BufTy).Contents (Elt F)),
    binary main_v174 main_v194 main_v195 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F)),
    nullary main_c_47 (constantI S_ 32 0#32),
    unary main_c_47 main_v196 (broadcastInDim S262144 ![] bcast_S_S262144 : (⟨S_, .i32⟩ : BufTy).Contents (Elt F) → (⟨S262144, .i32⟩ : BufTy).Contents (Elt F)),
    binary main_arg7 main_v196 main_v197 (cmpi .slt : (⟨S262144, .i32⟩ : BufTy).Contents (Elt F) → (⟨S262144, .i32⟩ : BufTy).Contents (Elt F) → (⟨S262144, .i1⟩ : BufTy).Contents (Elt F)),
    nullary main_c_48 (constantI S_ 32 100000#32),
    unary main_c_48 main_v198 (broadcastInDim S262144 ![] bcast_S_S262144 : (⟨S_, .i32⟩ : BufTy).Contents (Elt F) → (⟨S262144, .i32⟩ : BufTy).Contents (Elt F)),
    binary main_arg7 main_v198 main_v199 (addi : (⟨S262144, .i32⟩ : BufTy).Contents (Elt F) → (⟨S262144, .i32⟩ : BufTy).Contents (Elt F) → (⟨S262144, .i32⟩ : BufTy).Contents (Elt F)),
    ternary main_v197 main_v199 main_arg7 main_v200 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v200 main_v201 (broadcastInDim S262144x1 ![0] bcast_S262144_S262144x1_0 : (⟨S262144, .i32⟩ : BufTy).Contents (Elt F) → (⟨S262144x1, .i32⟩ : BufTy).Contents (Elt F)),
    binary main_arg0 main_v201 main_v202 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F)),
    nullary main_c_49 (constantI S_ 32 0#32),
    unary main_c_49 main_v203 (broadcastInDim S262144 ![] bcast_S_S262144 : (⟨S_, .i32⟩ : BufTy).Contents (Elt F) → (⟨S262144, .i32⟩ : BufTy).Contents (Elt F)),
    binary main_arg8 main_v203 main_v204 (cmpi .slt : (⟨S262144, .i32⟩ : BufTy).Contents (Elt F) → (⟨S262144, .i32⟩ : BufTy).Contents (Elt F) → (⟨S262144, .i1⟩ : BufTy).Contents (Elt F)),
    nullary main_c_50 (constantI S_ 32 100000#32),
    unary main_c_50 main_v205 (broadcastInDim S262144 ![] bcast_S_S262144 : (⟨S_, .i32⟩ : BufTy).Contents (Elt F) → (⟨S262144, .i32⟩ : BufTy).Contents (Elt F)),
    binary main_arg8 main_v205 main_v206 (addi : (⟨S262144, .i32⟩ : BufTy).Contents (Elt F) → (⟨S262144, .i32⟩ : BufTy).Contents (Elt F) → (⟨S262144, .i32⟩ : BufTy).Contents (Elt F)),
    ternary main_v204 main_v206 main_arg8 main_v207 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v207 main_v208 (broadcastInDim S262144x1 ![0] bcast_S262144_S262144x1_0 : (⟨S262144, .i32⟩ : BufTy).Contents (Elt F) → (⟨S262144x1, .i32⟩ : BufTy).Contents (Elt F)),
    binary main_arg0 main_v208 main_v209 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F)),
    nullary main_c_51 (constantI S_ 32 0#32),
    unary main_c_51 main_v210 (broadcastInDim S262144 ![] bcast_S_S262144 : (⟨S_, .i32⟩ : BufTy).Contents (Elt F) → (⟨S262144, .i32⟩ : BufTy).Contents (Elt F)),
    binary main_arg9 main_v210 main_v211 (cmpi .slt : (⟨S262144, .i32⟩ : BufTy).Contents (Elt F) → (⟨S262144, .i32⟩ : BufTy).Contents (Elt F) → (⟨S262144, .i1⟩ : BufTy).Contents (Elt F)),
    nullary main_c_52 (constantI S_ 32 100000#32),
    unary main_c_52 main_v212 (broadcastInDim S262144 ![] bcast_S_S262144 : (⟨S_, .i32⟩ : BufTy).Contents (Elt F) → (⟨S262144, .i32⟩ : BufTy).Contents (Elt F)),
    binary main_arg9 main_v212 main_v213 (addi : (⟨S262144, .i32⟩ : BufTy).Contents (Elt F) → (⟨S262144, .i32⟩ : BufTy).Contents (Elt F) → (⟨S262144, .i32⟩ : BufTy).Contents (Elt F)),
    ternary main_v211 main_v213 main_arg9 main_v214 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v214 main_v215 (broadcastInDim S262144x1 ![0] bcast_S262144_S262144x1_0 : (⟨S262144, .i32⟩ : BufTy).Contents (Elt F) → (⟨S262144x1, .i32⟩ : BufTy).Contents (Elt F)),
    binary main_arg0 main_v215 main_v216 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F)),
    binary main_v202 main_v202 main_v217 (mulf : (⟨S262144x64, .f32⟩ : BufTy).Contents (Elt F) → (⟨S262144x64, .f32⟩ : BufTy).Contents (Elt F) → (⟨S262144x64, .f32⟩ : BufTy).Contents (Elt F)),
    nullary main_cst_53 (constant S_ .f32 0x00000000#32),
    binary main_v217 main_cst_53 main_v218 ((fun x v => Host.reduceAdd x v reducesTo_S262144x64_S_d0_1 h_S_) : (⟨S262144x64, .f32⟩ : BufTy).Contents (Elt F) → (⟨S_, .f32⟩ : BufTy).Contents (Elt F) → (⟨S_, .f32⟩ : BufTy).Contents (Elt F)),
    binary main_v209 main_v209 main_v219 (mulf : (⟨S262144x64, .f32⟩ : BufTy).Contents (Elt F) → (⟨S262144x64, .f32⟩ : BufTy).Contents (Elt F) → (⟨S262144x64, .f32⟩ : BufTy).Contents (Elt F)),
    nullary main_cst_54 (constant S_ .f32 0x00000000#32),
    binary main_v219 main_cst_54 main_v220 ((fun x v => Host.reduceAdd x v reducesTo_S262144x64_S_d0_1 h_S_) : (⟨S262144x64, .f32⟩ : BufTy).Contents (Elt F) → (⟨S_, .f32⟩ : BufTy).Contents (Elt F) → (⟨S_, .f32⟩ : BufTy).Contents (Elt F)),
    binary main_v218 main_v220 main_v221 (addf : (⟨S_, .f32⟩ : BufTy).Contents (Elt F) → (⟨S_, .f32⟩ : BufTy).Contents (Elt F) → (⟨S_, .f32⟩ : BufTy).Contents (Elt F)),
    binary main_v216 main_v216 main_v222 (mulf : (⟨S262144x64, .f32⟩ : BufTy).Contents (Elt F) → (⟨S262144x64, .f32⟩ : BufTy).Contents (Elt F) → (⟨S262144x64, .f32⟩ : BufTy).Contents (Elt F)),
    nullary main_cst_55 (constant S_ .f32 0x00000000#32),
    binary main_v222 main_cst_55 main_v223 ((fun x v => Host.reduceAdd x v reducesTo_S262144x64_S_d0_1 h_S_) : (⟨S262144x64, .f32⟩ : BufTy).Contents (Elt F) → (⟨S_, .f32⟩ : BufTy).Contents (Elt F) → (⟨S_, .f32⟩ : BufTy).Contents (Elt F)),
    binary main_v221 main_v223 main_v224 (addf : (⟨S_, .f32⟩ : BufTy).Contents (Elt F) → (⟨S_, .f32⟩ : BufTy).Contents (Elt F) → (⟨S_, .f32⟩ : BufTy).Contents (Elt F)),
    nullary main_cst_56 (constant S_ .f32 0x3F000000#32),
    binary main_cst_56 main_v224 main_v225 (mulf : (⟨S_, .f32⟩ : BufTy).Contents (Elt F) → (⟨S_, .f32⟩ : BufTy).Contents (Elt F) → (⟨S_, .f32⟩ : BufTy).Contents (Elt F)),
    nullary main_cst_57 (constant S_ .f32 0x46000000#32),
    binary main_v225 main_cst_57 main_v226 (Host.divf : (⟨S_, .f32⟩ : BufTy).Contents (Elt F) → (⟨S_, .f32⟩ : BufTy).Contents (Elt F) → (⟨S_, .f32⟩ : BufTy).Contents (Elt F)),
    binary main_v181 main_v188 main_v227 (mulf : (⟨S262144x64, .f32⟩ : BufTy).Contents (Elt F) → (⟨S262144x64, .f32⟩ : BufTy).Contents (Elt F) → (⟨S262144x64, .f32⟩ : BufTy).Contents (Elt F)),
    nullary main_cst_58 (constant S_ .f32 0x00000000#32),
    binary main_v227 main_cst_58 main_v228 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    binary main_v181 main_v195 main_v229 (mulf : (⟨S262144x64, .f32⟩ : BufTy).Contents (Elt F) → (⟨S262144x64, .f32⟩ : BufTy).Contents (Elt F) → (⟨S262144x64, .f32⟩ : BufTy).Contents (Elt F)),
    nullary main_cst_59 (constant S_ .f32 0x00000000#32),
    binary main_v229 main_cst_59 main_v230 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    binary main_v230 main_v228 main_v231 (subf : (⟨S262144, .f32⟩ : BufTy).Contents (Elt F) → (⟨S262144, .f32⟩ : BufTy).Contents (Elt F) → (⟨S262144, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S262144, .f32⟩) main_call0_v0) (broadcastInDim S262144 ![] bcast_S_S262144),
    TRef.binary (TRef.of (T := ⟨S262144, .f32⟩) main_v231) (TRef.of (T := ⟨S262144, .f32⟩) main_call0_v0) (TRef.of (T := ⟨S262144, .f32⟩) main_call0_v1) maximumf,
    TRef.unary (TRef.of (T := ⟨S_, .f32⟩) main_call0_cst) (TRef.of (T := ⟨S262144, .f32⟩) main_call0_v2) (broadcastInDim S262144 ![] bcast_S_S262144),
    TRef.binary (TRef.of (T := ⟨S262144, .f32⟩) main_v231) (TRef.of (T := ⟨S262144, .f32⟩) main_call0_v2) (TRef.of (T := ⟨S262144, .f32⟩) main_call0_v3) subf,
    TRef.binary (TRef.of (T := ⟨S262144, .f32⟩) main_call0_v3) (TRef.of (T := ⟨S262144, .f32⟩) main_call0_v3) (TRef.of (T := ⟨S262144, .i1⟩) main_call0_v4) (cmpf .une),
    TRef.unary (TRef.of (T := ⟨S_, .f32⟩) main_call0_cst) (TRef.of (T := ⟨S262144, .f32⟩) main_call0_v5) (broadcastInDim S262144 ![] bcast_S_S262144),
    TRef.binary (TRef.of (T := ⟨S262144, .f32⟩) main_v231) (TRef.of (T := ⟨S262144, .f32⟩) main_call0_v5) (TRef.of (T := ⟨S262144, .f32⟩) main_call0_v6) addf,
    TRef.unary (TRef.of (T := ⟨S262144, .f32⟩) main_call0_v3) (TRef.of (T := ⟨S262144, .f32⟩) main_call0_v7) Host.absf,
    TRef.unary (TRef.of (T := ⟨S262144, .f32⟩) main_call0_v7) (TRef.of (T := ⟨S262144, .f32⟩) main_call0_v8) Host.negf,
    TRef.unary (TRef.of (T := ⟨S262144, .f32⟩) main_call0_v8) (TRef.of (T := ⟨S262144, .f32⟩) main_call0_v9) Host.exp,
    TRef.unary (TRef.of (T := ⟨S262144, .f32⟩) main_call0_v9) (TRef.of (T := ⟨S262144, .f32⟩) main_call0_v10) Host.log1p,
    TRef.binary (TRef.of (T := ⟨S262144, .f32⟩) main_call0_v1) (TRef.of (T := ⟨S262144, .f32⟩) main_call0_v10) (TRef.of (T := ⟨S262144, .f32⟩) main_call0_v11) addf,
    TRef.ternary (TRef.of (T := ⟨S262144, .i1⟩) main_call0_v4) (TRef.of (T := ⟨S262144, .f32⟩) main_call0_v6) (TRef.of (T := ⟨S262144, .f32⟩) main_call0_v11) (TRef.of (T := ⟨S262144, .f32⟩) main_v232) select,
    nullary main_cst_60 (constant S_ .f32 0x00000000#32),
    binary main_v232 main_cst_60 main_v233 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    nullary main_cst_61 (constant S_ .f32 0x48800000#32),
    binary main_v233 main_cst_61 main_v234 (Host.divf : (⟨S_, .f32⟩ : BufTy).Contents (Elt F) → (⟨S_, .f32⟩ : BufTy).Contents (Elt F) → (⟨S_, .f32⟩ : BufTy).Contents (Elt F)),
    nullary main_cst_62 (constant S_ .f32 0x3F800000#32),
    binary main_v130 main_cst_62 main_v235 (mulf : (⟨S_, .f32⟩ : BufTy).Contents (Elt F) → (⟨S_, .f32⟩ : BufTy).Contents (Elt F) → (⟨S_, .f32⟩ : BufTy).Contents (Elt F)),
    nullary main_cst_63 (constant S_ .f32 0x3F800000#32),
    binary main_v234 main_cst_63 main_v236 (mulf : (⟨S_, .f32⟩ : BufTy).Contents (Elt F) → (⟨S_, .f32⟩ : BufTy).Contents (Elt F) → (⟨S_, .f32⟩ : BufTy).Contents (Elt F)),
    binary main_v235 main_v236 main_v237 (addf : (⟨S_, .f32⟩ : BufTy).Contents (Elt F) → (⟨S_, .f32⟩ : BufTy).Contents (Elt F) → (⟨S_, .f32⟩ : BufTy).Contents (Elt F)),
    nullary main_cst_64 (constant S_ .f32 0x38D1B717#32),
    binary main_v226 main_cst_64 main_v238 (mulf : (⟨S_, .f32⟩ : BufTy).Contents (Elt F) → (⟨S_, .f32⟩ : BufTy).Contents (Elt F) → (⟨S_, .f32⟩ : BufTy).Contents (Elt F)),
    binary main_v237 main_v238 main_v239 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., binary_bufs_sub .., nullary_bufs_sub .., unary_bufs_sub .., binary_bufs_sub .., unary_bufs_sub .., nullary_bufs_sub .., unary_bufs_sub .., binary_bufs_sub .., unary_bufs_sub .., nullary_bufs_sub .., binary_bufs_sub .., binary_bufs_sub .., unary_bufs_sub .., nullary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub ..⟩

set_option maxRecDepth 8192 in
/-- `main_v239`'s composed term of the arguments (named: it is long). -/
def res_main_v239 (m : (ℓ : Loc nD τ sig) → Buf (Elt F) ℓ) (c : Dev nD) : Buf (Elt F) ((c.tc : Thread nD τ).loc main_v239) :=
  addf (addf (mulf (Host.negf (Host.reduceAdd (Host.log (Host.divf (Host.exp (Host.divf (Host.reduceAdd (mulf (Host.divf (Host.gather gather_S100000x64_S8192x1_S8192x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S8192x1 ![0] bcast_S8192_S8192x1_0 (select (cmpi .slt (m ((c.tc : Thread nD τ).loc main_arg6)) (broadcastInDim S8192 ![] bcast_S_S8192 (constantI S_ 32 0#32))) (addi (m ((c.tc : Thread nD τ).loc main_arg6)) (broadcastInDim S8192 ![] bcast_S_S8192 (constantI S_ 32 100000#32))) (m ((c.tc : Thread nD τ).loc main_arg6))))) (broadcastInDim S8192x64 ![0, 1] bcast_S8192x1_S8192x64_0_1 (maximumf (broadcastInDim S8192x1 ![0] bcast_S8192_S8192x1_0 (Host.reduceAdd (Host.absf (Host.gather gather_S100000x64_S8192x1_S8192x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S8192x1 ![0] bcast_S8192_S8192x1_0 (select (cmpi .slt (m ((c.tc : Thread nD τ).loc main_arg6)) (broadcastInDim S8192 ![] bcast_S_S8192 (constantI S_ 32 0#32))) (addi (m ((c.tc : Thread nD τ).loc main_arg6)) (broadcastInDim S8192 ![] bcast_S_S8192 (constantI S_ 32 100000#32))) (m ((c.tc : Thread nD τ).loc main_arg6)))))) (constant S_ .f32 0x00000000#32) reducesTo_S8192x64_S8192_d1 h_S_)) (broadcastInDim S8192x1 ![] bcast_S_S8192x1 (constant S_ .f32 0x2B8CBCCC#32))))) (Host.divf (Host.gather gather_S100000x64_S8192x1_S8192x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S8192x1 ![0] bcast_S8192_S8192x1_0 (select (cmpi .slt (m ((c.tc : Thread nD τ).loc main_arg6)) (broadcastInDim S8192 ![] bcast_S_S8192 (constantI S_ 32 0#32))) (addi (m ((c.tc : Thread nD τ).loc main_arg6)) (broadcastInDim S8192 ![] bcast_S_S8192 (constantI S_ 32 100000#32))) (m ((c.tc : Thread nD τ).loc main_arg6))))) (broadcastInDim S8192x64 ![0, 1] bcast_S8192x1_S8192x64_0_1 (maximumf (broadcastInDim S8192x1 ![0] bcast_S8192_S8192x1_0 (Host.reduceAdd (Host.absf (Host.gather gather_S100000x64_S8192x1_S8192x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S8192x1 ![0] bcast_S8192_S8192x1_0 (select (cmpi .slt (m ((c.tc : Thread nD τ).loc main_arg6)) (broadcastInDim S8192 ![] bcast_S_S8192 (constantI S_ 32 0#32))) (addi (m ((c.tc : Thread nD τ).loc main_arg6)) (broadcastInDim S8192 ![] bcast_S_S8192 (constantI S_ 32 100000#32))) (m ((c.tc : Thread nD τ).loc main_arg6)))))) (constant S_ .f32 0x00000000#32) reducesTo_S8192x64_S8192_d1 h_S_)) (broadcastInDim S8192x1 ![] bcast_S_S8192x1 (constant S_ .f32 0x2B8CBCCC#32)))))) (constant S_ .f32 0x00000000#32) reducesTo_S8192x64_S8192_d1 h_S_) (broadcastInDim S8192 ![] bcast_S_S8192 (constant S_ .f32 0x3F000000#32)))) (Host.reduceAdd (Host.exp (Host.divf (Host.dotGeneral dot_S8192x64_S64x8192_S8192x8192_1_0_0_1_n_n none (Host.divf (Host.gather gather_S100000x64_S8192x1_S8192x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S8192x1 ![0] bcast_S8192_S8192x1_0 (select (cmpi .slt (m ((c.tc : Thread nD τ).loc main_arg6)) (broadcastInDim S8192 ![] bcast_S_S8192 (constantI S_ 32 0#32))) (addi (m ((c.tc : Thread nD τ).loc main_arg6)) (broadcastInDim S8192 ![] bcast_S_S8192 (constantI S_ 32 100000#32))) (m ((c.tc : Thread nD τ).loc main_arg6))))) (broadcastInDim S8192x64 ![0, 1] bcast_S8192x1_S8192x64_0_1 (maximumf (broadcastInDim S8192x1 ![0] bcast_S8192_S8192x1_0 (Host.reduceAdd (Host.absf (Host.gather gather_S100000x64_S8192x1_S8192x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg1)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S8192x1 ![0] bcast_S8192_S8192x1_0 (select (cmpi .slt (m ((c.tc : Thread nD τ).loc main_arg6)) (broadcastInDim S8192 ![] bcast_S_S8192 (constantI S_ 32 0#32))) (addi (m ((c.tc : Thread nD τ).loc main_arg6)) (broadcastInDim S8192 ![] bcast_S_S8192 (constantI S_ 32 100000#32))) (m ((c.tc : Thread nD τ).loc main_arg6)))))) (constant S_ .f32 0x00000000#32) reducesTo_S8192x64_S8192_d1 h_S_)) (broadcastInDim S8192x1 ![] bcast_S_S8192x1 (constant S_ .f32 0x2B8CBCCC#32))))) (transpose S64x8192 [1, 0] (Host.divf (Host.gather gather_S100000x64_S8192x1_S8192x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S8192x1 ![0] bcast_S8192_S8192x1_0 (select (cmpi .slt (m ((c.tc : Thread nD τ).loc main_arg6)) (broadcastInDim S8192 ![] bcast_S_S8192 (constantI S_ 32 0#32))) (addi (m ((c.tc : Thread nD τ).loc main_arg6)) (broadcastInDim S8192 ![] bcast_S_S8192 (constantI S_ 32 100000#32))) (m ((c.tc : Thread nD τ).loc main_arg6))))) (broadcastInDim S8192x64 ![0, 1] bcast_S8192x1_S8192x64_0_1 (maximumf (broadcastInDim S8192x1 ![0] bcast_S8192_S8192x1_0 (Host.reduceAdd (Host.absf (Host.gather gather_S100000x64_S8192x1_S8192x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg2)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S8192x1 ![0] bcast_S8192_S8192x1_0 (select (cmpi .slt (m ((c.tc : Thread nD τ).loc main_arg6)) (broadcastInDim S8192 ![] bcast_S_S8192 (constantI S_ 32 0#32))) (addi (m ((c.tc : Thread nD τ).loc main_arg6)) (broadcastInDim S8192 ![] bcast_S_S8192 (constantI S_ 32 100000#32))) (m ((c.tc : Thread nD τ).loc main_arg6)))))) (constant S_ .f32 0x00000000#32) reducesTo_S8192x64_S8192_d1 h_S_)) (broadcastInDim S8192x1 ![] bcast_S_S8192x1 (constant S_ .f32 0x2B8CBCCC#32))))) transposes_S8192x64_S64x8192_1_0)) (broadcastInDim S8192x8192 ![] bcast_S_S8192x8192 (constant S_ .f32 0x3F000000#32)))) (constant S_ .f32 0x00000000#32) reducesTo_S8192x8192_S8192_d1 h_S_))) (constant S_ .f32 0x00000000#32) reducesTo_S8192_S_d0 h_S_)) (constant S_ .f32 0x3F800000#32)) (mulf (Host.divf (Host.reduceAdd (select (cmpf .une (subf (subf (Host.reduceAdd (mulf (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg7)) (broadcastInDim S262144 ![] bcast_S_S262144 (constantI S_ 32 0#32))) (addi (m ((c.tc : Thread nD τ).loc main_arg7)) (broadcastInDim S262144 ![] bcast_S_S262144 (constantI S_ 32 100000#32))) (m ((c.tc : Thread nD τ).loc main_arg7))))) (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg9)) (broadcastInDim S262144 ![] bcast_S_S262144 (constantI S_ 32 0#32))) (addi (m ((c.tc : Thread nD τ).loc main_arg9)) (broadcastInDim S262144 ![] bcast_S_S262144 (constantI S_ 32 100000#32))) (m ((c.tc : Thread nD τ).loc main_arg9)))))) (constant S_ .f32 0x00000000#32) reducesTo_S262144x64_S262144_d1 h_S_) (Host.reduceAdd (mulf (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg7)) (broadcastInDim S262144 ![] bcast_S_S262144 (constantI S_ 32 0#32))) (addi (m ((c.tc : Thread nD τ).loc main_arg7)) (broadcastInDim S262144 ![] bcast_S_S262144 (constantI S_ 32 100000#32))) (m ((c.tc : Thread nD τ).loc main_arg7))))) (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg8)) (broadcastInDim S262144 ![] bcast_S_S262144 (constantI S_ 32 0#32))) (addi (m ((c.tc : Thread nD τ).loc main_arg8)) (broadcastInDim S262144 ![] bcast_S_S262144 (constantI S_ 32 100000#32))) (m ((c.tc : Thread nD τ).loc main_arg8)))))) (constant S_ .f32 0x00000000#32) reducesTo_S262144x64_S262144_d1 h_S_)) (broadcastInDim S262144 ![] bcast_S_S262144 (constant S_ .f32 0x00000000#32))) (subf (subf (Host.reduceAdd (mulf (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg7)) (broadcastInDim S262144 ![] bcast_S_S262144 (constantI S_ 32 0#32))) (addi (m ((c.tc : Thread nD τ).loc main_arg7)) (broadcastInDim S262144 ![] bcast_S_S262144 (constantI S_ 32 100000#32))) (m ((c.tc : Thread nD τ).loc main_arg7))))) (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg9)) (broadcastInDim S262144 ![] bcast_S_S262144 (constantI S_ 32 0#32))) (addi (m ((c.tc : Thread nD τ).loc main_arg9)) (broadcastInDim S262144 ![] bcast_S_S262144 (constantI S_ 32 100000#32))) (m ((c.tc : Thread nD τ).loc main_arg9)))))) (constant S_ .f32 0x00000000#32) reducesTo_S262144x64_S262144_d1 h_S_) (Host.reduceAdd (mulf (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg7)) (broadcastInDim S262144 ![] bcast_S_S262144 (constantI S_ 32 0#32))) (addi (m ((c.tc : Thread nD τ).loc main_arg7)) (broadcastInDim S262144 ![] bcast_S_S262144 (constantI S_ 32 100000#32))) (m ((c.tc : Thread nD τ).loc main_arg7))))) (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg8)) (broadcastInDim S262144 ![] bcast_S_S262144 (constantI S_ 32 0#32))) (addi (m ((c.tc : Thread nD τ).loc main_arg8)) (broadcastInDim S262144 ![] bcast_S_S262144 (constantI S_ 32 100000#32))) (m ((c.tc : Thread nD τ).loc main_arg8)))))) (constant S_ .f32 0x00000000#32) reducesTo_S262144x64_S262144_d1 h_S_)) (broadcastInDim S262144 ![] bcast_S_S262144 (constant S_ .f32 0x00000000#32)))) (addf (subf (Host.reduceAdd (mulf (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg7)) (broadcastInDim S262144 ![] bcast_S_S262144 (constantI S_ 32 0#32))) (addi (m ((c.tc : Thread nD τ).loc main_arg7)) (broadcastInDim S262144 ![] bcast_S_S262144 (constantI S_ 32 100000#32))) (m ((c.tc : Thread nD τ).loc main_arg7))))) (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg9)) (broadcastInDim S262144 ![] bcast_S_S262144 (constantI S_ 32 0#32))) (addi (m ((c.tc : Thread nD τ).loc main_arg9)) (broadcastInDim S262144 ![] bcast_S_S262144 (constantI S_ 32 100000#32))) (m ((c.tc : Thread nD τ).loc main_arg9)))))) (constant S_ .f32 0x00000000#32) reducesTo_S262144x64_S262144_d1 h_S_) (Host.reduceAdd (mulf (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg7)) (broadcastInDim S262144 ![] bcast_S_S262144 (constantI S_ 32 0#32))) (addi (m ((c.tc : Thread nD τ).loc main_arg7)) (broadcastInDim S262144 ![] bcast_S_S262144 (constantI S_ 32 100000#32))) (m ((c.tc : Thread nD τ).loc main_arg7))))) (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg8)) (broadcastInDim S262144 ![] bcast_S_S262144 (constantI S_ 32 0#32))) (addi (m ((c.tc : Thread nD τ).loc main_arg8)) (broadcastInDim S262144 ![] bcast_S_S262144 (constantI S_ 32 100000#32))) (m ((c.tc : Thread nD τ).loc main_arg8)))))) (constant S_ .f32 0x00000000#32) reducesTo_S262144x64_S262144_d1 h_S_)) (broadcastInDim S262144 ![] bcast_S_S262144 (constant S_ .f32 0x00000000#32))) (addf (maximumf (subf (Host.reduceAdd (mulf (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg7)) (broadcastInDim S262144 ![] bcast_S_S262144 (constantI S_ 32 0#32))) (addi (m ((c.tc : Thread nD τ).loc main_arg7)) (broadcastInDim S262144 ![] bcast_S_S262144 (constantI S_ 32 100000#32))) (m ((c.tc : Thread nD τ).loc main_arg7))))) (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg9)) (broadcastInDim S262144 ![] bcast_S_S262144 (constantI S_ 32 0#32))) (addi (m ((c.tc : Thread nD τ).loc main_arg9)) (broadcastInDim S262144 ![] bcast_S_S262144 (constantI S_ 32 100000#32))) (m ((c.tc : Thread nD τ).loc main_arg9)))))) (constant S_ .f32 0x00000000#32) reducesTo_S262144x64_S262144_d1 h_S_) (Host.reduceAdd (mulf (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg7)) (broadcastInDim S262144 ![] bcast_S_S262144 (constantI S_ 32 0#32))) (addi (m ((c.tc : Thread nD τ).loc main_arg7)) (broadcastInDim S262144 ![] bcast_S_S262144 (constantI S_ 32 100000#32))) (m ((c.tc : Thread nD τ).loc main_arg7))))) (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg8)) (broadcastInDim S262144 ![] bcast_S_S262144 (constantI S_ 32 0#32))) (addi (m ((c.tc : Thread nD τ).loc main_arg8)) (broadcastInDim S262144 ![] bcast_S_S262144 (constantI S_ 32 100000#32))) (m ((c.tc : Thread nD τ).loc main_arg8)))))) (constant S_ .f32 0x00000000#32) reducesTo_S262144x64_S262144_d1 h_S_)) (broadcastInDim S262144 ![] bcast_S_S262144 (constant S_ .f32 0x00000000#32))) (Host.log1p (Host.exp (Host.negf (Host.absf (subf (subf (Host.reduceAdd (mulf (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg7)) (broadcastInDim S262144 ![] bcast_S_S262144 (constantI S_ 32 0#32))) (addi (m ((c.tc : Thread nD τ).loc main_arg7)) (broadcastInDim S262144 ![] bcast_S_S262144 (constantI S_ 32 100000#32))) (m ((c.tc : Thread nD τ).loc main_arg7))))) (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg9)) (broadcastInDim S262144 ![] bcast_S_S262144 (constantI S_ 32 0#32))) (addi (m ((c.tc : Thread nD τ).loc main_arg9)) (broadcastInDim S262144 ![] bcast_S_S262144 (constantI S_ 32 100000#32))) (m ((c.tc : Thread nD τ).loc main_arg9)))))) (constant S_ .f32 0x00000000#32) reducesTo_S262144x64_S262144_d1 h_S_) (Host.reduceAdd (mulf (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg7)) (broadcastInDim S262144 ![] bcast_S_S262144 (constantI S_ 32 0#32))) (addi (m ((c.tc : Thread nD τ).loc main_arg7)) (broadcastInDim S262144 ![] bcast_S_S262144 (constantI S_ 32 100000#32))) (m ((c.tc : Thread nD τ).loc main_arg7))))) (Host.gather gather_S100000x64_S262144x1_S262144x64_1_0_n_n_0_1_164 (Host.divf (addf (addf (addf (m ((c.tc : Thread nD τ).loc main_arg0)) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (m ((c.tc : Thread nD τ).loc main_arg4))) (mulf (broadcastInDim S1600000x64 ![0, 1] bcast_S1600000x1_S1600000x64_0_1 (broadcastInDim S1600000x1 ![0] bcast_S1600000_S1600000x1_0 (m ((c.tc : Thread nD τ).loc main_arg3)))) (Host.gather gather_S100000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))))) (broadcastInDim S100000x64 ![] bcast_S_S100000x64 (constant S_ .f32 0x40800000#32))) (broadcastInDim S262144x1 ![0] bcast_S262144_S262144x1_0 (select (cmpi .slt (m ((c.tc : Thread nD τ).loc main_arg8)) (broadcastInDim S262144 ![] bcast_S_S262144 (constantI S_ 32 0#32))) (addi (m ((c.tc : Thread nD τ).loc main_arg8)) (broadcastInDim S262144 ![] bcast_S_S262144 (constantI S_ 32 100000#32))) (m ((c.tc : Thread nD τ).loc main_arg8)))))) (constant S_ .f32 0x00000000#32) reducesTo_S262144x64_S262144_d1 h_S_)) (broadcastInDim S262144 ![] bcast_S_S262144 (constant S_ .f32 0x00000000#32))))))))) (constant S_ .f32 0x00000000#32) reducesTo_S262144_S_d0 h_S_) (constant S_ .f32 0x48800000#32)) (constant S_ .f32 0x3F800000#32))) (mulf (Host.divf (mulf (constant S_ .f32 0x3F000000#32) (addf (addf (Host.reduceAdd (mulf (Host.gather gather_S100000x64_S262144x1_S262144x64_1_0_n_n_0_1_164 (m ((c.tc : Thread nD τ).loc main_arg0)) (broadcastInDim S262144x1 ![0] bcast_S262144_S262144x1_0 (select (cmpi .slt (m ((c.tc : Thread nD τ).loc main_arg7)) (broadcastInDim S262144 ![] bcast_S_S262144 (constantI S_ 32 0#32))) (addi (m ((c.tc : Thread nD τ).loc main_arg7)) (broadcastInDim S262144 ![] bcast_S_S262144 (constantI S_ 32 100000#32))) (m ((c.tc : Thread nD τ).loc main_arg7))))) (Host.gather gather_S100000x64_S262144x1_S262144x64_1_0_n_n_0_1_164 (m ((c.tc : Thread nD τ).loc main_arg0)) (broadcastInDim S262144x1 ![0] bcast_S262144_S262144x1_0 (select (cmpi .slt (m ((c.tc : Thread nD τ).loc main_arg7)) (broadcastInDim S262144 ![] bcast_S_S262144 (constantI S_ 32 0#32))) (addi (m ((c.tc : Thread nD τ).loc main_arg7)) (broadcastInDim S262144 ![] bcast_S_S262144 (constantI S_ 32 100000#32))) (m ((c.tc : Thread nD τ).loc main_arg7)))))) (constant S_ .f32 0x00000000#32) reducesTo_S262144x64_S_d0_1 h_S_) (Host.reduceAdd (mulf (Host.gather gather_S100000x64_S262144x1_S262144x64_1_0_n_n_0_1_164 (m ((c.tc : Thread nD τ).loc main_arg0)) (broadcastInDim S262144x1 ![0] bcast_S262144_S262144x1_0 (select (cmpi .slt (m ((c.tc : Thread nD τ).loc main_arg8)) (broadcastInDim S262144 ![] bcast_S_S262144 (constantI S_ 32 0#32))) (addi (m ((c.tc : Thread nD τ).loc main_arg8)) (broadcastInDim S262144 ![] bcast_S_S262144 (constantI S_ 32 100000#32))) (m ((c.tc : Thread nD τ).loc main_arg8))))) (Host.gather gather_S100000x64_S262144x1_S262144x64_1_0_n_n_0_1_164 (m ((c.tc : Thread nD τ).loc main_arg0)) (broadcastInDim S262144x1 ![0] bcast_S262144_S262144x1_0 (select (cmpi .slt (m ((c.tc : Thread nD τ).loc main_arg8)) (broadcastInDim S262144 ![] bcast_S_S262144 (constantI S_ 32 0#32))) (addi (m ((c.tc : Thread nD τ).loc main_arg8)) (broadcastInDim S262144 ![] bcast_S_S262144 (constantI S_ 32 100000#32))) (m ((c.tc : Thread nD τ).loc main_arg8)))))) (constant S_ .f32 0x00000000#32) reducesTo_S262144x64_S_d0_1 h_S_)) (Host.reduceAdd (mulf (Host.gather gather_S100000x64_S262144x1_S262144x64_1_0_n_n_0_1_164 (m ((c.tc : Thread nD τ).loc main_arg0)) (broadcastInDim S262144x1 ![0] bcast_S262144_S262144x1_0 (select (cmpi .slt (m ((c.tc : Thread nD τ).loc main_arg9)) (broadcastInDim S262144 ![] bcast_S_S262144 (constantI S_ 32 0#32))) (addi (m ((c.tc : Thread nD τ).loc main_arg9)) (broadcastInDim S262144 ![] bcast_S_S262144 (constantI S_ 32 100000#32))) (m ((c.tc : Thread nD τ).loc main_arg9))))) (Host.gather gather_S100000x64_S262144x1_S262144x64_1_0_n_n_0_1_164 (m ((c.tc : Thread nD τ).loc main_arg0)) (broadcastInDim S262144x1 ![0] bcast_S262144_S262144x1_0 (select (cmpi .slt (m ((c.tc : Thread nD τ).loc main_arg9)) (broadcastInDim S262144 ![] bcast_S_S262144 (constantI S_ 32 0#32))) (addi (m ((c.tc : Thread nD τ).loc main_arg9)) (broadcastInDim S262144 ![] bcast_S_S262144 (constantI S_ 32 100000#32))) (m ((c.tc : Thread nD τ).loc main_arg9)))))) (constant S_ .f32 0x00000000#32) reducesTo_S262144x64_S_d0_1 h_S_))) (constant S_ .f32 0x46000000#32)) (constant S_ .f32 0x38D1B717#32))

/-- The reference's one result as a function of the launch memory: the same term under a shorter name. -/
abbrev res_out0 (m : (ℓ : Loc nD τ sig) → Buf (Elt F) ℓ) (c : Dev nD) : Buf (Elt F) ((c.tc : Thread nD τ).loc main_v239) := res_main_v239 m c

set_option maxRecDepth 8192 in
set_option maxHeartbeats 128000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v239) = res_main_v239 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v239).trans (by after_results_simp <;> rfl <;> (unfold res_main_v239; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.RefValue

end
-- ==== Proof.RefFrame.lean ====
/-
  The reference program is host operations only: its run, read back as a sequence of host operations, ends with every
  argument array as it was launched.  Dropping the result from that run's post is the frame claim.
-/
import proofs.«127262_j32341103739238_1_alg».proof.Defs
import proofs.«127262_j32341103739238_1_alg».proof.Proof.RefRun
import proofs.«127262_j32341103739238_1_alg».proof.Proof.Gen.Pre_finite_inputs

noncomputable section

open Idealize.ShloMosaic Idealize.ShloMosaic.TcCoe Idealize.SL.Sem

namespace Cert.Proof.RefSide

/-- Every weakly fair execution of the reference ends, faults nowhere and leaves its ten arguments unchanged. -/
theorem frame_reference : Cert.frame_ReferenceIdeal := fun m ρ _ =>
  (θ_run Cert.ReferenceIdeal.defs _ _).mono (fun _ h c => (h c).2) (Cert.ReferenceIdeal.RefValue.run (F := Ideal) m ρ)

end Cert.Proof.RefSide

end
-- ==== Proof.KI.Pieces.lean ====
/-
  What each control case leaves, as the body's arithmetic.

  The runs record stores as pieces.  Every store of the body covers its whole buffer, so the contents a list of pieces
  leaves is the payload of the last store, and a load after such a store reads that payload back.  Hence: the
  first case leaves the accumulation step applied to zeros; the middle and last cases leave it applied to what the
  scratch held; and at the last key block the output buffer receives the same column.
-/
import proofs.«127262_j32341103739238_1_alg».proof.Proof.KI.Frame
import Idealize.ShloMosaic.Lib.Pipeline.Value

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable (c : Dev nD) (i : grid0.Coords) (q : Memref sig .tc .vmem S1024x64 .f32) (hq : q.IsWhole) (k : Memref sig .tc .vmem S1024x64 .f32) (hk : k.IsWhole) (o : Memref sig .tc .vmem S1024x1 .f32) (ho : o.IsWhole) (s : Memref sig .tc .vmem S1024x1 .f32) (hs : s.IsWhole)
  (xq xk : Vec F S1024x64 .f32) (xs : Vec F S1024x1 .f32)

/-- A rectangle at the origin. -/
theorem origin2 : (![0, 0] : Fin 2 → ℕ) = fun _ => 0 := by funext a; fin_cases a <;> rfl

theorem sFirst_eq (hc0 : isFirst i) (hc1 : ¬isLast i) :
    sFirst c i q hq k hk o ho s hs xq xk hc0 hc1 = k0_pay2 xq xk (k0_pay1 (F := F)) := by
  unfold sFirst
  rw [View.read_writes_eq_canon _ _ _ (cover_sFirst c i q hq k hk o ho s hs xq xk hc0 hc1)]
  unfold runFirst
  dsimp only
  sl_unfold_words
  rw [View.canon_cons_unit_zero origin2]
  simp only [View.readAt_eq_ld, hq.read_unread, hk.read_unread, View.ld_unit_zero (S := S1024x64) origin2,
    View.readCov_unit_zero (S := S1024x1) s.view origin2]

theorem sMiddle_eq (hc0 : ¬isFirst i) (hc1 : ¬isLast i) :
    sMiddle c i q hq k hk o ho s hs xq xk xs hc0 hc1 = k0_pay2 xq xk xs := by
  unfold sMiddle
  rw [View.read_writes_eq_canon _ _ _ (cover_sMiddle c i q hq k hk o ho s hs xq xk xs hc0 hc1)]
  unfold runMiddle
  dsimp only
  sl_unfold_words
  rw [View.canon_cons_unit_zero origin2]
  simp only [View.readAt_eq_ld, hq.read_unread, hk.read_unread, hs.read_unread, View.ld_unit_zero (S := S1024x64) origin2,
    View.ld_unit_zero (S := S1024x1) origin2]

theorem sLast_eq (hc0 : ¬isFirst i) (hc1 : isLast i) :
    sLast c i q hq k hk o ho s hs xq xk xs hc0 hc1 = k0_pay2 xq xk xs := by
  unfold sLast
  rw [View.read_writes_eq_canon _ _ _ (cover_sLast c i q hq k hk o ho s hs xq xk xs hc0 hc1)]
  unfold runLast
  dsimp only
  sl_unfold_words
  rw [View.canon_cons_unit_zero origin2]
  simp only [View.readAt_eq_ld, hq.read_unread, hk.read_unread, hs.read_unread, View.ld_unit_zero (S := S1024x64) origin2,
    View.ld_unit_zero (S := S1024x1) origin2]

theorem oLast_eq (hc0 : ¬isFirst i) (hc1 : isLast i) :
    oLast c i q hq k hk o ho s hs xq xk xs hc0 hc1 = k0_pay2 xq xk xs := by
  unfold oLast
  rw [View.read_writes_eq_canon _ _ _ (cover_oLast c i q hq k hk o ho s hs xq xk xs hc0 hc1)]
  unfold runLast
  dsimp only
  sl_unfold_words
  rw [View.canon_cons_unit_zero origin2]
  simp only [View.readAt_eq_ld, hq.read_unread, hk.read_unread, hs.read_unread, View.ld_unit_zero (S := S1024x64) origin2,
    View.ld_unit_zero (S := S1024x1) origin2, View.readCov_unit_zero (S := S1024x1) s.view origin2]

end Cert.KernelIdeal.Around

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.KI.Payload.lean ====
/-
  The kernel body's arithmetic at one entry, at exact arithmetic.

  With `q` a block of 1024 query rows and `k` a block of 1024 key rows (64 features each; the change of float format
  to bf16 is the identity on extended reals), the value the body stores into its scratch column at row `r` is

      prev r + ∑ c < 1024, exp ((∑ d < 64, q (r, d) · k (c, d)) · 2.0)

  where `prev` is what the column held, and the column is reset to zero at the first key block.
-/
import proofs.«127262_j32341103739238_1_alg».proof.Proof.Gen.KernelIdeal.Skeleton
import proofs.«127262_j32341103739238_1_alg».proof.Proof.LibLayout
import proofs.«127262_j32341103739238_1_alg».proof.Proof.LibVectorReads
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Payload

open Idealize.ShloMosaic Idealize.ShloMosaic.ValueIdx
open Cert.KernelIdeal Cert.KernelIdeal.Gen

/-- The block product contracts the feature axis of both blocks: at `(p, c)` it is `∑ d, l (p, d) · r (c, d)`. -/
theorem scores_apply {φ₁ φ₂ : FTy} (l : FVec Ideal S1024x64 φ₁) (r : FVec Ideal S1024x64 φ₂) (p c : Fin 1024) :
    FloatOps.matmul dot_S1024x64_S1024x64_S1024x1024_1_1_0_0_n_n none l r (constant S1024x1024 .f32 0x00000000#32) (ix2 p c)
      = ∑ d : Fin 64, l (ix2 p d) * r (ix2 c d) := by
  rw [Ideal.matmul_constant_zero_apply,
    ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p c)
      ((contrEquiv1 dot_S1024x64_S1024x64_S1024x1024_1_1_0_0_n_n 64 rfl rfl).symm k) = ix2 p k :=
    funext fun a => Fin.ext (by
      match a with
      | ⟨0, _⟩ => rfl
      | ⟨1, _⟩ => exact (DotDims.lhsIdx_val_of_single _ rfl _ _).trans hk)
  have er : dot_S1024x64_S1024x64_S1024x1024_1_1_0_0_n_n.rhsIdx (ix2 p c)
      ((contrEquiv1 dot_S1024x64_S1024x64_S1024x1024_1_1_0_0_n_n 64 rfl rfl).symm k) = ix2 c k :=
    funext fun a => Fin.ext (by
      match a with
      | ⟨0, _⟩ => rfl
      | ⟨1, _⟩ => exact (DotDims.rhsIdx_val_of_single _ rfl _ _).trans hk)
  rw [el, er]

/-- The reset value of the scratch column is zero at every row. -/
theorem pay1_apply (y : S1024x1.Idx) : k0_pay1 (F := Ideal) y = 0 := by
  unfold k0_pay1
  rw [shapeCast_self]
  show Ideal.ofBits .f32 0x00000000#32 = 0
  exact Ideal.ofBits_zero_f32

/-- The accumulation step at row `r`. -/
theorem pay2_apply (q k : Vec Ideal S1024x64 .f32) (prev : Vec Ideal S1024x1 .f32) (r : Fin 1024) :
    k0_pay2 (F := Ideal) q k prev (ix2 r (0 : Fin 1))
      = prev (ix2 r (0 : Fin 1))
        + ∑ c : Fin 1024, Ideal.exp ((∑ d : Fin 64, q (ix2 r d) * k (ix2 c d)) * Ideal.ofBits .f32 0x40000000#32) := by
  unfold k0_pay2
  rw [shapeCast_self, addf_apply]
  refine congrArg (prev (ix2 r (0 : Fin 1)) + ·) ?_
  refine (Cert.LibLayout.shapeCast_a_a1_apply _ _ r (0 : Fin 1)).trans ?_
  refine (Cert.LibVectorReads.sum_last2_apply _ _ _ _ r).trans ?_
  refine Finset.sum_congr rfl fun c _ => ?_
  show Ideal.exp (FloatOps.matmul (F := Ideal) dot_S1024x64_S1024x64_S1024x1024_1_1_0_0_n_n none _ _ _ (ix2 r c) * _) = _
  rw [scores_apply]
  simp only [truncf_apply, shapeCast_self, broadcast_apply, Ideal.ofBits_def]

end Cert.KernelIdeal.Payload

end
-- ==== Proof.LibBlockSums.lean ====
/-
  A sum over a long axis taken block by block, as a running sum.

  Three facts in any commutative additive monoid (so in particular on the extended reals, where nothing beyond
  commutativity and associativity of + is used), and two float literals at exact arithmetic.

  * A sum over `Fin (A * B)` is the sum over the `A` blocks of the `B` block sums (`sum_blocks`).
  * The left-nested running sum `((z + s 0) + s 1) + … + s n` is `z` plus the sum of `s` over `0 … n` (`runSum_eq`).
  * Dividing by the literal 0.5 is multiplying by the literal 2.0, on every extended real (`div_half`).
-/
import Idealize.ShloMosaic.PureOps.Ideal.Laws

noncomputable section

open scoped BigOperators

namespace Cert.LibBlockSums

open Idealize.ShloMosaic

/-- A sum over `A * B` consecutive indices, block by block. -/
theorem sum_blocks {M : Type*} [AddCommMonoid M] (A B : Nat) (f : Fin (A * B) → M) :
    ∑ j, f j = ∑ a : Fin A, ∑ b : Fin B, f ⟨a.val * B + b.val, by
      have ha := a.isLt; have hb := b.isLt
      calc a.val * B + b.val < a.val * B + B := by omega
        _ = (a.val + 1) * B := by ring
        _ ≤ A * B := Nat.mul_le_mul_right B ha⟩ := by
  rw [← Equiv.sum_comp (finProdFinEquiv (m := A) (n := B)) f, Fintype.sum_prod_type]
  refine Finset.sum_congr rfl fun a _ => Finset.sum_congr rfl fun b _ => congrArg f (Fin.ext ?_)
  simp only [finProdFinEquiv_apply_val]
  rw [Nat.mul_comm]; omega

/-- The left-nested running sum of `s` started from `z`. -/
def runSum {M : Type*} [Add M] (z : M) (s : Nat → M) : Nat → M
  | 0 => z + s 0
  | n + 1 => runSum z s n + s (n + 1)

theorem runSum_eq {M : Type*} [AddCommMonoid M] (z : M) (s : Nat → M) (n : Nat) :
    runSum z s n = z + ∑ j ∈ Finset.range (n + 1), s j := by
  induction n with
  | zero => simp [runSum]
  | succ n ih => rw [runSum, ih, Finset.sum_range_succ _ (n + 1), add_assoc]

/-- Started from zero and run over all `A` blocks it is the sum over the blocks. -/
theorem runSum_zero_last {M : Type*} [AddCommMonoid M] (A : Nat) (s : Nat → M) :
    runSum 0 s A = ∑ a : Fin (A + 1), s a.val := by
  rw [runSum_eq, zero_add, Finset.sum_range]

/-- The float literal 2.0. -/
theorem ofBits_two : Ideal.ofBits .f32 0x40000000#32 = ((2 : ℝ) : EReal) := by
  simp [Ideal.ofBits, Ideal.ieee, -EReal.coe_mul]; norm_num

/-- The float literal 0.5. -/
theorem ofBits_half : Ideal.ofBits .f32 0x3F000000#32 = ((1 / 2 : ℝ) : EReal) := by
  simp [Ideal.ofBits, Ideal.ieee, -EReal.coe_mul]; norm_num

/-- On every extended real, the quotient by 0.5 is the product with 2.0. -/
theorem div_half (x : EReal) :
    Ideal.div x (Ideal.ofBits .f32 0x3F000000#32) = x * Ideal.ofBits .f32 0x40000000#32 := by
  rw [ofBits_half, ofBits_two, Ideal.div_coe (by norm_num : (1 / 2 : ℝ) ≠ 0)]
  norm_num

end Cert.LibBlockSums

end
-- ==== Proof.TtlSpec.lean ====
/-
  The row totals of exp (2 · X Yᵀ), key block by key block.

  For two [8192, 64] arrays `X` and `Y` of extended reals, a query row `i` and a key block `a` (1024 keys),

      blockTerm X Y i a = ∑ b < 1024, exp ((∑ d < 64, X (i, d) · Y (1024·a + b, d)) · 2.0),

  and `rowTotal X Y` is the column `i ↦ ∑ a < 8, blockTerm X Y i a`.  No program is mentioned here.
-/
import Idealize.ShloMosaic.PureOps.Ideal.Laws
import Idealize.ShloMosaic.Lib.ValueIdx

noncomputable section

open scoped BigOperators

namespace Cert.TtlSpec

open Idealize.ShloMosaic Idealize.ShloMosaic.ValueIdx

/-- One key block's contribution to query row `i`. -/
def blockTerm (X Y : (⟨2, ![8192, 64]⟩ : Shape).Idx → EReal) (i : Fin 8192) (a : Fin 8) : EReal :=
  ∑ b : Fin 1024, Ideal.exp ((∑ d : Fin 64, X (ix2 i d) * Y (ix2 (⟨a.val * 1024 + b.val, by have := a.isLt; have := b.isLt; omega⟩ : Fin 8192) d))
    * Ideal.ofBits .f32 0x40000000#32)

/-- The same for a key block given as a number (zero past the last block). -/
def colTerm (X Y : (⟨2, ![8192, 64]⟩ : Shape).Idx → EReal) (i : Fin 8192) (a : ℕ) : EReal :=
  if h : a < 8 then blockTerm X Y i ⟨a, h⟩ else 0

/-- Every key block's contribution, summed: one value per query row, as a column. -/
def rowTotal (X Y : (⟨2, ![8192, 64]⟩ : Shape).Idx → EReal) : (⟨2, ![8192, 1]⟩ : Shape).Idx → EReal :=
  fun j => ∑ a : Fin 8, blockTerm X Y (j 0) a

end Cert.TtlSpec

end
-- ==== Proof.KI.Column.lean ====
/-
  The region's result as one function of the two arrays it reads.

  Write `X` and `Y` for the two [8192, 64] arrays the region finds (the normalised batches).  At point `t` the
  query window holds rows `[1024·(t/8), 1024·(t/8+1))` of `X` and the key window rows `[1024·(t%8), 1024·(t%8+1))` of `Y`.
  For a query row `i` and a key block `a` put

      B i a = ∑ b < 1024, exp ((∑ d < 64, X (i, d) · Y (1024·a + b, d)) · 2.0).

  By induction on the point, the scratch column after point `t` holds at row `r` the running sum
  `((0 + B i 0) + B i 1) + … + B i (t%8)` for `i = 1024·(t/8) + r`.  At key block 7 the body copies the column to the
  output block and the pipeline writes it back as rows `[1024·(t/8), …)` of the result; those eight blocks tile the
  result, which therefore ends holding `i ↦ ∑ a < 8, B i a`.
-/
import proofs.«127262_j32341103739238_1_alg».proof.Proof.KI.Pieces
import proofs.«127262_j32341103739238_1_alg».proof.Proof.KI.Payload
import proofs.«127262_j32341103739238_1_alg».proof.Proof.LibBlockSums
import proofs.«127262_j32341103739238_1_alg».proof.Proof.TtlSpec

set_option maxRecDepth 16384

noncomputable section

open scoped BigOperators

namespace Cert.KernelIdeal.Around

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.LibBlockSums Cert.TtlSpec

variable (m : (ℓ : Loc nD τ sig) → Buf (Elt Ideal) ℓ)

/-- The printed index maps over the grid: query blocks move with `t / 8`, key blocks with `t % 8`, result blocks
    with `t / 8`; none moves along the short axis. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The query window's block at point `t` is rows of `X`. -/
theorem iblk_q (c : Dev nD) (t : Fin cfg0.N) (u : Fin 8) (hu : t.val / 8 = u.val) (r : Fin 1024) (d : Fin 64) :
    iblk m c 0 t (ix2 r d)
      = V m c main_v108 (ix2 (⟨u.val * 1024 + r.val, by have := u.isLt; have := r.isLt; omega⟩ : Fin 8192) d) := by
  obtain ⟨e0, e1, -, -, -, -⟩ := idx_facts t
  unfold iblk
  rw [View.read_apply]
  show V m c main_v108 (((cfg0.win 0).blk t).view.emb (ix2 r d)) = _
  refine congrArg (V m c main_v108) (funext fun a => Fin.ext ?_)
  match a with
  | ⟨0, _⟩ => show win0_0.index t (0 : Fin 2) * 1024 + 1 * r.val = u.val * 1024 + r.val; omega
  | ⟨1, _⟩ => show win0_0.index t (1 : Fin 2) * 64 + 1 * d.val = d.val; omega

/-- The key window's block at point `t` is rows of `Y`. -/
theorem iblk_k (c : Dev nD) (t : Fin cfg0.N) (a : Fin 8) (ha : t.val % 8 = a.val) (b : Fin 1024) (d : Fin 64) :
    iblk m c 1 t (ix2 b d)
      = V m c main_v115 (ix2 (⟨a.val * 1024 + b.val, by have := a.isLt; have := b.isLt; omega⟩ : Fin 8192) d) := by
  obtain ⟨-, -, e2, e3, -, -⟩ := idx_facts t
  unfold iblk
  rw [View.read_apply]
  show V m c main_v115 (((cfg0.win 1).blk t).view.emb (ix2 b d)) = _
  refine congrArg (V m c main_v115) (funext fun x => Fin.ext ?_)
  match x with
  | ⟨0, _⟩ => show win0_1.index t (0 : Fin 2) * 1024 + 1 * b.val = a.val * 1024 + b.val; omega
  | ⟨1, _⟩ => show win0_1.index t (1 : Fin 2) * 64 + 1 * d.val = d.val; omega

/-- One accumulation step at point `t`, read at row `r`. -/
theorem step_eq (c : Dev nD) (t : Fin cfg0.N) (u : Fin 8) (hu : t.val / 8 = u.val) (a : Fin 8) (ha : t.val % 8 = a.val)
    (prev : Vec Ideal S1024x1 .f32) (r : Fin 1024) :
    k0_pay2 (F := Ideal) (iblk m c 0 t) (iblk m c 1 t) prev (ix2 r (0 : Fin 1))
      = prev (ix2 r (0 : Fin 1))
        + blockTerm (V m c main_v108) (V m c main_v115) (⟨u.val * 1024 + r.val, by have := u.isLt; have := r.isLt; omega⟩ : Fin 8192) a := by
  rw [Payload.pay2_apply]
  refine congrArg (prev (ix2 r (0 : Fin 1)) + ·) (Finset.sum_congr rfl fun b _ => ?_)
  refine congrArg (fun z => Ideal.exp (z * Ideal.ofBits .f32 0x40000000#32)) (Finset.sum_congr rfl fun d _ => ?_)
  rw [iblk_q m c t u hu r d, iblk_k m c t a ha b d]

/-- The scratch column after point `n`, at row `r`: the running sum over the key blocks up to this one. -/
theorem sAt_apply (c : Dev nD) : ∀ (n : ℕ) (hn : n < cfg0.N) (u : Fin 8) (hu : n / 8 = u.val) (r : Fin 1024),
    sAt m c n hn (ix2 r (0 : Fin 1))
      = runSum 0 (colTerm (V m c main_v108) (V m c main_v115) (⟨u.val * 1024 + r.val, by have := u.isLt; have := r.isLt; omega⟩ : Fin 8192)) (n % 8) := by
  intro n
  induction n with
  | zero =>
    intro hn u hu r
    rw [sAt_first m c ⟨0, hn⟩ (Nat.zero_mod 8), sFirst_eq, step_eq m c ⟨0, hn⟩ u hu ⟨0, by norm_num⟩ (Nat.zero_mod 8), Payload.pay1_apply]
    show _ = 0 + colTerm _ _ _ 0
    rw [colTerm, dif_pos (by norm_num : 0 < 8)]
  | succ k ih =>
    intro hn u hu r
    by_cases h0 : (k + 1) % 8 = 0
    · rw [sAt_first m c ⟨k + 1, hn⟩ h0, sFirst_eq, step_eq m c ⟨k + 1, hn⟩ u hu ⟨0, by norm_num⟩ h0, Payload.pay1_apply, h0]
      show _ = 0 + colTerm _ _ _ 0
      rw [colTerm, dif_pos (by norm_num : 0 < 8)]
    · have hk : k < cfg0.N := Nat.lt_of_succ_lt hn
      have hu' : k / 8 = u.val := by omega
      have hmod : (k + 1) % 8 = k % 8 + 1 := by omega
      have hlt : k % 8 + 1 < 8 := by omega
      have IH := ih hk u hu' r
      have hstep : ∀ prev : Vec Ideal S1024x1 .f32,
          k0_pay2 (F := Ideal) (iblk m c 0 ⟨k + 1, hn⟩) (iblk m c 1 ⟨k + 1, hn⟩) prev (ix2 r (0 : Fin 1))
            = prev (ix2 r (0 : Fin 1)) + colTerm (V m c main_v108) (V m c main_v115)
                (⟨u.val * 1024 + r.val, by have := u.isLt; have := r.isLt; omega⟩ : Fin 8192) (k % 8 + 1) := fun prev => by
        rw [step_eq m c ⟨k + 1, hn⟩ u hu ⟨k % 8 + 1, hlt⟩ hmod prev r, colTerm, dif_pos hlt]
      rw [hmod]
      show _ = runSum 0 _ (k % 8) + colTerm _ _ _ (k % 8 + 1)
      rw [← IH]
      by_cases h1 : (k + 1) % 8 = 7
      · rw [sAt_last m c ⟨k + 1, hn⟩ h0 h1, sLast_eq]
        exact hstep _
      · rw [sAt_middle m c ⟨k + 1, hn⟩ h0 h1, sMiddle_eq]
        exact hstep _

/-- What the output block's buffer holds after a point is what the scratch holds (at the last key block the body
    copies the one to the other; elsewhere the buffer's name is a placeholder chosen so). -/
theorem oAt_eq (c : Dev nD) (t : Fin cfg0.N) : oAt m c t = sAt m c t.val t.isLt := by
  by_cases h1 : t.val % 8 = 7
  · have h0 : ¬t.val % 8 = 0 := by omega
    rw [oAt_last m c t h0 h1, oLast_eq, sAt_last m c t h0 h1, sLast_eq]
  · unfold oAt; exact dif_neg h1

/-- The result array's type, spelt as a function of its indices. -/
abbrev resultTy (c : Dev nD) := Buf (Elt Ideal) ((cfg0.win 2).arr.view.loc (c.tc : Thread nD τ))

/-- The region's result array, as a function of the two arrays it reads. -/
def G (c : Dev nD) : resultTy c := rowTotal (V m c main_v108) (V m c main_v115)

/-- What point `t` writes back, at a last key block, is block `t` of `G`. -/
theorem flushed_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  have hN : t.val < 64 := lt64 t.isLt
  obtain ⟨-, -, -, -, e4, e5⟩ := idx_facts t
  show (cfg0.win 2).cut (grid0.coords t) ((dats m 0 c).after 2 t) = _
  rw [after_o, oAt_eq]
  funext j
  have hj0 : (j 0).val < 1024 := (j 0).isLt
  have hj1 : (j 1).val < 1 := (j 1).isLt
  have hj : (j : S1024x1.Idx) = ix2 (⟨(j 0).val, hj0⟩ : Fin 1024) (0 : Fin 1) := funext fun a => Fin.ext (by
    match a with
    | ⟨0, _⟩ => rfl
    | ⟨1, _⟩ => show (j 1).val = 0; omega)
  show sAt m c t.val t.isLt j = G m c (((cfg0.win 2).blk t).view.emb j)
  refine (congrArg (sAt m c t.val t.isLt) hj).trans ?_
  rw [sAt_apply m c t.val t.isLt ⟨t.val / 8, by omega⟩ rfl ⟨(j 0).val, hj0⟩, h7, runSum_zero_last 7]
  show _ = ∑ a : Fin 8, blockTerm _ _ ((((cfg0.win 2).blk t).view.emb j) 0) a
  refine Finset.sum_congr rfl fun a _ => ?_
  rw [colTerm, dif_pos a.isLt]
  refine congrArg (fun i => blockTerm (V m c main_v108) (V m c main_v115) i a) (Fin.ext ?_)
  show t.val / 8 * 1024 + (j 0).val = win0_2.index t (0 : Fin 2) * 1024 + 1 * (j 0).val
  omega

/-- An index of the result is in point `t`'s block iff each coordinate is in the block's range. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v116).slice (win0_2.rect t)).set ↔ _
  rw [View.set_slice_whole, Rect.mem_set_unit]
  exact Iff.rfl

/-- The eight result blocks written back at the last key blocks tile the result. -/
theorem covered (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 64 := N_0
  refine ⟨⟨(i 0).val / 1024 * 8 + 7, by rw [hN]; omega⟩, ?_, ?_⟩
  · exact (flush0_2 _).mpr (by show ((i 0).val / 1024 * 8 + 7) % 8 = 7; omega)
  · obtain ⟨-, -, -, -, e4, e5⟩ := idx_facts ⟨(i 0).val / 1024 * 8 + 7, by rw [hN]; omega⟩
    rw [mem_blk]
    intro a
    match a with
    | ⟨0, _⟩ =>
      show win0_2.index _ (0 : Fin 2) * 1024 ≤ (i 0).val ∧ (i 0).val < win0_2.index _ (0 : Fin 2) * 1024 + 1024
      rw [e4]; show ((i 0).val / 1024 * 8 + 7) / 8 * 1024 ≤ (i 0).val ∧ (i 0).val < ((i 0).val / 1024 * 8 + 7) / 8 * 1024 + 1024
      omega
    | ⟨1, _⟩ =>
      show win0_2.index _ (1 : Fin 2) * 1 ≤ (i 1).val ∧ (i 1).val < win0_2.index _ (1 : Fin 2) * 1 + 1
      rw [e5]; omega

/-- The result array after the run. -/
theorem final (c : Dev nD) : (dats m 0 c).arrAt 2 cfg0.N = G m c :=
  (dats m 0 c).arrAt_eq_of_cover 2 (G m c) (fun t hf => flushed_eq m c t hf) (covered)

end Cert.KernelIdeal.Around

end
-- ==== Proof.KI.Result.lean ====
/-
  The kernel program's result at exact arithmetic.

  At the end of the run the result buffer holds what the host lines after the region compute from the buffers as the
  region leaves them: every buffer as the region found it, except that the region's output array holds the row
  totals `rowTotal X Y` of the two arrays it read (which it leaves unchanged).
-/
import proofs.«127262_j32341103739238_1_alg».proof.Proof.KI.Column

set_option maxRecDepth 16384

noncomputable section

namespace Cert.KernelIdeal.Around

open Idealize.ShloMosaic Idealize.ShloMosaic.TcCoe
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The buffers as the region leaves them: as it found them, the windows' arrays as the write-backs made them. -/
def Wfin (c : Dev nD) : Valuation τ sig (Elt Ideal) :=
  Pipeline.withArrays spec0 c (V0 m c) fun w => (dats m 0 c).arrAt w cfg0.N

/-- The region's output array holds the row totals. -/
theorem Wfin_out (c : Dev nD) : Wfin m c (Proc.devRef .tc main_v116) = G m c :=
  (Pipeline.withArrays_arr spec0 launch0.win.arr_inj c _ _ 2).trans (final m c)

/-- The two arrays the region reads are as it found them. -/
theorem Wfin_q (c : Dev nD) : Wfin m c (Proc.devRef .tc main_v108) = V m c main_v108 :=
  (Pipeline.withArrays_arr spec0 launch0.win.arr_inj c _ _ 0).trans (((dats m 0 c).arrAt_in 0 rfl _).trans (A_eq m c 0))
theorem Wfin_k (c : Dev nD) : Wfin m c (Proc.devRef .tc main_v115) = V m c main_v115 :=
  (Pipeline.withArrays_arr spec0 launch0.win.arr_inj c _ _ 1).trans (((dats m 0 c).arrAt_in 1 rfl _).trans (A_eq m c 1))

/-- The arguments are as launched. -/
theorem Wfin_arg (c : Dev nD) {b : Ref sig .tc} (hb : b ∈ argRefs) (hne : ∀ w, Pipeline.arrRef spec0 w ≠ b) :
    Wfin m c (Proc.devRef .tc b) = m ((c : Thread nD τ).loc b) :=
  (Pipeline.withArrays_of_ne _ c (V0 m c) _ b hne).trans (V_arg m c hb)

theorem Wfin_arg0 (c : Dev nD) : Wfin m c (Proc.devRef .tc main_arg0) = m ((c : Thread nD τ).loc main_arg0) :=
  Wfin_arg m c (by simp [argRefs]) (by decide)
theorem Wfin_arg1 (c : Dev nD) : Wfin m c (Proc.devRef .tc main_arg1) = m ((c : Thread nD τ).loc main_arg1) :=
  Wfin_arg m c (by simp [argRefs]) (by decide)
theorem Wfin_arg2 (c : Dev nD) : Wfin m c (Proc.devRef .tc main_arg2) = m ((c : Thread nD τ).loc main_arg2) :=
  Wfin_arg m c (by simp [argRefs]) (by decide)
theorem Wfin_arg3 (c : Dev nD) : Wfin m c (Proc.devRef .tc main_arg3) = m ((c : Thread nD τ).loc main_arg3) :=
  Wfin_arg m c (by simp [argRefs]) (by decide)
theorem Wfin_arg4 (c : Dev nD) : Wfin m c (Proc.devRef .tc main_arg4) = m ((c : Thread nD τ).loc main_arg4) :=
  Wfin_arg m c (by simp [argRefs]) (by decide)
theorem Wfin_arg5 (c : Dev nD) : Wfin m c (Proc.devRef .tc main_arg5) = m ((c : Thread nD τ).loc main_arg5) :=
  Wfin_arg m c (by simp [argRefs]) (by decide)
theorem Wfin_arg6 (c : Dev nD) : Wfin m c (Proc.devRef .tc main_arg6) = m ((c : Thread nD τ).loc main_arg6) :=
  Wfin_arg m c (by simp [argRefs]) (by decide)
theorem Wfin_arg7 (c : Dev nD) : Wfin m c (Proc.devRef .tc main_arg7) = m ((c : Thread nD τ).loc main_arg7) :=
  Wfin_arg m c (by simp [argRefs]) (by decide)
theorem Wfin_arg8 (c : Dev nD) : Wfin m c (Proc.devRef .tc main_arg8) = m ((c : Thread nD τ).loc main_arg8) :=
  Wfin_arg m c (by simp [argRefs]) (by decide)
theorem Wfin_arg9 (c : Dev nD) : Wfin m c (Proc.devRef .tc main_arg9) = m ((c : Thread nD τ).loc main_arg9) :=
  Wfin_arg m c (by simp [argRefs]) (by decide)

/-- The result of the kernel program: the lines after the region applied to the buffers the region leaves. -/
def result (c : Dev nD) : Buf (Elt Ideal) ((c.tc : Thread nD τ).loc main_v235) :=
  StableHlo.after (tailOps (F := Ideal)).flatten (Wfin m c) (Proc.devRef .tc main_v235)

/-- Every weakly fair execution of the kernel program ends with its result at `result` and its arguments unchanged. -/
theorem result_run : θ_run defs (onTc (τ := τ) (main (F := Ideal))) ⟨m, fun _ => 0, ρ⟩ (fun r => ∀ c : Dev nD,
      r.2.mem ((c.tc : Thread nD τ).loc main_v235) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).2 main_v235 (Pipeline.mem_restRefs_of main_v235 (by decide) (by decide)),
    arg_kept m h c main_arg0 (by simp [argRefs]) (Pipeline.mem_restRefs_of main_arg0 (by decide) (by decide)) (by decide),
    arg_kept m h c main_arg1 (by simp [argRefs]) (Pipeline.mem_restRefs_of main_arg1 (by decide) (by decide)) (by decide),
    arg_kept m h c main_arg2 (by simp [argRefs]) (Pipeline.mem_restRefs_of main_arg2 (by decide) (by decide)) (by decide),
    arg_kept m h c main_arg3 (by simp [argRefs]) (Pipeline.mem_restRefs_of main_arg3 (by decide) (by decide)) (by decide),
    arg_kept m h c main_arg4 (by simp [argRefs]) (Pipeline.mem_restRefs_of main_arg4 (by decide) (by decide)) (by decide),
    arg_kept m h c main_arg5 (by simp [argRefs]) (Pipeline.mem_restRefs_of main_arg5 (by decide) (by decide)) (by decide),
    arg_kept m h c main_arg6 (by simp [argRefs]) (Pipeline.mem_restRefs_of main_arg6 (by decide) (by decide)) (by decide),
    arg_kept m h c main_arg7 (by simp [argRefs]) (Pipeline.mem_restRefs_of main_arg7 (by decide) (by decide)) (by decide),
    arg_kept m h c main_arg8 (by simp [argRefs]) (Pipeline.mem_restRefs_of main_arg8 (by decide) (by decide)) (by decide),
    arg_kept m h c main_arg9 (by simp [argRefs]) (Pipeline.mem_restRefs_of main_arg9 (by decide) (by decide)) (by decide)⟩)
    (run_main m ρ)

end Cert.KernelIdeal.Around

end
-- ==== Proof.RefTtl.lean ====
/-
  The reference's row totals.

  The reference transposes `Y`, multiplies `X` by it on the host (a [8192, 64] by [64, 8192] product), divides every
  score by 0.5, exponentiates, and sums each row over all 8192 keys from an initial value of zero.  At query row `i`
  this is `0 + ∑ j < 8192, exp ((∑ d < 64, X (i, d) · Y (j, d)) / 0.5)`.  Dividing by 0.5 is multiplying by 2.0 on every
  extended real, and a sum over 8192 keys is the sum over 8 blocks of the 1024 block sums: the row total of the
  specification.
-/
import proofs.«127262_j32341103739238_1_alg».proof.ReferenceIdeal
import proofs.«127262_j32341103739238_1_alg».proof.Proof.Gen.ReferenceIdeal
import proofs.«127262_j32341103739238_1_alg».proof.Proof.TtlSpec
import proofs.«127262_j32341103739238_1_alg».proof.Proof.LibBlockSums
import Idealize.ShloMosaic.Lib.IdealHost
import Idealize.ShloMosaic.Lib.Pipeline.Value

set_option maxRecDepth 16384

noncomputable section

open scoped BigOperators

namespace Cert.ReferenceIdeal.Ttl

open Idealize.ShloMosaic Idealize.ShloMosaic.ValueIdx
open Cert.ReferenceIdeal Cert.ReferenceIdeal.Facts₀ Cert.TtlSpec Cert.LibBlockSums

/-- The reference's row totals as a function of the two arrays. -/
def refTotal (X Y : FVec Ideal S8192x64 .f32) : FVec Ideal S8192 .f32 :=
  Host.reduceAdd (Host.exp (Host.divf
      (Host.dotGeneral dot_S8192x64_S64x8192_S8192x8192_1_0_0_1_n_n none X (transpose S64x8192 [1, 0] Y transposes_S8192x64_S64x8192_1_0))
      (broadcastInDim S8192x8192 ![] bcast_S_S8192x8192 (constant S_ .f32 0x3F000000#32))))
    (constant S_ .f32 0x00000000#32) reducesTo_S8192x8192_S8192_d1 h_S_

/-- The host product of `X` with the transpose of `Y` at `(i, j)`. -/
theorem scores_apply (X Y : FVec Ideal S8192x64 .f32) (i j : Fin 8192) :
    Host.dotGeneral dot_S8192x64_S64x8192_S8192x8192_1_0_0_1_n_n none X (transpose S64x8192 [1, 0] Y transposes_S8192x64_S64x8192_1_0) (ix2 i j)
      = ∑ d : Fin 64, X (ix2 i d) * Y (ix2 j d) := by
  simp only [Host.dotGeneral]
  rw [Ideal.dotGeneral_apply,
    ← Equiv.sum_comp (contrEquiv1 dot_S8192x64_S64x8192_S8192x8192_1_0_0_1_n_n 64 rfl rfl).symm]
  refine Finset.sum_congr rfl fun k _ => ?_
  have hk := contrEquiv1_symm_val dot_S8192x64_S64x8192_S8192x8192_1_0_0_1_n_n 64 rfl rfl k
  have el : dot_S8192x64_S64x8192_S8192x8192_1_0_0_1_n_n.lhsIdx (ix2 i j)
      ((contrEquiv1 dot_S8192x64_S64x8192_S8192x8192_1_0_0_1_n_n 64 rfl rfl).symm k) = ix2 i k :=
    funext fun a => Fin.ext (by
      match a with
      | ⟨0, _⟩ => rfl
      | ⟨1, _⟩ => exact (DotDims.lhsIdx_val_of_single _ rfl _ _).trans hk)
  have er : dot_S8192x64_S64x8192_S8192x8192_1_0_0_1_n_n.rhsIdx (ix2 i j)
      ((contrEquiv1 dot_S8192x64_S64x8192_S8192x8192_1_0_0_1_n_n 64 rfl rfl).symm k) = ix2 k j :=
    funext fun a => Fin.ext (by
      match a with
      | ⟨0, _⟩ => exact (DotDims.rhsIdx_val_of_single _ rfl _ _).trans hk
      | ⟨1, _⟩ => rfl)
  rw [el, er]
  refine congrArg (X (ix2 i k) * ·) ?_
  exact transpose_apply [1, 0] Y transposes_S8192x64_S64x8192_1_0 (ix2 k j) (ix2 j k) (fun b => by
    match b with
    | ⟨0, _⟩ => rfl
    | ⟨1, _⟩ => rfl)

/-- The reference's row total at row `i` is the specification's. -/
theorem refTotal_apply (X Y : FVec Ideal S8192x64 .f32) (i : Fin 8192) :
    refTotal X Y (ix1 i) = ∑ a : Fin 8, blockTerm X Y i a := by
  have hred : S8192x8192.Reduces [(1 : Fin 2)] S8192 := by decide
  unfold refTotal
  rw [hostReduceAdd_apply, Ideal.hostReduceAdd_single reducesTo_S8192x8192_S8192_d1 hred]
  have h0 : (constant (F := Ideal) S_ .f32 0x00000000#32) (Shape.Idx.first h_S_) = 0 := Ideal.ofBits_zero_f32
  rw [h0, zero_add]
  have hterm : ∀ j : Fin 8192,
      Host.exp (Host.divf
        (Host.dotGeneral dot_S8192x64_S64x8192_S8192x8192_1_0_0_1_n_n none X (transpose S64x8192 [1, 0] Y transposes_S8192x64_S64x8192_1_0))
        (broadcastInDim S8192x8192 ![] bcast_S_S8192x8192 (constant S_ .f32 0x3F000000#32))) (hred.lift (ix1 i) j)
      = Ideal.exp ((∑ d : Fin 64, X (ix2 i d) * Y (ix2 j d)) * Ideal.ofBits .f32 0x40000000#32) := fun j => by
    have hl : hred.lift (ix1 i) j = ix2 i j := funext fun a => Fin.ext (by
      match a with
      | ⟨0, _⟩ => rfl
      | ⟨1, _⟩ => rfl)
    rw [hl]
    show Ideal.exp (Ideal.div (Host.dotGeneral dot_S8192x64_S64x8192_S8192x8192_1_0_0_1_n_n none X _ (ix2 i j))
      (broadcastInDim S8192x8192 ![] bcast_S_S8192x8192 (constant (F := Ideal) S_ .f32 0x3F000000#32) (ix2 i j))) = _
    rw [scores_apply, broadcastInDim_scalar_apply]
    show Ideal.exp (Ideal.div _ (Ideal.ofBits .f32 0x3F000000#32)) = _
    rw [div_half]
  refine (Finset.sum_congr rfl fun j _ => hterm j).trans ?_
  refine (sum_blocks 8 1024 (fun j : Fin (8 * 1024) =>
    Ideal.exp ((∑ d : Fin 64, X (ix2 i d) * Y (ix2 (j : Fin 8192) d)) * Ideal.ofBits .f32 0x40000000#32))).trans ?_
  rfl

end Cert.ReferenceIdeal.Ttl

end
-- ==== Proof.Bridge.lean ====
/-
  The two idealized programs compute the same number.

  Both programs run the same host operations on the same arguments, except for one operand of one quotient: the
  reference divides by the row totals of `exp (X Yᵀ / 0.5)`, computed on the host with one big product; the kernel
  program divides by the column its region wrote, reshaped to a vector.  The region's column holds, at row `i`, the
  sum over the eight key blocks of the block sums of `exp ((X Yᵀ) · 2.0)`.  On the extended reals dividing by 0.5 is
  multiplying by 2.0, and a sum over 8192 keys is the sum of its eight block sums, so the two operands are the same
  vector; everything around them is the same term of the same arguments.
-/
import proofs.«127262_j32341103739238_1_alg».proof.Defs
import proofs.«127262_j32341103739238_1_alg».proof.Proof.KI.Result
import proofs.«127262_j32341103739238_1_alg».proof.Proof.RefTtl
import proofs.«127262_j32341103739238_1_alg».proof.Proof.RefRun
import proofs.«127262_j32341103739238_1_alg».proof.Proof.Gen.Pre_finite_inputs

set_option maxRecDepth 16384

noncomputable section

namespace Cert.Proof.Bridge

open Idealize.ShloMosaic Idealize.ShloMosaic.TcCoe Idealize.ShloMosaic.StableHlo Idealize.ShloMosaic.ValueIdx
open Idealize.SL.Sem
open Cert.KernelIdeal Cert.KernelIdeal.Gen Cert.KernelIdeal.Around Cert.TtlSpec

variable (m : (ℓ : Loc nD τ sig) → Buf (Elt Ideal) ℓ)

/-- The region's column, reshaped to a vector, is the reference's vector of row totals of the same two arrays. -/
theorem ttl_kernel (c : Dev nD) :
    (fun i => shapeCast main_v117.ty.shape (G m c) Facts₀.shapeCasts_S8192x1_S8192 i)
      = Cert.ReferenceIdeal.Ttl.refTotal (V m c main_v108) (V m c main_v115) := by
  funext i
  have hi : i = ix1 (i 0) := eq_ix1 i
  rw [hi]
  refine (Cert.LibVectorReads.shapeCast_a1_a_apply _ _ (i 0)).trans ?_
  exact (Cert.ReferenceIdeal.Ttl.refTotal_apply _ _ (i 0)).symm

/-- Contents carried to a typed reference's buffer and back are unchanged. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The outlined softplus function receives its operand and returns its result through buffers of @main, whose
    types are the values' types: the transport is the identity. -/
theorem toBuf_out (v : (⟨S262144, .f32⟩ : BufTy).Contents (Elt Ideal)) :
    (TRef.of main_v228 : TRef sig ⟨S262144, .f32⟩).toBuf v = v := rfl
theorem ofBuf_in (v : (⟨S262144, .f32⟩ : BufTy).Contents (Elt Ideal)) :
    (TRef.of main_v227 : TRef sig ⟨S262144, .f32⟩).ofBuf v = v := rfl

set_option maxRecDepth 65536 in
set_option maxHeartbeats 1000000000 in
/-- From memories agreeing on the ten arguments, the kernel program's result is the reference's. -/
theorem value_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    result m c = Cert.ReferenceIdeal.RefValue.res_main_v239 m' c := by
  unfold result
  simp only [tailOps, List.flatten_cons, List.flatten_nil, List.append_nil, hostOps1, hostOps1_1, hostOps1_2, List.cons_append, List.nil_append]
  after_results_simp
  simp only [ofBuf_toBuf, toBuf_out, ofBuf_in]
  rw [Wfin_out m c, Wfin_q m c, Wfin_k m c]
  try rw [Wfin_arg0 m c]
  try rw [Wfin_arg1 m c]
  try rw [Wfin_arg2 m c]
  try rw [Wfin_arg3 m c]
  try rw [Wfin_arg4 m c]
  try rw [Wfin_arg5 m c]
  try rw [Wfin_arg6 m c]
  try rw [Wfin_arg7 m c]
  try rw [Wfin_arg8 m c]
  try rw [Wfin_arg9 m c]
  rw [ttl_kernel m c]
  unfold Cert.ReferenceIdeal.Ttl.refTotal
  simp only [V, V0, List.flatten_cons, List.flatten_nil, List.append_nil, hostOps0]
  after_results_simp
  unfold Cert.ReferenceIdeal.RefValue.res_main_v239
  try rw [h0]
  try rw [h1]
  try rw [h2]
  try rw [h3]
  try rw [h4]
  try rw [h5]
  try rw [h6]
  try rw [h7]
  try rw [h8]
  try rw [h9]
  rfl

/-- The two idealized programs, run from memories agreeing on the arguments, end with equal results. -/
theorem algebraic : Cert.algebraic_KernelIdeal_ReferenceIdeal := by
  intro m ρ m' ρ' _ hagree
  refine ⟨fun c => result m c, result_run m ρ, ?_⟩
  refine (θ_run Cert.ReferenceIdeal.defs _ _).mono (fun _ h c => ⟨(h c).1.trans ?_, (h c).2⟩)
    (Cert.ReferenceIdeal.RefValue.run (F := Ideal) m' ρ')
  exact (value_eq m m' c (hagree c).1 (hagree c).2.1 (hagree c).2.2.1 (hagree c).2.2.2.1 (hagree c).2.2.2.2.1
    (hagree c).2.2.2.2.2.1 (hagree c).2.2.2.2.2.2.1 (hagree c).2.2.2.2.2.2.2.1 (hagree c).2.2.2.2.2.2.2.2.1
    (hagree c).2.2.2.2.2.2.2.2.2).symm

end Cert.Proof.Bridge

end
-- ==== Proof.lean ====
/-
  The certificate's claim, assembled.

  The kernel computes, for a batch of 8192 nodes, the row totals of exp (2 · X Yᵀ) of two normalised embedding
  batches, tiled 8 by 8 with a scratch column carried along the key axis; everything else of the loss — three rounds
  of sparse propagation per view, the normalisation, the ranking and regularisation terms — is the same host code in
  both programs.  The pieces:

  * the word-level and the idealized kernel programs each run to the end without a fault and leave their arguments
    unchanged (the frame of a region between host lines, the body run symbolically in its three control cases);
  * so does the reference, a sequence of host operations;
  * the idealization rewrote nothing, so there is nothing to preserve;
  * at exact arithmetic the two idealized programs end with the same number: the region's column is the reference's
    vector of row totals (x / 0.5 = x · 2.0 on every extended real; a sum over 8192 keys is the sum of its eight block
    sums), and every other operation is shared.
-/
import proofs.«127262_j32341103739238_1_alg».proof.Defs
import proofs.«127262_j32341103739238_1_alg».proof.Proof.KB.FrameClaim
import proofs.«127262_j32341103739238_1_alg».proof.Proof.KI.FrameClaim
import proofs.«127262_j32341103739238_1_alg».proof.Proof.RefFrame
import proofs.«127262_j32341103739238_1_alg».proof.Proof.Bridge
import proofs.«127262_j32341103739238_1_alg».proof.Proof.Gen.Kernel
import proofs.«127262_j32341103739238_1_alg».proof.Proof.Gen.KernelIdeal
import proofs.«127262_j32341103739238_1_alg».proof.Proof.Gen.ReferenceIdeal
import proofs.«127262_j32341103739238_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Around.frame m ρ,
    fun m ρ _ => Cert.KernelIdeal.Around.frame m ρ,
    Cert.Proof.RefSide.frame_reference,
    trivial,
    Cert.Proof.Bridge.algebraic⟩

end Cert.Proof

end
